-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000 : Shape := ⟨1, ![10000]⟩
abbrev S3x160000x8 : Shape := ⟨3, ![3, 160000, 8]⟩
abbrev S3x2x160000 : Shape := ⟨3, ![3, 2, 160000]⟩
abbrev S8x3 : Shape := ⟨2, ![8, 3]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S3x160000x8 : S_.BroadcastsInDim S3x160000x8 (![] : Fin 0 → Fin S3x160000x8.rank)
  reducesTo_S3x160000x8_S_d0_1_2 : S3x160000x8.ReducesTo [0, 1, 2] S_
  bcast_S_S8x3 : S_.BroadcastsInDim S8x3 (![] : Fin 0 → Fin S8x3.rank)
  reducesTo_S8x3_S_d0_1 : S8x3.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S10000x512 .f32) (main_arg1 : IVec S10000 32) (main_arg2 : FVec F S3x160000x8 .f32) (main_arg3 : IVec S3x2x160000 32) (main_arg4 : FVec F S8x3 .f32) (main_arg5 : FVec F S512x512 .f32) (main_arg6 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S3x160000x8 .f32 := Host.absf main_arg2
  let main_cst_0 : FVec F S_ .f32 := constant S_ .f32 0x7F800000#32
  let main_v5 : FVec F S3x160000x8 .f32 := broadcastInDim S3x160000x8 ![] bcast_S_S3x160000x8 main_cst_0
  let main_v6 : IVec S3x160000x8 1 := cmpf .olt main_v4 main_v5
  let main_c_1 : IVec S_ 1 := constantI S_ 1 1#1
  let main_v7 : IVec S_ 1 := (fun x v => Host.reduce IntOp.andi x v reducesTo_S3x160000x8_S_d0_1_2 h_S_) main_v6 main_c_1
  let main_v8 : IVec S_ 1 := andi main_v3 main_v7
  let main_v9 : FVec F S8x3 .f32 := Host.absf main_arg4
  let main_cst_2 : FVec F S_ .f32 := constant S_ .f32 0x7F800000#32
  let main_v10 : FVec F S8x3 .f32 := broadcastInDim S8x3 ![] bcast_S_S8x3 main_cst_2
  let main_v11 : IVec S8x3 1 := cmpf .olt main_v9 main_v10
  let main_c_3 : IVec S_ 1 := constantI S_ 1 1#1
  let main_v12 : IVec S_ 1 := (fun x v => Host.reduce IntOp.andi x v reducesTo_S8x3_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_v13 main_v16
-- ==== Kernel.lean ====
abbrev S10000x512 : Shape := ⟨2, ![10000, 512]⟩
abbrev S10000 : Shape := ⟨1, ![10000]⟩
abbrev S3x160000x8 : Shape := ⟨3, ![3, 160000, 8]⟩
abbrev S3x2x160000 : Shape := ⟨3, ![3, 2, 160000]⟩
abbrev S8x3 : Shape := ⟨2, ![8, 3]⟩
abbrev S512x512 : Shape := ⟨2, ![512, 512]⟩
abbrev S512 : Shape := ⟨1, ![512]⟩
abbrev S3x8 : Shape := ⟨2, ![3, 8]⟩
abbrev S3x1x8 : Shape := ⟨3, ![3, 1, 8]⟩
abbrev S480000x8 : Shape := ⟨2, ![480000, 8]⟩
abbrev S2x3x160000 : Shape := ⟨3, ![2, 3, 160000]⟩
abbrev S2x480000 : Shape := ⟨2, ![2, 480000]⟩
abbrev S_ : Shape := ⟨0, ![]⟩
abbrev S10000x1 : Shape := ⟨2, ![10000, 1]⟩
abbrev S1x480000 : Shape := ⟨2, ![1, 480000]⟩
abbrev S480000 : Shape := ⟨1, ![480000]⟩
abbrev S480000x1 : Shape := ⟨2, ![480000, 1]⟩
abbrev S1000x512 : Shape := ⟨2, ![1000, 512]⟩
abbrev S240000 : Shape := ⟨1, ![240000]⟩
abbrev S128 : Shape := ⟨1, ![128]⟩
abbrev S240128 : Shape := ⟨1, ![240128]⟩
abbrev S480256 : Shape := ⟨1, ![480256]⟩
abbrev S240000x8 : Shape := ⟨2, ![240000, 8]⟩
abbrev S128x8 : Shape := ⟨2, ![128, 8]⟩
abbrev S240128x8 : Shape := ⟨2, ![240128, 8]⟩
abbrev S480256x8 : Shape := ⟨2, ![480256, 8]⟩
abbrev S2x10000x512 : Shape := ⟨3, ![2, 10000, 512]⟩
abbrev S256 : Shape := ⟨1, ![256]⟩
abbrev S256x8 : Shape := ⟨2, ![256, 8]⟩
abbrev S1x10000x512 : Shape := ⟨3, ![1, 10000, 512]⟩
abbrev S256x512 : Shape := ⟨2, ![256, 512]⟩
abbrev S1x1000 : Shape := ⟨2, ![1, 1000]⟩
abbrev S256x1 : Shape := ⟨2, ![256, 1]⟩
abbrev S256x1000 : Shape := ⟨2, ![256, 1000]⟩
abbrev S256x8x1 : Shape := ⟨3, ![256, 8, 1]⟩
abbrev S256x8x64 : Shape := ⟨3, ![256, 8, 64]⟩
abbrev S1000x1 : Shape := ⟨2, ![1000, 1]⟩
abbrev S1x256 : Shape := ⟨2, ![1, 256]⟩
abbrev S1000x256 : Shape := ⟨2, ![1000, 256]⟩
abbrev S1x1000x512 : Shape := ⟨3, ![1, 1000, 512]⟩
abbrev S1x512 : Shape := ⟨2, ![1, 512]⟩

abbrev nBuf : Space → Nat
  | .hbm => 91
  | .vmem => 13
  | .smem => 0
  | _ => 0

abbrev bufTy : (tb : Table) → Fin (tcTables nBuf tb) → BufTy
  | .hbm, ⟨0, _⟩ => ⟨S10000x512, .f32⟩
  | .hbm, ⟨1, _⟩ => ⟨S10000, .i32⟩
  | .hbm, ⟨2, _⟩ => ⟨S3x160000x8, .f32⟩
  | .hbm, ⟨3, _⟩ => ⟨S3x2x160000, .i32⟩
  | .hbm, ⟨4, _⟩ => ⟨S8x3, .f32⟩
  | .hbm, ⟨5, _⟩ => ⟨S512x512, .f32⟩
  | .hbm, ⟨6, _⟩ => ⟨S512, .f32⟩
  | .hbm, ⟨7, _⟩ => ⟨S3x8, .f32⟩
  | .hbm, ⟨8, _⟩ => ⟨S3x1x8, .f32⟩
  | .hbm, ⟨9, _⟩ => ⟨S3x160000x8, .f32⟩
  | .hbm, ⟨10, _⟩ => ⟨S3x160000x8, .f32⟩
  | .hbm, ⟨11, _⟩ => ⟨S480000x8, .f32⟩
  | .hbm, ⟨12, _⟩ => ⟨S2x3x160000, .i32⟩
  | .hbm, ⟨13, _⟩ => ⟨S2x480000, .i32⟩
  | .hbm, ⟨14, _⟩ => ⟨S_, .i32⟩
  | .hbm, ⟨15, _⟩ => ⟨S10000, .i32⟩
  | .hbm, ⟨16, _⟩ => ⟨S10000, .i32⟩
  | .hbm, ⟨17, _⟩ => ⟨S_, .i32⟩
  | .hbm, ⟨18, _⟩ => ⟨S10000, .i32⟩
  | .hbm, ⟨19, _⟩ => ⟨S10000, .i1⟩
  | .hbm, ⟨20, _⟩ => ⟨S_, .i32⟩
  | .hbm, ⟨21, _⟩ => ⟨S10000, .i32⟩
  | .hbm, ⟨22, _⟩ => ⟨S10000, .i32⟩
  | .hbm, ⟨23, _⟩ => ⟨S10000, .i32⟩
  | .hbm, ⟨24, _⟩ => ⟨S10000x1, .i32⟩
  | .hbm, ⟨25, _⟩ => ⟨S10000, .i32⟩
  | .hbm, ⟨26, _⟩ => ⟨S1x480000, .i32⟩
  | .hbm, ⟨27, _⟩ => ⟨S480000, .i32⟩
  | .hbm, ⟨28, _⟩ => ⟨S_, .i32⟩
  | .hbm, ⟨29, _⟩ => ⟨S480000, .i32⟩
  | .hbm, ⟨30, _⟩ => ⟨S480000, .i1⟩
  | .hbm, ⟨31, _⟩ => ⟨S_, .i32⟩
  | .hbm, ⟨32, _⟩ => ⟨S480000, .i32⟩
  | .hbm, ⟨33, _⟩ => ⟨S480000, .i32⟩
  | .hbm, ⟨34, _⟩ => ⟨S480000, .i32⟩
  | .hbm, ⟨35, _⟩ => ⟨S480000x1, .i32⟩
  | .hbm, ⟨36, _⟩ => ⟨S480000, .i32⟩
  | .hbm, ⟨37, _⟩ => ⟨S1x480000, .i32⟩
  | .hbm, ⟨38, _⟩ => ⟨S480000, .i32⟩
  | .hbm, ⟨39, _⟩ => ⟨S_, .i32⟩
  | .hbm, ⟨40, _⟩ => ⟨S480000, .i32⟩
  | .hbm, ⟨41, _⟩ => ⟨S480000, .i1⟩
  | .hbm, ⟨42, _⟩ => ⟨S_, .i32⟩
  | .hbm, ⟨43, _⟩ => ⟨S480000, .i32⟩
  | .hbm, ⟨44, _⟩ => ⟨S480000, .i32⟩
  | .hbm, ⟨45, _⟩ => ⟨S480000, .i32⟩
  | .hbm, ⟨46, _⟩ => ⟨S480000x1, .i32⟩
  | .hbm, ⟨47, _⟩ => ⟨S480000, .i32⟩
  | .hbm, ⟨48, _⟩ => ⟨S_, .i32⟩
  | .hbm, ⟨49, _⟩ => ⟨S10000, .i32⟩
  | .hbm, ⟨50, _⟩ => ⟨S10000, .i1⟩
  | .hbm, ⟨51, _⟩ => ⟨S_, .i32⟩
  | .hbm, ⟨52, _⟩ => ⟨S10000, .i32⟩
  | .hbm, ⟨53, _⟩ => ⟨S10000, .i32⟩
  | .hbm, ⟨54, _⟩ => ⟨S10000, .i32⟩
  | .hbm, ⟨55, _⟩ => ⟨S10000x1, .i32⟩
  | .hbm, ⟨56, _⟩ => ⟨S10000x512, .f32⟩
  | .hbm, ⟨57, _⟩ => ⟨S10000x512, .bf16⟩
  | .hbm, ⟨58, _⟩ => ⟨S240000, .i32⟩
  | .hbm, ⟨59, _⟩ => ⟨S_, .i32⟩
  | .hbm, ⟨60, _⟩ => ⟨S128, .i32⟩
  | .hbm, ⟨61, _⟩ => ⟨S240128, .i32⟩
  | .hbm, ⟨62, _⟩ => ⟨S240000, .i32⟩
  | .hbm, ⟨63, _⟩ => ⟨S_, .i32⟩
  | .hbm, ⟨64, _⟩ => ⟨S128, .i32⟩
  | .hbm, ⟨65, _⟩ => ⟨S240128, .i32⟩
  | .hbm, ⟨66, _⟩ => ⟨S480256, .i32⟩
  | .hbm, ⟨67, _⟩ => ⟨S240000, .i32⟩
  | .hbm, ⟨68, _⟩ => ⟨S_, .i32⟩
  | .hbm, ⟨69, _⟩ => ⟨S128, .i32⟩
  | .hbm, ⟨70, _⟩ => ⟨S240128, .i32⟩
  | .hbm, ⟨71, _⟩ => ⟨S240000, .i32⟩
  | .hbm, ⟨72, _⟩ => ⟨S_, .i32⟩
  | .hbm, ⟨73, _⟩ => ⟨S128, .i32⟩
  | .hbm, ⟨74, _⟩ => ⟨S240128, .i32⟩
  | .hbm, ⟨75, _⟩ => ⟨S480256, .i32⟩
  | .hbm, ⟨76, _⟩ => ⟨S240000x8, .f32⟩
  | .hbm, ⟨77, _⟩ => ⟨S_, .f32⟩
  | .hbm, ⟨78, _⟩ => ⟨S128x8, .f32⟩
  | .hbm, ⟨79, _⟩ => ⟨S240128x8, .f32⟩
  | .hbm, ⟨80, _⟩ => ⟨S240000x8, .f32⟩
  | .hbm, ⟨81, _⟩ => ⟨S_, .f32⟩
  | .hbm, ⟨82, _⟩ => ⟨S128x8, .f32⟩
  | .hbm, ⟨83, _⟩ => ⟨S240128x8, .f32⟩
  | .hbm, ⟨84, _⟩ => ⟨S480256x8, .f32⟩
  | .hbm, ⟨85, _⟩ => ⟨S2x10000x512, .f32⟩
  | .hbm, ⟨86, _⟩ => ⟨S_, .f32⟩
  | .hbm, ⟨87, _⟩ => ⟨S10000x512, .f32⟩
  | .hbm, ⟨88, _⟩ => ⟨S1x512, .f32⟩
  | .hbm, ⟨89, _⟩ => ⟨S10000x512, .f32⟩
  | .hbm, ⟨90, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x512, .bf16⟩
  | .local _ .vmem, ⟨4, _⟩ => ⟨S1000x512, .bf16⟩
  | .local _ .vmem, ⟨5, _⟩ => ⟨S10000x512, .bf16⟩
  | .local _ .vmem, ⟨6, _⟩ => ⟨S256, .i32⟩
  | .local _ .vmem, ⟨7, _⟩ => ⟨S256, .i32⟩
  | .local _ .vmem, ⟨8, _⟩ => ⟨S256, .i32⟩
  | .local _ .vmem, ⟨9, _⟩ => ⟨S256, .i32⟩
  | .local _ .vmem, ⟨10, _⟩ => ⟨S256x8, .f32⟩
  | .local _ .vmem, ⟨11, _⟩ => ⟨S256x8, .f32⟩
  | .local _ .vmem, ⟨12, _⟩ => ⟨S1x10000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 938], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let arg1 : BitVec 32 := BitVec.ofNat 32 (i 1).val
  let c938_i32 : BitVec 32 := 938#32
  let v0 : BitVec 32 := Scalar.muli arg0 c938_i32
  let v1 : BitVec 32 := Scalar.addi v0 arg1
  let c0_i32 : BitVec 32 := 0#32
  ![v1.toNat]

def cc1_transform_2 (i : grid1.Coords) : Fin 1 → Nat :=
  let arg0 : BitVec 32 := BitVec.ofNat 32 (i 0).val
  let arg1 : BitVec 32 := BitVec.ofNat 32 (i 1).val
  let c938_i32 : BitVec 32 := 938#32
  let v0 : BitVec 32 := Scalar.muli arg0 c938_i32
  let v1 : BitVec 32 := Scalar.addi v0 arg1
  let c0_i32 : BitVec 32 := 0#32
  ![v1.toNat]

def cc1_transform_3 (i : grid1.Coords) : Fin 2 → Nat :=
  let arg0 : BitVec 32 := BitVec.ofNat 32 (i 0).val
  let arg1 : BitVec 32 := BitVec.ofNat 32 (i 1).val
  let c938_i32 : BitVec 32 := 938#32
  let v0 : BitVec 32 := Scalar.muli arg0 c938_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S10000x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x10000x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  transposes_S8x3_S3x8_1_0 : S8x3.Transposes [1, 0] S3x8
  bcast_S3x8_S3x1x8_0_2 : S3x8.BroadcastsInDim S3x1x8 (![0, 2] : Fin 2 → Fin S3x1x8.rank)
  bcast_S3x1x8_S3x160000x8_0_1_2 : S3x1x8.BroadcastsInDim S3x160000x8 (![0, 1, 2] : Fin 3 → Fin S3x160000x8.rank)
  shapeCasts_S3x160000x8_S480000x8 : S3x160000x8.ShapeCasts S480000x8
  transposes_S3x2x160000_S2x3x160000_1_0_2 : S3x2x160000.Transposes [1, 0, 2] S2x3x160000
  shapeCasts_S2x3x160000_S2x480000 : S2x3x160000.ShapeCasts S2x480000
  bcast_S_S10000 : S_.BroadcastsInDim S10000 (![] : Fin 0 → Fin S10000.rank)
  bcast_S10000_S10000x1_0 : S10000.BroadcastsInDim S10000x1 (![0] : Fin 1 → Fin S10000x1.rank)
  slices_S2x480000_S1x480000_0_0 : S2x480000.Slices ![0, 0] S1x480000
  shapeCasts_S1x480000_S480000 : S1x480000.ShapeCasts S480000
  bcast_S_S480000 : S_.BroadcastsInDim S480000 (![] : Fin 0 → Fin S480000.rank)
  bcast_S480000_S480000x1_0 : S480000.BroadcastsInDim S480000x1 (![0] : Fin 1 → Fin S480000x1.rank)
  slices_S2x480000_S1x480000_1_0 : S2x480000.Slices ![1, 0] S1x480000
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1000x512_S1000x512_0_0 : (Rect.unit (s := S1000x512) ![0, 0] S1000x512.size inb_S1000x512_S1000x512_0_0).PackedRows (EltTy.packing .bf16)
  slices_S480000_S240000_0 : S480000.Slices ![0] S240000
  bcast_S_S128 : S_.BroadcastsInDim S128 (![] : Fin 0 → Fin S128.rank)
  concatenates_S240000_S128_S240128_d0 : Shape.Concatenates [S240000, S128] S240128 0
  slices_S480000_S240000_240000 : S480000.Slices ![240000] S240000
  concatenates_S240128_S240128_S480256_d0 : Shape.Concatenates [S240128, S240128] S480256 0
  slices_S480000x8_S240000x8_0_0 : S480000x8.Slices ![0, 0] S240000x8
  bcast_S_S128x8 : S_.BroadcastsInDim S128x8 (![] : Fin 0 → Fin S128x8.rank)
  concatenates_S240000x8_S128x8_S240128x8_d0 : Shape.Concatenates [S240000x8, S128x8] S240128x8 0
  slices_S480000x8_S240000x8_240000_0 : S480000x8.Slices ![240000, 0] S240000x8
  concatenates_S240128x8_S240128x8_S480256x8_d0 : Shape.Concatenates [S240128x8, S240128x8] S480256x8 0
  inb_S1x10000x512_S1x10000x512_0_0_0 : ∀ a, (![0, 0, 0] : Fin 3 → Nat) a + S1x10000x512.size a ≤ S1x10000x512.size a
  h_S1x10000x512 : 0 < S1x10000x512.numel
  shapeCasts_S1x10000x512_S10000x512 : S1x10000x512.ShapeCasts S10000x512
  shapeCasts_S10000x512_S1x10000x512 : S10000x512.ShapeCasts S1x10000x512
  inb_S256_S256_0 : ∀ a, (![0] : Fin 1 → Nat) a + S256.size a ≤ S256.size a
  h_S256 : 0 < S256.numel
  shapeCasts_S256_S256 : S256.ShapeCasts S256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  iota_S1x1000_d1_w32 : S1x1000.Iotas .tc 32 [1]
  shapeCasts_S256_S256x1 : S256.ShapeCasts S256x1
  broadcasts_S256x1_S256x1000 : S256x1.Broadcasts S256x1000
  broadcasts_S1x1000_S256x1000 : S1x1000.Broadcasts S256x1000
  natLt_1_32 : 1 < 32
  inb_S10000x512_S1000x512_0_0 : ∀ a, (![0, 0] : Fin 2 → Nat) a + S1000x512.size a ≤ S10000x512.size a
  inb_S10000x512_S1000x512_1000_0 : ∀ a, (![1000, 0] : Fin 2 → Nat) a + S1000x512.size a ≤ S10000x512.size a
  inb_S10000x512_S1000x512_2000_0 : ∀ a, (![2000, 0] : Fin 2 → Nat) a + S1000x512.size a ≤ S10000x512.size a
  inb_S10000x512_S1000x512_3000_0 : ∀ a, (![3000, 0] : Fin 2 → Nat) a + S1000x512.size a ≤ S10000x512.size a
  inb_S10000x512_S1000x512_4000_0 : ∀ a, (![4000, 0] : Fin 2 → Nat) a + S1000x512.size a ≤ S10000x512.size a
  inb_S10000x512_S1000x512_5000_0 : ∀ a, (![5000, 0] : Fin 2 → Nat) a + S1000x512.size a ≤ S10000x512.size a
  inb_S10000x512_S1000x512_6000_0 : ∀ a, (![6000, 0] : Fin 2 → Nat) a + S1000x512.size a ≤ S10000x512.size a
  inb_S10000x512_S1000x512_7000_0 : ∀ a, (![7000, 0] : Fin 2 → Nat) a + S1000x512.size a ≤ S10000x512.size a
  inb_S10000x512_S1000x512_8000_0 : ∀ a, (![8000, 0] : Fin 2 → Nat) a + S1000x512.size a ≤ S10000x512.size a
  inb_S10000x512_S1000x512_9000_0 : ∀ a, (![9000, 0] : Fin 2 → Nat) a + S1000x512.size a ≤ S10000x512.size a
  shapeCasts_S256x8_S256x8x1 : S256x8.ShapeCasts S256x8x1
  shapeCasts_S256x8x1_S256x8x1 : S256x8x1.ShapeCasts S256x8x1
  broadcasts_S256x8x1_S256x8x64 : S256x8x1.Broadcasts S256x8x64
  shapeCasts_S256x8x64_S256x512 : S256x8x64.ShapeCasts S256x512
  iota_S1000x1_d0_w32 : S1000x1.Iotas .tc 32 [0]
  shapeCasts_S256_S1x256 : S256.ShapeCasts S1x256
  broadcasts_S1000x1_S1000x256 : S1000x1.Broadcasts S1000x256
  broadcasts_S1x256_S1000x256 : S1x256.Broadcasts S1000x256
  inb_S1x10000x512_S1x1000x512_0_0_0 : ∀ a, (![0, 0, 0] : Fin 3 → Nat) a + S1x1000x512.size a ≤ S1x10000x512.size a
  h_S1x1000x512 : 0 < S1x1000x512.numel
  shapeCasts_S1x1000x512_S1000x512 : S1x1000x512.ShapeCasts S1000x512
  shapeCasts_S1000x512_S1x1000x512 : S1000x512.ShapeCasts S1x1000x512
  inb_S1x10000x512_S1x1000x512_0_1000_0 : ∀ a, (![0, 1000, 0] : Fin 3 → Nat) a + S1x1000x512.size a ≤ S1x10000x512.size a
  inb_S1x10000x512_S1x1000x512_0_2000_0 : ∀ a, (![0, 2000, 0] : Fin 3 → Nat) a + S1x1000x512.size a ≤ S1x10000x512.size a
  inb_S1x10000x512_S1x1000x512_0_3000_0 : ∀ a, (![0, 3000, 0] : Fin 3 → Nat) a + S1x1000x512.size a ≤ S1x10000x512.size a
  inb_S1x10000x512_S1x1000x512_0_4000_0 : ∀ a, (![0, 4000, 0] : Fin 3 → Nat) a + S1x1000x512.size a ≤ S1x10000x512.size a
  inb_S1x10000x512_S1x1000x512_0_5000_0 : ∀ a, (![0, 5000, 0] : Fin 3 → Nat) a + S1x1000x512.size a ≤ S1x10000x512.size a
  inb_S1x10000x512_S1x1000x512_0_6000_0 : ∀ a, (![0, 6000, 0] : Fin 3 → Nat) a + S1x1000x512.size a ≤ S1x10000x512.size a
  inb_S1x10000x512_S1x1000x512_0_7000_0 : ∀ a, (![0, 7000, 0] : Fin 3 → Nat) a + S1x1000x512.size a ≤ S1x10000x512.size a
  inb_S1x10000x512_S1x1000x512_0_8000_0 : ∀ a, (![0, 8000, 0] : Fin 3 → Nat) a + S1x1000x512.size a ≤ S1x10000x512.size a
  inb_S1x10000x512_S1x1000x512_0_9000_0 : ∀ a, (![0, 9000, 0] : Fin 3 → Nat) a + S1x1000x512.size a ≤ S1x10000x512.size a
  reducesTo_S2x10000x512_S10000x512_d0 : S2x10000x512.ReducesTo [0] S10000x512
  h_S_ : 0 < S_.numel
  shapeCasts_S512_S1x512 : S512.ShapeCasts S1x512
  bcast_S1x512_S10000x512_0_1 : S1x512.BroadcastsInDim S10000x512 (![0, 1] : Fin 2 → Fin S10000x512.rank)
  scatter_S10000_S10000x1_S10000_n_0_0_1_wf : ScatterDims.WF S10000 S10000x1 S10000 [] [0] [0] 1
  gather_S10000_S480000x1_S480000_n_0_n_n_0_1_1_wf : GatherDims.WF S10000 S480000x1 S480000 [] [0] [] [0] [] 1 ![1]
  gather_S10000x512_S10000x1_S10000x512_1_0_n_n_0_1_1512_wf : GatherDims.WF S10000x512 S10000x1 S10000x512 [1] [0] [] [0] [] 1 ![1, 512]
  dot_S1000x512_S512x512_S1000x512_1_0_0_1_n_n_wf : DotDims.WF S1000x512 S512x512 S1000x512 [1] [0] [0] [1] [] []
  dot_S256x1000_S1000x512_S256x512_1_0_0_1_n_n_wf : DotDims.WF S256x1000 S1000x512 S256x512 [1] [0] [0] [1] [] []
  dot_S1000x256_S256x512_S1000x512_1_0_0_1_n_n_wf : DotDims.WF S1000x256 S256x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x512.size a ≤ S10000x512.size a
  hwx1_0 : ∀ i : grid1.Coords, EltTy.bits .bf16 = 32 ∨ (Rect.block (s := S10000x512) S10000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S480256.size a
  hwx1_1 : ∀ i : grid1.Coords, EltTy.bits .i32 = 32 ∨ (Rect.block (s := S480256) S256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S480256.size a
  hwx1_2 : ∀ i : grid1.Coords, EltTy.bits .i32 = 32 ∨ (Rect.block (s := S480256) S256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x8.size a ≤ S480256x8.size a
  hwx1_3 : ∀ i : grid1.Coords, EltTy.bits .f32 = 32 ∨ (Rect.block (s := S480256x8) S256x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10000x512.size a ≤ S2x10000x512.size a
  hwx1_4 : ∀ i : grid1.Coords, EltTy.bits .f32 = 32 ∨ (Rect.block (s := S2x10000x512) S1x10000x512.size (cc1_transform_4 i) (hinb1_4 i)).WholeWords (EltTy.packing .f32)

variable [Facts₀]

def scatter_S10000_S10000x1_S10000_n_0_0_1 : ScatterDims S10000 S10000x1 S10000 where
  updateWindowDims := []
  insertedWindowDims := [0]
  scatterDimsToOperandDims := [0]
  indexVectorDim := 1
  wf := scatter_S10000_S10000x1_S10000_n_0_0_1_wf
def gather_S10000_S480000x1_S480000_n_0_n_n_0_1_1 : GatherDims S10000 S480000x1 S480000 where
  offsetDims := []
  collapsedSliceDims := [0]
  operandBatchingDims := []
  startIndicesBatchingDims := []
  startIndexMap := [0]
  indexVectorDim := 1
  sliceSizes := ![1]
  wf := gather_S10000_S480000x1_S480000_n_0_n_n_0_1_1_wf
def gather_S10000x512_S10000x1_S10000x512_1_0_n_n_0_1_1512 : GatherDims S10000x512 S10000x1 S10000x512 where
  offsetDims := [1]
  collapsedSliceDims := [0]
  operandBatchingDims := []
  startIndicesBatchingDims := []
  startIndexMap := [0]
  indexVectorDim := 1
  sliceSizes := ![1, 512]
  wf := gather_S10000x512_S10000x1_S10000x512_1_0_n_n_0_1_1512_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S256x1000_S1000x512_S256x512_1_0_0_1_n_n : DotDims S256x1000 S1000x512 S256x512 where
  lhsContracting := [1]
  rhsContracting := [0]
  lhsNonContracting := [0]
  rhsNonContracting := [1]
  lhsBatch := []
  rhsBatch := []
  wf := dot_S256x1000_S1000x512_S256x512_1_0_0_1_n_n_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf

abbrev win0_0 : Pipeline.Window sig grid0 :=
  Pipeline.Window.ofSpec (Memref.whole main_v40) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v48) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S256x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x10000x512.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000 : Shape := ⟨1, ![10000]⟩
abbrev S3x160000x8 : Shape := ⟨3, ![3, 160000, 8]⟩
abbrev S3x2x160000 : Shape := ⟨3, ![3, 2, 160000]⟩
abbrev S8x3 : Shape := ⟨2, ![8, 3]⟩
abbrev S512x512 : Shape := ⟨2, ![512, 512]⟩
abbrev S512 : Shape := ⟨1, ![512]⟩
abbrev S3x8 : Shape := ⟨2, ![3, 8]⟩
abbrev S3x1x8 : Shape := ⟨3, ![3, 1, 8]⟩
abbrev S480000x8 : Shape := ⟨2, ![480000, 8]⟩
abbrev S2x3x160000 : Shape := ⟨3, ![2, 3, 160000]⟩
abbrev S2x480000 : Shape := ⟨2, ![2, 480000]⟩
abbrev S_ : Shape := ⟨0, ![]⟩
abbrev S10000x1 : Shape := ⟨2, ![10000, 1]⟩
abbrev S1x480000 : Shape := ⟨2, ![1, 480000]⟩
abbrev S480000 : Shape := ⟨1, ![480000]⟩
abbrev S480000x1 : Shape := ⟨2, ![480000, 1]⟩
abbrev S10000x8x64 : Shape := ⟨3, ![10000, 8, 64]⟩
abbrev S480000x8x1 : Shape := ⟨3, ![480000, 8, 1]⟩
abbrev S480000x8x64 : Shape := ⟨3, ![480000, 8, 64]⟩
abbrev S1x512 : Shape := ⟨2, ![1, 512]⟩

abbrev nBuf : Space → Nat
  | .hbm => 79
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000, .i32⟩
  | .hbm, ⟨2, _⟩ => ⟨S3x160000x8, .f32⟩
  | .hbm, ⟨3, _⟩ => ⟨S3x2x160000, .i32⟩
  | .hbm, ⟨4, _⟩ => ⟨S8x3, .f32⟩
  | .hbm, ⟨5, _⟩ => ⟨S512x512, .f32⟩
  | .hbm, ⟨6, _⟩ => ⟨S512, .f32⟩
  | .hbm, ⟨7, _⟩ => ⟨S3x8, .f32⟩
  | .hbm, ⟨8, _⟩ => ⟨S3x1x8, .f32⟩
  | .hbm, ⟨9, _⟩ => ⟨S3x160000x8, .f32⟩
  | .hbm, ⟨10, _⟩ => ⟨S3x160000x8, .f32⟩
  | .hbm, ⟨11, _⟩ => ⟨S480000x8, .f32⟩
  | .hbm, ⟨12, _⟩ => ⟨S2x3x160000, .i32⟩
  | .hbm, ⟨13, _⟩ => ⟨S2x480000, .i32⟩
  | .hbm, ⟨14, _⟩ => ⟨S_, .i32⟩
  | .hbm, ⟨15, _⟩ => ⟨S10000, .i32⟩
  | .hbm, ⟨16, _⟩ => ⟨S10000, .i32⟩
  | .hbm, ⟨17, _⟩ => ⟨S_, .i32⟩
  | .hbm, ⟨18, _⟩ => ⟨S10000, .i32⟩
  | .hbm, ⟨19, _⟩ => ⟨S10000, .i1⟩
  | .hbm, ⟨20, _⟩ => ⟨S_, .i32⟩
  | .hbm, ⟨21, _⟩ => ⟨S10000, .i32⟩
  | .hbm, ⟨22, _⟩ => ⟨S10000, .i32⟩
  | .hbm, ⟨23, _⟩ => ⟨S10000, .i32⟩
  | .hbm, ⟨24, _⟩ => ⟨S10000x1, .i32⟩
  | .hbm, ⟨25, _⟩ => ⟨S10000, .i32⟩
  | .hbm, ⟨26, _⟩ => ⟨S1x480000, .i32⟩
  | .hbm, ⟨27, _⟩ => ⟨S480000, .i32⟩
  | .hbm, ⟨28, _⟩ => ⟨S_, .i32⟩
  | .hbm, ⟨29, _⟩ => ⟨S480000, .i32⟩
  | .hbm, ⟨30, _⟩ => ⟨S480000, .i1⟩
  | .hbm, ⟨31, _⟩ => ⟨S_, .i32⟩
  | .hbm, ⟨32, _⟩ => ⟨S480000, .i32⟩
  | .hbm, ⟨33, _⟩ => ⟨S480000, .i32⟩
  | .hbm, ⟨34, _⟩ => ⟨S480000, .i32⟩
  | .hbm, ⟨35, _⟩ => ⟨S480000x1, .i32⟩
  | .hbm, ⟨36, _⟩ => ⟨S480000, .i32⟩
  | .hbm, ⟨37, _⟩ => ⟨S1x480000, .i32⟩
  | .hbm, ⟨38, _⟩ => ⟨S480000, .i32⟩
  | .hbm, ⟨39, _⟩ => ⟨S_, .i32⟩
  | .hbm, ⟨40, _⟩ => ⟨S480000, .i32⟩
  | .hbm, ⟨41, _⟩ => ⟨S480000, .i1⟩
  | .hbm, ⟨42, _⟩ => ⟨S_, .i32⟩
  | .hbm, ⟨43, _⟩ => ⟨S480000, .i32⟩
  | .hbm, ⟨44, _⟩ => ⟨S480000, .i32⟩
  | .hbm, ⟨45, _⟩ => ⟨S480000, .i32⟩
  | .hbm, ⟨46, _⟩ => ⟨S480000x1, .i32⟩
  | .hbm, ⟨47, _⟩ => ⟨S480000, .i32⟩
  | .hbm, ⟨48, _⟩ => ⟨S_, .i32⟩
  | .hbm, ⟨49, _⟩ => ⟨S10000, .i32⟩
  | .hbm, ⟨50, _⟩ => ⟨S10000, .i1⟩
  | .hbm, ⟨51, _⟩ => ⟨S_, .i32⟩
  | .hbm, ⟨52, _⟩ => ⟨S10000, .i32⟩
  | .hbm, ⟨53, _⟩ => ⟨S10000, .i32⟩
  | .hbm, ⟨54, _⟩ => ⟨S10000, .i32⟩
  | .hbm, ⟨55, _⟩ => ⟨S10000x1, .i32⟩
  | .hbm, ⟨56, _⟩ => ⟨S10000x512, .f32⟩
  | .hbm, ⟨57, _⟩ => ⟨S10000x512, .f32⟩
  | .hbm, ⟨58, _⟩ => ⟨S10000x8x64, .f32⟩
  | .hbm, ⟨59, _⟩ => ⟨S480000x8x1, .f32⟩
  | .hbm, ⟨60, _⟩ => ⟨S_, .i32⟩
  | .hbm, ⟨61, _⟩ => ⟨S480000, .i32⟩
  | .hbm, ⟨62, _⟩ => ⟨S480000, .i1⟩
  | .hbm, ⟨63, _⟩ => ⟨S_, .i32⟩
  | .hbm, ⟨64, _⟩ => ⟨S480000, .i32⟩
  | .hbm, ⟨65, _⟩ => ⟨S480000, .i32⟩
  | .hbm, ⟨66, _⟩ => ⟨S480000, .i32⟩
  | .hbm, ⟨67, _⟩ => ⟨S480000x1, .i32⟩
  | .hbm, ⟨68, _⟩ => ⟨S480000x8x64, .f32⟩
  | .hbm, ⟨69, _⟩ => ⟨S480000x8x64, .f32⟩
  | .hbm, ⟨70, _⟩ => ⟨S480000x8x64, .f32⟩
  | .hbm, ⟨71, _⟩ => ⟨S_, .f32⟩
  | .hbm, ⟨72, _⟩ => ⟨S10000x8x64, .f32⟩
  | .hbm, ⟨73, _⟩ => ⟨S480000x1, .i32⟩
  | .hbm, ⟨74, _⟩ => ⟨S10000x8x64, .f32⟩
  | .hbm, ⟨75, _⟩ => ⟨S10000x512, .f32⟩
  | .hbm, ⟨76, _⟩ => ⟨S1x512, .f32⟩
  | .hbm, ⟨77, _⟩ => ⟨S10000x512, .f32⟩
  | .hbm, ⟨78, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  transposes_S8x3_S3x8_1_0 : S8x3.Transposes [1, 0] S3x8
  bcast_S3x8_S3x1x8_0_2 : S3x8.BroadcastsInDim S3x1x8 (![0, 2] : Fin 2 → Fin S3x1x8.rank)
  bcast_S3x1x8_S3x160000x8_0_1_2 : S3x1x8.BroadcastsInDim S3x160000x8 (![0, 1, 2] : Fin 3 → Fin S3x160000x8.rank)
  shapeCasts_S3x160000x8_S480000x8 : S3x160000x8.ShapeCasts S480000x8
  transposes_S3x2x160000_S2x3x160000_1_0_2 : S3x2x160000.Transposes [1, 0, 2] S2x3x160000
  shapeCasts_S2x3x160000_S2x480000 : S2x3x160000.ShapeCasts S2x480000
  bcast_S_S10000 : S_.BroadcastsInDim S10000 (![] : Fin 0 → Fin S10000.rank)
  bcast_S10000_S10000x1_0 : S10000.BroadcastsInDim S10000x1 (![0] : Fin 1 → Fin S10000x1.rank)
  slices_S2x480000_S1x480000_0_0 : S2x480000.Slices ![0, 0] S1x480000
  shapeCasts_S1x480000_S480000 : S1x480000.ShapeCasts S480000
  bcast_S_S480000 : S_.BroadcastsInDim S480000 (![] : Fin 0 → Fin S480000.rank)
  bcast_S480000_S480000x1_0 : S480000.BroadcastsInDim S480000x1 (![0] : Fin 1 → Fin S480000x1.rank)
  slices_S2x480000_S1x480000_1_0 : S2x480000.Slices ![1, 0] S1x480000
  shapeCasts_S10000x512_S10000x8x64 : S10000x512.ShapeCasts S10000x8x64
  bcast_S480000x8_S480000x8x1_0_1 : S480000x8.BroadcastsInDim S480000x8x1 (![0, 1] : Fin 2 → Fin S480000x8x1.rank)
  bcast_S480000x8x1_S480000x8x64_0_1_2 : S480000x8x1.BroadcastsInDim S480000x8x64 (![0, 1, 2] : Fin 3 → Fin S480000x8x64.rank)
  bcast_S_S10000x8x64 : S_.BroadcastsInDim S10000x8x64 (![] : Fin 0 → Fin S10000x8x64.rank)
  shapeCasts_S10000x8x64_S10000x512 : S10000x8x64.ShapeCasts S10000x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  scatter_S10000_S10000x1_S10000_n_0_0_1_wf : ScatterDims.WF S10000 S10000x1 S10000 [] [0] [0] 1
  gather_S10000_S480000x1_S480000_n_0_n_n_0_1_1_wf : GatherDims.WF S10000 S480000x1 S480000 [] [0] [] [0] [] 1 ![1]
  gather_S10000x512_S10000x1_S10000x512_1_0_n_n_0_1_1512_wf : GatherDims.WF S10000x512 S10000x1 S10000x512 [1] [0] [] [0] [] 1 ![1, 512]
  dot_S10000x512_S512x512_S10000x512_1_0_0_1_n_n_wf : DotDims.WF S10000x512 S512x512 S10000x512 [1] [0] [0] [1] [] []
  gather_S10000x8x64_S480000x1_S480000x8x64_12_0_n_n_0_1_1864_wf : GatherDims.WF S10000x8x64 S480000x1 S480000x8x64 [1, 2] [0] [] [0] [] 1 ![1, 8, 64]
  scatter_S10000x8x64_S480000x1_S480000x8x64_12_0_0_1_wf : ScatterDims.WF S10000x8x64 S480000x1 S480000x8x64 [1, 2] [0] [0] 1

variable [Facts₀]

def scatter_S10000_S10000x1_S10000_n_0_0_1 : ScatterDims S10000 S10000x1 S10000 where
  updateWindowDims := []
  insertedWindowDims := [0]
  scatterDimsToOperandDims := [0]
  indexVectorDim := 1
  wf := scatter_S10000_S10000x1_S10000_n_0_0_1_wf
def gather_S10000_S480000x1_S480000_n_0_n_n_0_1_1 : GatherDims S10000 S480000x1 S480000 where
  offsetDims := []
  collapsedSliceDims := [0]
  operandBatchingDims := []
  startIndicesBatchingDims := []
  startIndexMap := [0]
  indexVectorDim := 1
  sliceSizes := ![1]
  wf := gather_S10000_S480000x1_S480000_n_0_n_n_0_1_1_wf
def gather_S10000x512_S10000x1_S10000x512_1_0_n_n_0_1_1512 : GatherDims S10000x512 S10000x1 S10000x512 where
  offsetDims := [1]
  collapsedSliceDims := [0]
  operandBatchingDims := []
  startIndicesBatchingDims := []
  startIndexMap := [0]
  indexVectorDim := 1
  sliceSizes := ![1, 512]
  wf := gather_S10000x512_S10000x1_S10000x512_1_0_n_n_0_1_1512_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x8x64_S480000x1_S480000x8x64_12_0_n_n_0_1_1864 : GatherDims S10000x8x64 S480000x1 S480000x8x64 where
  offsetDims := [1, 2]
  collapsedSliceDims := [0]
  operandBatchingDims := []
  startIndicesBatchingDims := []
  startIndexMap := [0]
  indexVectorDim := 1
  sliceSizes := ![1, 8, 64]
  wf := gather_S10000x8x64_S480000x1_S480000x8x64_12_0_n_n_0_1_1864_wf
def scatter_S10000x8x64_S480000x1_S480000x8x64_12_0_0_1 : ScatterDims S10000x8x64 S480000x1 S480000x8x64 where
  updateWindowDims := [1, 2]
  insertedWindowDims := [0]
  scatterDimsToOperandDims := [0]
  indexVectorDim := 1
  wf := scatter_S10000x8x64_S480000x1_S480000x8x64_12_0_0_1_wf

class Facts : Prop extends Facts₀ where

variable [Facts]
-- ==== Proof.RunValue.lean ====
/-
  The idealized kernel's run with its RESULT named.  The program is five segments: host operations, the first
  kernel (the matrix product), host operations (the two padded halves of the edge list), the second kernel (the
  gather, weight and scatter-add over 2 × 938 tiles), host operations (the two halves added, plus the bias).  Each
  segment's effect on the buffers is a function of the buffers before it, so the buffers after the last segment
  are a fold `W5` through the five; every weakly fair execution terminates without a fault with every unscoped
  buffer at that fold.  The frame reads the seven argument arrays off the fold; here the result array is read
  off it as well, so that the value of the result can be computed from `W5`, segment by segment.
-/
import proofs.«118648_j41850161332740_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents `W5` and the seven argument arrays as launched. -/
theorem run_value : θ_run defs (onTc (τ := τ) (main (F := F))) ⟨m, fun _ => 0, ρ⟩ (fun r => ∀ c : Dev nD,
      r.2.mem ((c.tc : Thread nD τ).loc main_v67) = W5 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v67 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.Spec.lean ====
/-
  The mathematics of the certificate, with no program in sight.

  A graph of 10000 nodes carries a 512-wide feature row per node (8 heads of 64 columns) and 480000 weighted edges,
  each with a source word, a target word and one weight per head.  With `h = xl · W` the transformed node table, the
  result at node `n`, column `f` is the sum, over the edges whose target word read signed is `n`, of the edge's
  weight for the head of `f` times `h` at the edge's source row and column `f`, plus the bias at `f` (`G`).

  The kernel reaches the same number another way: the edge list is cut into two halves of 240000, each padded with 128
  edges of weight zero to 938 tiles of 256 edges; a tile adds to an accumulator, for every node, the sum over the tile's
  edges whose target word equals the node's number of the selected source row times the weight (`tileStep`); a half's
  accumulator is the sum over its tiles (`coreSum`); the two halves are added (`coreSum_add`, in another module).
  Selecting a row by comparing a word with every node number gives the row when the word is a node number and zero
  otherwise (`sel`); on the extended reals `0 · x = 0` for every `x`, so no finiteness is needed anywhere.
-/
import Idealize.ShloMosaic.Lib.ValueIdx
import Idealize.ShloMosaic.PureOps.Ideal

noncomputable section

open scoped BigOperators

namespace Cert.Spec

open Idealize.ShloMosaic Idealize.ShloMosaic.ValueIdx

/-! ## Shapes (the printed programs' own shapes are these, under other names) -/

abbrev SN : Shape := ⟨2, ![10000, 512]⟩
abbrev SW : Shape := ⟨2, ![512, 512]⟩
abbrev SB : Shape := ⟨1, ![512]⟩
abbrev SE : Shape := ⟨1, ![480000]⟩
abbrev SA : Shape := ⟨2, ![480000, 8]⟩
abbrev SEp : Shape := ⟨1, ![480256]⟩
abbrev SAp : Shape := ⟨2, ![480256, 8]⟩
abbrev ST : Shape := ⟨1, ![256]⟩
abbrev STA : Shape := ⟨2, ![256, 8]⟩
abbrev SO : Shape := ⟨3, ![1, 10000, 512]⟩
abbrev SO2 : Shape := ⟨3, ![2, 10000, 512]⟩

/-! ## Words as node numbers -/

/-- The head (of 8) that a feature column (of 512 = 8 · 64) belongs to. -/
def headOf (f : Fin 512) : Fin 8 := ⟨f.val / 64, by omega⟩

/-- A node number read from a 32-bit word the way a gather reads it: signed, clamped into `[0, 9999]`. -/
def rowOf (v : BitVec 32) : Fin 10000 := ⟨min v.toInt.toNat 9999, by omega⟩

/-- The word, read signed, is a node number. -/
def IsNode (v : BitVec 32) : Prop := 0 ≤ v.toInt ∧ v.toInt < 10000

/-- A word that is a node number reads the same signed and unsigned. -/
theorem toNat_of_isNode {v : BitVec 32} (h : IsNode v) : v.toNat < 10000 ∧ v.toInt = (v.toNat : Int) := by
  obtain ⟨h0, h1⟩ := h
  have hc := BitVec.toInt_eq_toNat_cond v
  have hl := v.isLt
  split_ifs at hc <;> omega

/-- For a node number `n`, a word reads `n` signed exactly when it reads `n` unsigned. -/
theorem toInt_eq_iff_toNat_eq (v : BitVec 32) (n : Fin 10000) : v.toInt = (n.val : Int) ↔ v.toNat = n.val := by
  have hc := BitVec.toInt_eq_toNat_cond v
  have hl := v.isLt
  have hn := n.isLt
  split_ifs at hc <;> omega

/-- Row `v` of a node table at column `f`, or zero when the word `v`, read unsigned, is no node number: what comparing
    `v` with every node number and summing the matching rows gives. -/
def sel (x0 : SN.Idx → EReal) (v : BitVec 32) (f : Fin 512) : EReal :=
  if h : v.toNat < 10000 then x0 (ix2 ⟨v.toNat, h⟩ f) else 0

/-- At a node number the selection is the row a gather reads. -/
theorem sel_of_isNode (x0 : SN.Idx → EReal) {v : BitVec 32} (h : IsNode v) (f : Fin 512) :
    sel x0 v f = x0 (ix2 (rowOf v) f) := by
  obtain ⟨h1, h2⟩ := toNat_of_isNode h
  unfold sel rowOf
  rw [dif_pos h1]
  congr 2
  refine Fin.ext ?_
  show v.toNat = min v.toInt.toNat 9999
  omega

/-! ## The transformed node table and the result -/

/-- `xl · W` at row `n`, column `f`. -/
def hAt (xl : SN.Idx → EReal) (W : SW.Idx → EReal) (n : Fin 10000) (f : Fin 512) : EReal :=
  ∑ k : Fin 512, xl (ix2 n k) * W (ix2 k f)

/-- `xl · W` as an array. -/
def hmat (xl : SN.Idx → EReal) (W : SW.Idx → EReal) : SN.Idx → EReal := fun i => hAt xl W (i 0) (i 1)

theorem hmat_apply (xl : SN.Idx → EReal) (W : SW.Idx → EReal) (n : Fin 10000) (f : Fin 512) :
    hmat xl W (ix2 n f) = hAt xl W n f := rfl

/-- The messages arriving at node `n`, column `f`: over the edges whose target word read signed is `n`, the weight for the
    column's head times the source row of the table. -/
def msgAt (alpha : SA.Idx → EReal) (src dst : IVec SE 32) (h : SN.Idx → EReal) (n : Fin 10000) (f : Fin 512) : EReal :=
  ∑ e ∈ Finset.univ.filter (fun e : Fin 480000 => (dst (ix1 e)).toInt = (n.val : Int)),
    alpha (ix2 e (headOf f)) * h (ix2 (rowOf (src (ix1 e))) f)

/-- THE RESULT: the messages plus the bias. -/
def G (alpha : SA.Idx → EReal) (src dst : IVec SE 32) (h : SN.Idx → EReal) (bias : SB.Idx → EReal) : SN.Idx → EReal :=
  fun i => msgAt alpha src dst h (i 0) (i 1) + bias (ix1 (i 1))

theorem G_apply (alpha : SA.Idx → EReal) (src dst : IVec SE 32) (h : SN.Idx → EReal) (bias : SB.Idx → EReal)
    (n : Fin 10000) (f : Fin 512) :
    G alpha src dst h bias (ix2 n f) = msgAt alpha src dst h n f + bias (ix1 f) := rfl

/-! ## The kernel's way: tiles of 256 edges, two padded halves -/

/-- What one tile of 256 edges (source words `x1`, target words `x2`, weights `x3`) adds to the accumulator `old`, over the
    node table `x0`: at node `n`, column `f`, the selected source rows times the weights of the tile's edges whose target word
    read unsigned is `n`. -/
def tileStep (x0 : SN.Idx → EReal) (x1 x2 : IVec ST 32) (x3 : STA.Idx → EReal) (old : SO.Idx → EReal) : SO.Idx → EReal :=
  fun i => old i + ∑ e : Fin 256,
    if (x2 (ix1 e)).toNat = (i 1).val then sel x0 (x1 (ix1 e)) (i 2) * x3 (ix2 e (headOf (i 2))) else 0

theorem tileStep_apply (x0 : SN.Idx → EReal) (x1 x2 : IVec ST 32) (x3 : STA.Idx → EReal) (old : SO.Idx → EReal)
    (n : Fin 10000) (f : Fin 512) :
    tileStep x0 x1 x2 x3 old (ix3 0 n f) = old (ix3 0 n f) + ∑ e : Fin 256,
      if (x2 (ix1 e)).toNat = n.val then sel x0 (x1 (ix1 e)) f * x3 (ix2 e (headOf f)) else 0 := rfl

/-- The place in the padded edge list of edge `e` of tile `t` of half `k`. -/
def pe (k : Fin 2) (t : Fin 938) (e : Fin 256) : Fin 480256 := ⟨(k.val * 938 + t.val) * 256 + e.val, by omega⟩

/-- One padded edge's contribution at node `n`, column `f`. -/
def edgeTerm (hf : SN.Idx → EReal) (srcp dstp : IVec SEp 32) (alphap : SAp.Idx → EReal) (n : Fin 10000) (f : Fin 512)
    (j : Fin 480256) : EReal :=
  if (dstp (ix1 j)).toNat = n.val then sel hf (srcp (ix1 j)) f * alphap (ix2 j (headOf f)) else 0

/-- Half `k`'s accumulator after its 938 tiles, at node `n`, column `f`. -/
def coreSum (hf : SN.Idx → EReal) (srcp dstp : IVec SEp 32) (alphap : SAp.Idx → EReal) (k : Fin 2) (n : Fin 10000)
    (f : Fin 512) : EReal :=
  ∑ t : Fin 938, ∑ e : Fin 256, edgeTerm hf srcp dstp alphap n f (pe k t e)

/-- Where a place of the padded list comes from: an edge of the list, or padding. -/
def unpad (j : Fin 480256) : Option (Fin 480000) :=
  if h : j.val < 240000 then some ⟨j.val, by omega⟩
  else if h' : j.val < 240128 then none
  else if h'' : j.val < 480128 then some ⟨j.val - 128, by omega⟩
  else none

/-- A word per edge, padded with zero words. -/
def padI (v : IVec SE 32) : IVec SEp 32 := fun i =>
  match unpad (i 0) with
  | some e => v (ix1 e)
  | none => 0#32

/-- Eight weights per edge, padded with zero weights. -/
def padF (a : SA.Idx → EReal) : SAp.Idx → EReal := fun i =>
  match unpad (i 0) with
  | some e => a (ix2 e (i 1))
  | none => 0

end Cert.Spec

end
-- ==== Proof.LibHalves.lean ====
/-
  Two arrays laid side by side, and a one-column matrix as a vector, read at an index.

  A matrix made of two blocks of columns reads, in a column of the left block, the left block at that column, and in
  a column of the right block, the right block at the column less the left block's width; likewise a vector made of two
  vectors end to end. An `a × 1` matrix cast to a vector of `a` entries reads at p the matrix at (p, 0).
-/
import Idealize.ShloMosaic.Lib.ValueIdx
import Idealize.ShloMosaic.Lib.Pipeline.Value

noncomputable section

namespace Idealize.ShloMosaic.Halves

open Idealize.ShloMosaic Idealize.ShloMosaic.ValueIdx

variable {α : Type}

/-- Side by side along the columns: a column of the left block. -/
theorem cols_left {M n₁ n₂ N : Nat} (x₁ : (⟨2, ![M, n₁]⟩ : Shape).Idx → α) (x₂ : (⟨2, ![M, n₂]⟩ : Shape).Idx → α)
    (h : Shape.Concatenates [⟨2, ![M, n₁]⟩, ⟨2, ![M, n₂]⟩] ⟨2, ![M, N]⟩ (1 : Fin 2)) (p : Fin M) (j : Fin n₁) (j' : Fin N)
    (hj : j'.val = j.val) :
    concatenate ⟨2, ![M, N]⟩ (1 : Fin 2) [⟨⟨2, ![M, n₁]⟩, x₁⟩, ⟨⟨2, ![M, n₂]⟩, x₂⟩] h (ix2 p j') = x₁ (ix2 p j) :=
  concatenate_pair_apply_left (t := ⟨2, ![M, N]⟩) (s₁ := ⟨2, ![M, n₁]⟩) (s₂ := ⟨2, ![M, n₂]⟩) (1 : Fin 2) x₁ x₂ h (ix2 p j') rfl
    (ix2 p j) (fun b => match b with | ⟨0, _⟩ => rfl | ⟨1, _⟩ => hj.symm)

/-- Side by side along the columns: a column of the right block. -/
theorem cols_right {M n₁ n₂ N : Nat} (x₁ : (⟨2, ![M, n₁]⟩ : Shape).Idx → α) (x₂ : (⟨2, ![M, n₂]⟩ : Shape).Idx → α)
    (h : Shape.Concatenates [⟨2, ![M, n₁]⟩, ⟨2, ![M, n₂]⟩] ⟨2, ![M, N]⟩ (1 : Fin 2)) (p : Fin M) (j : Fin n₂) (j' : Fin N)
    (hj : j'.val = n₁ + j.val) :
    concatenate ⟨2, ![M, N]⟩ (1 : Fin 2) [⟨⟨2, ![M, n₁]⟩, x₁⟩, ⟨⟨2, ![M, n₂]⟩, x₂⟩] h (ix2 p j') = x₂ (ix2 p j) :=
  concatenate_pair_apply_right (t := ⟨2, ![M, N]⟩) (s₁ := ⟨2, ![M, n₁]⟩) (s₂ := ⟨2, ![M, n₂]⟩) (1 : Fin 2) x₁ x₂ h (ix2 p j') rfl rfl
    (ix2 p j) (fun b hb => match b, hb with
      | ⟨0, _⟩, _ => rfl
      | ⟨1, _⟩, hb => absurd rfl hb) (by show j.val + n₁ = j'.val; omega)

/-- End to end: an entry of the first vector. -/
theorem vec_left {n₁ n₂ N : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ (0 : Fin 1)) (j : Fin n₁) (j' : Fin N) (hj : j'.val = j.val) :
    concatenate ⟨1, ![N]⟩ (0 : Fin 1) [⟨⟨1, ![n₁]⟩, x₁⟩, ⟨⟨1, ![n₂]⟩, x₂⟩] h (ix1 j') = x₁ (ix1 j) :=
  concatenate_pair_apply_left (t := ⟨1, ![N]⟩) (s₁ := ⟨1, ![n₁]⟩) (s₂ := ⟨1, ![n₂]⟩) (0 : Fin 1) x₁ x₂ h (ix1 j') rfl
    (ix1 j) (fun b => match b with | ⟨0, _⟩ => hj.symm)

/-- End to end: an entry of the second vector. -/
theorem vec_right {n₁ n₂ N : Nat} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ (0 : Fin 1)) (j : Fin n₂) (j' : Fin N) (hj : j'.val = n₁ + j.val) :
    concatenate ⟨1, ![N]⟩ (0 : Fin 1) [⟨⟨1, ![n₁]⟩, x₁⟩, ⟨⟨1, ![n₂]⟩, x₂⟩] h (ix1 j') = x₂ (ix1 j) :=
  concatenate_pair_apply_right (t := ⟨1, ![N]⟩) (s₁ := ⟨1, ![n₁]⟩) (s₂ := ⟨1, ![n₂]⟩) (0 : Fin 1) x₁ x₂ h (ix1 j') rfl rfl
    (ix1 j) (fun b hb => match b, hb with
      | ⟨0, _⟩, hb => absurd rfl hb) (by show j.val + n₁ = j'.val; omega)

/-- An `a × 1` matrix cast to a vector reads, at p, the matrix at (p, 0). -/
theorem shapeCast_a1_a_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Idealize.ShloMosaic.Halves

end
-- ==== Proof.Pads.lean ====
/-
  The padded halves of the edge list, read at a place.

  The host cuts a list of 480000 entries into its two halves of 240000, sets 128 zero entries after each half, and
  sets the two padded halves of 240128 end to end.  Place `j` of the result is entry `j` of the list for
  `j < 240000`, zero for `240000 ≤ j < 240128`, entry `j − 128` for `240128 ≤ j < 480128`, and zero after that:
  `Cert.Spec.padI` for a list of words, `Cert.Spec.padF` for a list of rows of eight weights.
-/
import proofs.«118648_j41850161332740_2_alg».proof.Proof.Spec
import proofs.«118648_j41850161332740_2_alg».proof.Proof.LibHalves
import Idealize.ShloMosaic.Lib.Pipeline.Value
import Idealize.ShloMosaic.Lib.IdealHost
import Idealize.ShloMosaic.PureOps.Ideal.Laws

noncomputable section

namespace Cert.Pads

open Idealize.ShloMosaic Idealize.ShloMosaic.ValueIdx Cert.Spec

variable {α : Type}

/-! ## Two blocks of rows, one above the other -/

/-- One above the other along the rows: a row of the upper block. -/
theorem rows_top {m₁ m₂ M n : Nat} (x₁ : (⟨2, ![m₁, n]⟩ : Shape).Idx → α) (x₂ : (⟨2, ![m₂, n]⟩ : Shape).Idx → α)
    (h : Shape.Concatenates [⟨2, ![m₁, n]⟩, ⟨2, ![m₂, n]⟩] ⟨2, ![M, n]⟩ (0 : Fin 2)) (p : Fin m₁) (p' : Fin M) (q : Fin n)
    (hp : p'.val = p.val) :
    concatenate ⟨2, ![M, n]⟩ (0 : Fin 2) [⟨⟨2, ![m₁, n]⟩, x₁⟩, ⟨⟨2, ![m₂, n]⟩, x₂⟩] h (ix2 p' q) = x₁ (ix2 p q) :=
  concatenate_pair_apply_left (t := ⟨2, ![M, n]⟩) (s₁ := ⟨2, ![m₁, n]⟩) (s₂ := ⟨2, ![m₂, n]⟩) (0 : Fin 2) x₁ x₂ h (ix2 p' q) rfl
    (ix2 p q) (fun b => match b with | ⟨0, _⟩ => hp.symm | ⟨1, _⟩ => rfl)

/-- One above the other along the rows: a row of the lower block. -/
theorem rows_bottom {m₁ m₂ M n : Nat} (x₁ : (⟨2, ![m₁, n]⟩ : Shape).Idx → α) (x₂ : (⟨2, ![m₂, n]⟩ : Shape).Idx → α)
    (h : Shape.Concatenates [⟨2, ![m₁, n]⟩, ⟨2, ![m₂, n]⟩] ⟨2, ![M, n]⟩ (0 : Fin 2)) (p : Fin m₂) (p' : Fin M) (q : Fin n)
    (hp : p'.val = m₁ + p.val) :
    concatenate ⟨2, ![M, n]⟩ (0 : Fin 2) [⟨⟨2, ![m₁, n]⟩, x₁⟩, ⟨⟨2, ![m₂, n]⟩, x₂⟩] h (ix2 p' q) = x₂ (ix2 p q) :=
  concatenate_pair_apply_right (t := ⟨2, ![M, n]⟩) (s₁ := ⟨2, ![m₁, n]⟩) (s₂ := ⟨2, ![m₂, n]⟩) (0 : Fin 2) x₁ x₂ h (ix2 p' q) rfl rfl
    (ix2 p q) (fun b hb => match b, hb with
      | ⟨0, _⟩, hb => absurd rfl hb
      | ⟨1, _⟩, _ => rfl) (by show p.val + m₁ = p'.val; omega)

/-! ## A slice of a vector, and of the rows of a matrix, at an index -/

/-- Entries `off … off + k − 1` of a vector: entry `j` of the slice is entry `off + j`. -/
theorem vec_slice {N k : Nat} (off : Nat) (x : (⟨1, ![N]⟩ : Shape).Idx → α)
    (h : (⟨1, ![N]⟩ : Shape).Slices ![off] ⟨1, ![k]⟩) (j : Fin k) (j' : Fin N) (hj : j'.val = off + j.val) :
    extractStridedSlice ⟨1, ![k]⟩ ![off] x h (ix1 j) = x (ix1 j') :=
  extractStridedSlice_apply ![off] x h (ix1 j) (ix1 j') (fun a => match a with | ⟨0, _⟩ => hj)

/-- Rows `off … off + k − 1` of a matrix, every column: row `p` of the slice is row `off + p`. -/
theorem row_slice {M k n : Nat} (off : Nat) (x : (⟨2, ![M, n]⟩ : Shape).Idx → α)
    (h : (⟨2, ![M, n]⟩ : Shape).Slices ![off, 0] ⟨2, ![k, n]⟩) (p : Fin k) (p' : Fin M) (q : Fin n) (hp : p'.val = off + p.val) :
    extractStridedSlice ⟨2, ![k, n]⟩ ![off, 0] x h (ix2 p q) = x (ix2 p' q) :=
  extractStridedSlice_apply ![off, 0] x h (ix2 p q) (ix2 p' q) (fun a => match a with
    | ⟨0, _⟩ => hp
    | ⟨1, _⟩ => (Nat.zero_add _).symm)

/-! ## The padded lists -/

/-- A list of words: the two halves, 128 zero words after each, end to end. -/
theorem padI_eq (v : IVec SE 32)
    (hs0 : SE.Slices ![0] ⟨1, ![240000]⟩) (hs1 : SE.Slices ![240000] ⟨1, ![240000]⟩)
    (hb : (⟨0, ![]⟩ : Shape).BroadcastsInDim ⟨1, ![128]⟩ ![])
    (hc : Shape.Concatenates [⟨1, ![240000]⟩, ⟨1, ![128]⟩] ⟨1, ![240128]⟩ (0 : Fin 1))
    (hcc : Shape.Concatenates [⟨1, ![240128]⟩, ⟨1, ![240128]⟩] SEp (0 : Fin 1)) :
    concatenate SEp (0 : Fin 1)
      [⟨⟨1, ![240128]⟩, concatenate ⟨1, ![240128]⟩ (0 : Fin 1)
          [⟨⟨1, ![240000]⟩, extractStridedSlice ⟨1, ![240000]⟩ ![0] v hs0⟩,
           ⟨⟨1, ![128]⟩, broadcastInDim ⟨1, ![128]⟩ ![] hb (constantI ⟨0, ![]⟩ 32 0#32)⟩] hc⟩,
       ⟨⟨1, ![240128]⟩, concatenate ⟨1, ![240128]⟩ (0 : Fin 1)
          [⟨⟨1, ![240000]⟩, extractStridedSlice ⟨1, ![240000]⟩ ![240000] v hs1⟩,
           ⟨⟨1, ![128]⟩, broadcastInDim ⟨1, ![128]⟩ ![] hb (constantI ⟨0, ![]⟩ 32 0#32)⟩] hc⟩] hcc
      = padI v := by
  funext i
  obtain ⟨j, rfl⟩ : ∃ j : Fin 480256, i = ix1 j := ⟨i 0, eq_ix1 i⟩
  have hj := j.isLt
  by_cases h1 : j.val < 240128
  · rw [Halves.vec_left _ _ hcc ⟨j.val, h1⟩ j rfl]
    by_cases h0 : j.val < 240000
    · rw [Halves.vec_left _ _ hc ⟨j.val, h0⟩ ⟨j.val, h1⟩ rfl, vec_slice 0 v hs0 ⟨j.val, h0⟩ ⟨j.val, by omega⟩ (by simp)]
      have hu : unpad j = some ⟨j.val, by omega⟩ := by unfold unpad; rw [dif_pos h0]
      show _ = (match unpad j with | some e => v (ix1 e) | none => 0#32)
      rw [hu]
    · rw [Halves.vec_right _ _ hc ⟨j.val - 240000, by omega⟩ ⟨j.val, h1⟩ (by show j.val = 240000 + (j.val - 240000); omega),
        broadcastInDim_scalar_apply]
      have hu : unpad j = none := by unfold unpad; rw [dif_neg h0, dif_pos h1]
      show _ = (match unpad j with | some e => v (ix1 e) | none => 0#32)
      rw [hu]; rfl
  · rw [Halves.vec_right _ _ hcc ⟨j.val - 240128, by omega⟩ j (by show j.val = 240128 + (j.val - 240128); omega)]
    by_cases h2 : j.val < 480128
    · rw [Halves.vec_left _ _ hc ⟨j.val - 240128, by omega⟩ ⟨j.val - 240128, by omega⟩ rfl,
        vec_slice 240000 v hs1 ⟨j.val - 240128, by omega⟩ ⟨j.val - 128, by omega⟩ (by show j.val - 128 = 240000 + (j.val - 240128); omega)]
      have hu : unpad j = some ⟨j.val - 128, by omega⟩ := by
        unfold unpad; rw [dif_neg (by omega), dif_neg h1, dif_pos h2]
      show _ = (match unpad j with | some e => v (ix1 e) | none => 0#32)
      rw [hu]
    · rw [Halves.vec_right _ _ hc ⟨j.val - 480128, by omega⟩ ⟨j.val - 240128, by omega⟩
          (by show j.val - 240128 = 240000 + (j.val - 480128); omega),
        broadcastInDim_scalar_apply]
      have hu : unpad j = none := by unfold unpad; rw [dif_neg (by omega), dif_neg h1, dif_neg h2]
      show _ = (match unpad j with | some e => v (ix1 e) | none => 0#32)
      rw [hu]; rfl

/-- A list of rows of eight weights: the two halves, 128 zero rows after each, one above the other. -/
theorem padF_eq (a : SA.Idx → EReal)
    (hs0 : SA.Slices ![0, 0] ⟨2, ![240000, 8]⟩) (hs1 : SA.Slices ![240000, 0] ⟨2, ![240000, 8]⟩)
    (hb : (⟨0, ![]⟩ : Shape).BroadcastsInDim ⟨2, ![128, 8]⟩ ![])
    (hc : Shape.Concatenates [⟨2, ![240000, 8]⟩, ⟨2, ![128, 8]⟩] ⟨2, ![240128, 8]⟩ (0 : Fin 2))
    (hcc : Shape.Concatenates [⟨2, ![240128, 8]⟩, ⟨2, ![240128, 8]⟩] SAp (0 : Fin 2)) :
    concatenate SAp (0 : Fin 2)
      [⟨⟨2, ![240128, 8]⟩, concatenate ⟨2, ![240128, 8]⟩ (0 : Fin 2)
          [⟨⟨2, ![240000, 8]⟩, extractStridedSlice ⟨2, ![240000, 8]⟩ ![0, 0] a hs0⟩,
           ⟨⟨2, ![128, 8]⟩, broadcastInDim ⟨2, ![128, 8]⟩ ![] hb (constant (F := Ideal) ⟨0, ![]⟩ .f32 0x00000000#32)⟩] hc⟩,
       ⟨⟨2, ![240128, 8]⟩, concatenate ⟨2, ![240128, 8]⟩ (0 : Fin 2)
          [⟨⟨2, ![240000, 8]⟩, extractStridedSlice ⟨2, ![240000, 8]⟩ ![240000, 0] a hs1⟩,
           ⟨⟨2, ![128, 8]⟩, broadcastInDim ⟨2, ![128, 8]⟩ ![] hb (constant (F := Ideal) ⟨0, ![]⟩ .f32 0x00000000#32)⟩] hc⟩] hcc
      = padF a := by
  funext i
  obtain ⟨j, q, rfl⟩ : ∃ (j : Fin 480256) (q : Fin 8), i = ix2 j q := ⟨i 0, i 1, eq_ix2 i⟩
  have hj := j.isLt
  have hz : constant (F := Ideal) ⟨0, ![]⟩ .f32 0x00000000#32 ix0 = (0 : EReal) := by
    rw [constant_apply]; exact Ideal.ofBits_zero_f32
  by_cases h1 : j.val < 240128
  · rw [rows_top _ _ hcc ⟨j.val, h1⟩ j q rfl]
    by_cases h0 : j.val < 240000
    · rw [rows_top _ _ hc ⟨j.val, h0⟩ ⟨j.val, h1⟩ q rfl, row_slice 0 a hs0 ⟨j.val, h0⟩ ⟨j.val, by omega⟩ q (by simp)]
      have hu : unpad j = some ⟨j.val, by omega⟩ := by unfold unpad; rw [dif_pos h0]
      show _ = (match unpad j with | some e => a (ix2 e q) | none => 0)
      rw [hu]
    · rw [rows_bottom _ _ hc ⟨j.val - 240000, by omega⟩ ⟨j.val, h1⟩ q (by show j.val = 240000 + (j.val - 240000); omega),
        broadcastInDim_scalar_apply, hz]
      have hu : unpad j = none := by unfold unpad; rw [dif_neg h0, dif_pos h1]
      show _ = (match unpad j with | some e => a (ix2 e q) | none => 0)
      rw [hu]
  · rw [rows_bottom _ _ hcc ⟨j.val - 240128, by omega⟩ j q (by show j.val = 240128 + (j.val - 240128); omega)]
    by_cases h2 : j.val < 480128
    · rw [rows_top _ _ hc ⟨j.val - 240128, by omega⟩ ⟨j.val - 240128, by omega⟩ q rfl,
        row_slice 240000 a hs1 ⟨j.val - 240128, by omega⟩ ⟨j.val - 128, by omega⟩ q
          (by show j.val - 128 = 240000 + (j.val - 240128); omega)]
      have hu : unpad j = some ⟨j.val - 128, by omega⟩ := by
        unfold unpad; rw [dif_neg (by omega), dif_neg h1, dif_pos h2]
      show _ = (match unpad j with | some e => a (ix2 e q) | none => 0)
      rw [hu]
    · rw [rows_bottom _ _ hc ⟨j.val - 480128, by omega⟩ ⟨j.val - 240128, by omega⟩ q
          (by show j.val - 240128 = 240000 + (j.val - 480128); omega),
        broadcastInDim_scalar_apply, hz]
      have hu : unpad j = none := by unfold unpad; rw [dif_neg (by omega), dif_neg h1, dif_neg h2]
      show _ = (match unpad j with | some e => a (ix2 e q) | none => 0)
      rw [hu]

end Cert.Pads

end
-- ==== Proof.Glue.lean ====
/-
  The idealized kernel's buffers at the segment boundaries, as functions of the argument arrays.

  Before the first kernel the host forms, from the arguments, the edge weights `alpha` (480000 rows of eight), the
  source and target words `src`, `dst` (480000 each) and the gathered node features `xl`: the very operations
  the reference starts with, so these four arrays are the reference's own stages.  The first kernel leaves them
  alone.  Between the kernels the host pads the three edge arrays (`Cert.Spec.padI`, `padF`) and leaves the first
  kernel's result alone.
-/
import proofs.«118648_j41850161332740_2_alg».proof.Proof.Gen.KernelIdeal.Frame
import proofs.«118648_j41850161332740_2_alg».proof.Proof.Gen.ReferenceIdeal.Read
import proofs.«118648_j41850161332740_2_alg».proof.Proof.Spec
import proofs.«118648_j41850161332740_2_alg».proof.Proof.Pads
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## Before the first kernel: the reference's own first stages -/

/-- The edge weights are the reference's stage. -/
theorem W1_v4 (c : Dev nD) :
    W1 m ρ c (Proc.devRef .tc main_v4)
      = Cert.ReferenceIdeal.Read.val_main_v4 (F := Ideal) (m ((c : Thread nD τ).loc main_arg2)) (m ((c : Thread nD τ).loc main_arg4)) := by
  show StableHlo.after hostOps0 (W0 m ρ c) (Proc.devRef .tc main_v4) = _
  after_results_simp
  rfl

/-- The source words are the reference's stage. -/
theorem W1_v24 (c : Dev nD) :
    W1 m ρ c (Proc.devRef .tc main_v24)
      = Cert.ReferenceIdeal.Read.val_main_v24 (F := Ideal) (m ((c : Thread nD τ).loc main_arg1)) (m ((c : Thread nD τ).loc main_arg3)) := by
  show StableHlo.after hostOps0 (W0 m ρ c) (Proc.devRef .tc main_v24) = _
  after_results_simp
  rfl

/-- The target words are the reference's stage. -/
theorem W1_v33 (c : Dev nD) :
    W1 m ρ c (Proc.devRef .tc main_v33)
      = Cert.ReferenceIdeal.Read.val_main_v33 (F := Ideal) (m ((c : Thread nD τ).loc main_arg1)) (m ((c : Thread nD τ).loc main_arg3)) := by
  show StableHlo.after hostOps0 (W0 m ρ c) (Proc.devRef .tc main_v33) = _
  after_results_simp
  rfl

/-- The gathered node features are the reference's stage. -/
theorem W1_v40 (c : Dev nD) :
    W1 m ρ c (Proc.devRef .tc main_v40)
      = Cert.ReferenceIdeal.Read.val_main_v40 (F := Ideal) (m ((c : Thread nD τ).loc main_arg0)) (m ((c : Thread nD τ).loc main_arg1)) := by
  show StableHlo.after hostOps0 (W0 m ρ c) (Proc.devRef .tc main_v40) = _
  after_results_simp
  rfl

/-- The weight matrix is the argument. -/
theorem W1_arg5 (c : Dev nD) :
    W1 m ρ c (Proc.devRef .tc main_arg5) = m ((c : Thread nD τ).loc main_arg5) := by
  show StableHlo.after hostOps0 (W0 m ρ c) (Proc.devRef .tc main_arg5) = _
  after_results_simp

/-! ## The first kernel leaves the edge arrays alone -/

theorem W2_v4 (c : Dev nD) : W2 m ρ c (Proc.devRef .tc main_v4) = W1 m ρ c (Proc.devRef .tc main_v4) :=
  W2_of_ne m ρ c main_v4 (by decide)
theorem W2_v24 (c : Dev nD) : W2 m ρ c (Proc.devRef .tc main_v24) = W1 m ρ c (Proc.devRef .tc main_v24) :=
  W2_of_ne m ρ c main_v24 (by decide)
theorem W2_v33 (c : Dev nD) : W2 m ρ c (Proc.devRef .tc main_v33) = W1 m ρ c (Proc.devRef .tc main_v33) :=
  W2_of_ne m ρ c main_v33 (by decide)

/-! ## Between the kernels: the padded halves -/

section Between
variable (Wp : Valuation τ sig (Elt Ideal))

/-- The padded source words, from any contents before the stretch. -/
theorem after1_v48 :
    StableHlo.after hostOps1 Wp (Proc.devRef .tc main_v48) = Cert.Spec.padI (Wp (Proc.devRef .tc main_v24)) := by
  after_results
  exact Cert.Pads.padI_eq _ _ _ _ _ _

/-- The padded target words. -/
theorem after1_v55 :
    StableHlo.after hostOps1 Wp (Proc.devRef .tc main_v55) = Cert.Spec.padI (Wp (Proc.devRef .tc main_v33)) := by
  after_results
  exact Cert.Pads.padI_eq _ _ _ _ _ _

set_option maxHeartbeats 4000000 in
/-- The padded edge weights. -/
theorem after1_v62 :
    StableHlo.after hostOps1 Wp (Proc.devRef .tc main_v62) = Cert.Spec.padF (Wp (Proc.devRef .tc main_v4)) := by
  after_results
  exact Cert.Pads.padF_eq _ _ _ _ _ _

/-- The first kernel's result is not touched between the kernels. -/
theorem after1_v41 :
    StableHlo.after hostOps1 Wp (Proc.devRef .tc main_v41) = Wp (Proc.devRef .tc main_v41) := by
  after_results

end Between

theorem W3_v48 (c : Dev nD) :
    W3 m ρ c (Proc.devRef .tc main_v48) = Cert.Spec.padI (W1 m ρ c (Proc.devRef .tc main_v24)) :=
  (after1_v48 (W2 m ρ c)).trans (congrArg Cert.Spec.padI (W2_v24 m ρ c))
theorem W3_v55 (c : Dev nD) :
    W3 m ρ c (Proc.devRef .tc main_v55) = Cert.Spec.padI (W1 m ρ c (Proc.devRef .tc main_v33)) :=
  (after1_v55 (W2 m ρ c)).trans (congrArg Cert.Spec.padI (W2_v33 m ρ c))
theorem W3_v62 (c : Dev nD) :
    W3 m ρ c (Proc.devRef .tc main_v62) = Cert.Spec.padF (W1 m ρ c (Proc.devRef .tc main_v4)) :=
  (after1_v62 (W2 m ρ c)).trans (congrArg Cert.Spec.padF (W2_v4 m ρ c))
theorem W3_v41 (c : Dev nD) :
    W3 m ρ c (Proc.devRef .tc main_v41) = W2 m ρ c (Proc.devRef .tc main_v41) :=
  after1_v41 (W2 m ρ c)

end Cert.KernelIdeal.Glue

end
-- ==== Proof.Tail.lean ====
/-
  The last host operations, read at an index: the two halves' accumulators are added (a sum over the leading axis of
  extent two, from zero) and the bias row is added to every node's row.
-/
import proofs.«118648_j41850161332740_2_alg».proof.Proof.Spec
import Idealize.ShloMosaic.Lib.Pipeline.Value
import Idealize.ShloMosaic.Lib.IdealHost
import Idealize.ShloMosaic.PureOps.Ideal.Laws

noncomputable section

open scoped BigOperators

namespace Cert.Tail

open Idealize.ShloMosaic Idealize.ShloMosaic.ValueIdx Cert.Spec

/-- The sum over the two halves, from zero, plus the bias broadcast down the rows, at node `n`, column `f`. -/
theorem tail_apply (x : FVec Ideal SO2 .f32) (b : FVec Ideal SB .f32)
    (hr' : SO2.ReducesTo [(0 : Fin 3)] SN) (hu : 0 < (⟨0, ![]⟩ : Shape).numel)
    (hsc : SB.ShapeCasts ⟨2, ![1, 512]⟩) (hb : (⟨2, ![1, 512]⟩ : Shape).BroadcastsInDim SN ![0, 1])
    (n : Fin 10000) (f : Fin 512) :
    addf (Host.reduceAdd x (constant (F := Ideal) ⟨0, ![]⟩ .f32 0x00000000#32) hr' hu)
      (broadcastInDim SN ![0, 1] hb (shapeCast ⟨2, ![1, 512]⟩ b hsc)) (ix2 n f)
      = (x (ix3 0 n f) + x (ix3 1 n f)) + b (ix1 f) := by
  have hr : SO2.Reduces [(0 : Fin 3)] SN := by decide
  rw [addf_apply, hostReduceAdd_apply, Ideal.hostReduceAdd_single hr' hr, constant_apply, Ideal.ofBits_zero_f32, zero_add]
  rw [broadcastInDim_apply ![0, 1] hb _ (ix2 n f) (ix2 (0 : Fin 1) f) (fun a => match a with | ⟨0, _⟩ => rfl | ⟨1, _⟩ => rfl)]
  rw [shapeCast_apply b hsc (ix2 (0 : Fin 1) f) (ix1 f)
    (by rw [Shape.rowMajor_val_one, Shape.rowMajor_val_two]; show f.val = 0 * 512 + f.val; omega)]
  congr 1
  show ∑ k : Fin 2, x (hr.lift (ix2 n f) k) = _
  rw [Fin.sum_univ_two]
  congr 2 <;> (funext a; match a with | ⟨0, _⟩ => rfl | ⟨1, _⟩ => rfl | ⟨2, _⟩ => rfl)

end Cert.Tail

end
-- ==== Proof.GlueTail.lean ====
/-
  The idealized kernel's last stretch of host operations, from any contents before it: the result at node `n`, column
  `f` is the second kernel's two accumulators at (n, f) added, plus the bias at `f`; and the bias buffer holds the
  argument at every boundary, since no host operation and no kernel writes it.
-/
import proofs.«118648_j41850161332740_2_alg».proof.Proof.Glue
import proofs.«118648_j41850161332740_2_alg».proof.Proof.Tail

set_option maxRecDepth 16384

noncomputable section

namespace Cert.KernelIdeal.Glue

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The result at node `n`, column `f`, from any contents before the last stretch: the two halves' accumulators `x63`
    added, plus the bias `x6`. -/
theorem after2_v67 (Wp : Valuation τ sig (Elt Ideal)) (x63 : FVec Ideal S2x10000x512 .f32) (x6 : FVec Ideal S512 .f32)
    (h63 : Wp (Proc.devRef .tc main_v63) = x63) (h6 : Wp (Proc.devRef .tc main_arg6) = x6) (n : Fin 10000) (f : Fin 512) :
    ((x63 (ix3 0 n f) + x63 (ix3 1 n f)) + x6 (ix1 f) : EReal)
      = StableHlo.after hostOps2 Wp (Proc.devRef .tc main_v67) (ix2 n f) := by
  subst h63 h6
  after_results
  exact (Cert.Tail.tail_apply _ _ _ _ _ _ n f).symm

theorem after1_arg6 (Wp : Valuation τ sig (Elt Ideal)) :
    StableHlo.after hostOps1 Wp (Proc.devRef .tc main_arg6) = Wp (Proc.devRef .tc main_arg6) := by
  after_results

theorem W1_arg6 (c : Dev nD) :
    W1 m ρ c (Proc.devRef .tc main_arg6) = m ((c : Thread nD τ).loc main_arg6) := by
  show StableHlo.after hostOps0 (W0 m ρ c) (Proc.devRef .tc main_arg6) = _
  after_results_simp

theorem W4_arg6 (c : Dev nD) :
    W4 m ρ c (Proc.devRef .tc main_arg6) = m ((c : Thread nD τ).loc main_arg6) :=
  (W4_of_ne m ρ c main_arg6 (by decide)).trans
    ((after1_arg6 (W2 m ρ c)).trans ((W2_of_ne m ρ c main_arg6 (by decide)).trans (W1_arg6 m ρ c)))

end Cert.KernelIdeal.Glue

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibRowBlockDot.lean ====
/-
  A plain matrix product `x · W` as one function of the two arrays, and its blocks of rows.

  For `x` of `N × K` and `W` of `K × C` the product's entry at `(r, c)` is `∑ k, x (r, k) * W (k, c)` on the extended
  reals (`proj`). Two readings of it, generic in the extents. The host's `dot_general` of the whole arrays, with the
  dimension numbers of a plain product, is this function. And a block of `B` consecutive rows of it is the matrix
  unit's product, into a zero accumulator, of that block of rows of `x` with the whole of `W`: row `p` of block `b` is
  row `b * B + p` of the array, and the contraction runs over the same `K` terms. This is the step between a kernel
  that tiles the rows of a product over its grid and a reference that forms the product at once.
-/
import Idealize.ShloMosaic.PureOps.Ideal
import Idealize.ShloMosaic.Lib.ValueIdx
import proofs.«118648_j41850161332740_2_alg».proof.Proof.LibPlainDot

noncomputable section

namespace Idealize.ShloMosaic.RowBlockDot

open Idealize.ShloMosaic Idealize.ShloMosaic.ValueIdx

variable {N K C : Nat}

/-- The product: entry `(i 0, i 1)` is the sum over `k` of `x (i 0, k) * W (k, i 1)`. -/
def proj (x : (⟨2, ![N, K]⟩ : Shape).Idx → EReal) (W : (⟨2, ![K, C]⟩ : Shape).Idx → EReal) :
    (⟨2, ![N, C]⟩ : Shape).Idx → EReal :=
  fun i => ∑ k : Fin K, x (ix2 (n0 := N) (n1 := K) (i 0) k) * W (ix2 (n0 := K) (n1 := C) k (i 1))

/-- The product at named coordinates. -/
theorem proj_apply (x : (⟨2, ![N, K]⟩ : Shape).Idx → EReal) (W : (⟨2, ![K, C]⟩ : Shape).Idx → EReal)
    (r : Fin N) (c : Fin C) : proj x W (ix2 r c) = ∑ k : Fin K, x (ix2 r k) * W (ix2 k c) := rfl

/-- The host's product of the whole arrays is `proj`. -/
theorem dotGeneral_eq_proj (wf : DotDims.WF ⟨2, ![N, K]⟩ ⟨2, ![K, C]⟩ ⟨2, ![N, C]⟩ [1] [0] [0] [1] [] [])
    {φ₁ φ₂ : FTy} (prec : Option ContractPrecision) (sched : HostSchedule)
    (x : FVec Ideal ⟨2, ![N, K]⟩ φ₁) (W : FVec Ideal ⟨2, ![K, C]⟩ φ₂) :
    FloatOps.dotGeneral (PlainDot.dims N K C wf) prec sched x W = proj x W := by
  funext i
  obtain ⟨r, c, rfl⟩ : ∃ (r : Fin N) (c : Fin C), i = ix2 r c := ⟨i 0, i 1, eq_ix2 i⟩
  exact PlainDot.dotGeneral_apply wf prec sched x W r c

/-- Block `b` of `B` rows of the product: when `x0` holds rows `b * B …` of `X` and `x1` holds `W`, the matrix unit's
    product of `x0` and `x1` into a zero accumulator is, at `(p, q)`, the product at `(b * B + p, q)`. -/
theorem matmul_block {B : Nat} (wf : DotDims.WF ⟨2, ![B, K]⟩ ⟨2, ![K, C]⟩ ⟨2, ![B, C]⟩ [1] [0] [0] [1] [] [])
    {φ₁ φ₂ : FTy} (prec : Option ContractPrecision)
    (X : (⟨2, ![N, K]⟩ : Shape).Idx → EReal) (W : (⟨2, ![K, C]⟩ : Shape).Idx → EReal)
    (x0 : FVec Ideal ⟨2, ![B, K]⟩ φ₁) (x1 : FVec Ideal ⟨2, ![K, C]⟩ φ₂) (b : Nat)
    (hrow : ∀ p : Fin B, b * B + p.val < N)
    (h0 : ∀ (p : Fin B) (k : Fin K), x0 (ix2 p k) = X (ix2 ⟨b * B + p.val, hrow p⟩ k))
    (h1 : ∀ (k : Fin K) (q : Fin C), x1 (ix2 k q) = W (ix2 k q)) (p : Fin B) (q : Fin C) :
    FloatOps.matmul (PlainDot.dims B K C wf) prec x0 x1 (constant ⟨2, ![B, C]⟩ .f32 0x00000000#32) (ix2 p q)
      = proj X W (ix2 ⟨b * B + p.val, hrow p⟩ q) := by
  rw [PlainDot.matmul_zero_apply wf prec x0 x1 p q, proj_apply]
  exact Finset.sum_congr rfl fun k _ => by rw [h0 p k, h1 k q]

end Idealize.ShloMosaic.RowBlockDot

end
-- ==== Proof.Region0.lean ====
/-
  The first kernel is the matrix product.

  The region walks a grid of 10 points. At point `t` it reads rows `1000 t … 1000 t + 999` of the node table `xl`
  (10000 × 512) and the whole weight matrix `W` (512 × 512), multiplies that block of rows by `W` on the matrix unit into
  a zero accumulator, and writes the result back as rows `1000 t …` of the output array. On the extended reals a change of
  float format is the identity, so entry `(p, q)` of what point `t` writes is `∑ k, xl (1000 t + p, k) * W (k, q)`: block
  `t` of rows of the plain product `xl · W`. Row `r` of the array lies in the block of point `r / 1000`, so the ten blocks
  cover the array, and the array ends holding `xl · W`, the specification's transformed node table. Everything is stated at
  the buffer contents `V` the region finds when it is entered; no finiteness of any entry is used.
-/
import proofs.«118648_j41850161332740_2_alg».proof.Proof.Gen.KernelIdeal.Frame
import proofs.«118648_j41850161332740_2_alg».proof.Proof.Spec
import proofs.«118648_j41850161332740_2_alg».proof.Proof.LibRowBlockDot
import Idealize.ShloMosaic.Lib.Pipeline.Value

noncomputable section

namespace Cert.KernelIdeal.Region0

open Cert.KernelIdeal Cert.KernelIdeal.Gen Idealize.ShloMosaic Idealize.ShloMosaic.ValueIdx Idealize.ShloMosaic.Pipeline Idealize.SL.Sem Idealize.ShloMosaic.TcCoe

variable (V : (c : Dev nD) → (b : Ref sig .tc) → Buf (Elt Ideal) ((c : Thread nD τ).loc b))

/-! ## The block product at an entry -/

/-- The zero offsets of a whole-buffer access, as the constant function. -/
theorem hz : (![0, 0] : Fin 2 → Nat) = fun _ => 0 := funext fun a => by fin_cases a <;> rfl

/-- The transformed node table is the plain product of the two arrays. -/
theorem hmat_eq_proj (xl : Cert.Spec.SN.Idx → EReal) (W : Cert.Spec.SW.Idx → EReal) :
    Cert.Spec.hmat xl W = RowBlockDot.proj (N := 10000) (K := 512) (C := 512) xl W := rfl

/-- THE BODY'S VALUE AT AN ENTRY: when `x0` holds rows `1000 b …` of `X` and `x1` holds `W`, the body's stored value (both
    operands and the result pass through a change of float format, the identity here; the product goes into a zero
    accumulator) is, at `(p, q)`, the product `X · W` at `(1000 b + p, q)`. -/
theorem pay_apply (X : S10000x512.Idx → EReal) (W : S512x512.Idx → EReal)
    (x0 : Vec Ideal S1000x512 .f32) (x1 : Vec Ideal S512x512 .f32) (b : Nat)
    (hrow : ∀ p : Fin 1000, b * 1000 + p.val < 10000)
    (h0 : ∀ (p : Fin 1000) (k : Fin 512), x0 (ix2 p k) = X (ix2 ⟨b * 1000 + p.val, hrow p⟩ k))
    (h1 : ∀ (k : Fin 512) (q : Fin 512), x1 (ix2 k q) = W (ix2 k q)) (p : Fin 1000) (q : Fin 512) :
    (k0_pay1 (F := Ideal) x0 x1 : FVec Ideal S1000x512 .bf16) (ix2 p q)
      = Cert.Spec.hmat X W (ix2 ⟨b * 1000 + p.val, hrow p⟩ q) := by
  unfold k0_pay1
  rw [shapeCast_self]
  exact RowBlockDot.matmul_block (N := 10000) (B := 1000) (K := 512) (C := 512)
    dot_S1000x512_S512x512_S1000x512_1_0_0_1_n_n.wf none X W
    (truncf .bf16 x0 bitsLt_bf16_f32) (truncf .bf16 x1 bitsLt_bf16_f32) b hrow h0 h1 p q

/-! ## The windows' blocks as rows of their arrays -/

/-- The index maps over the grid: the two row-blocked windows sit at block `t` of rows and block 0 of columns, the weight
    window at block 0 of both. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has ten points. -/
theorem hN : cfg0.N = 10 := N_0

/-- Row `p` of block `t` is a row of the array. -/
theorem row_lt (t : Fin cfg0.N) (p : Fin 1000) : t.val * 1000 + p.val < 10000 := by
  have h1 : t.val < 10 := Nat.lt_of_lt_of_eq t.isLt hN
  have h2 := p.isLt
  omega

/-- Window 0's block at point `t` holds rows `1000 t …` of the node table. -/
theorem iblk0_0_apply (c : Dev nD) (t : Fin cfg0.N) (p : Fin 1000) (k : Fin 512) :
    (iblk0 V c 0 t : Vec Ideal S1000x512 .f32) (ix2 p k)
      = (V c main_v40 : S10000x512.Idx → EReal) (ix2 ⟨t.val * 1000 + p.val, row_lt t p⟩ k) := by
  obtain ⟨e0, e1, -⟩ := idx0 t
  unfold iblk0
  rw [View.read_apply]
  show V c main_v40 _ = V c main_v40 _
  congr 1
  funext a
  apply Fin.ext
  match a with
  | ⟨0, _⟩ => show win0_0.index t (0 : Fin 2) * 1000 + 1 * p.val = t.val * 1000 + p.val; rw [e0]; omega
  | ⟨1, _⟩ => show win0_0.index t (1 : Fin 2) * 512 + 1 * k.val = k.val; rw [e1]; omega

/-- Window 1's block at every point is the whole weight matrix. -/
theorem iblk0_1_apply (c : Dev nD) (t : Fin cfg0.N) (k : Fin 512) (q : Fin 512) :
    (iblk0 V c 1 t : Vec Ideal S512x512 .f32) (ix2 k q) = (V c main_arg5 : S512x512.Idx → EReal) (ix2 k q) := by
  obtain ⟨-, -, e0, e1, -⟩ := idx0 t
  unfold iblk0
  rw [View.read_apply]
  show V c main_arg5 _ = V c main_arg5 _
  congr 1
  funext a
  apply Fin.ext
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- Entry `(p, q)` of the output window's block at point `t` sits at row `1000 t + p`, column `q` of the array. -/
theorem emb0_2 (t : Fin cfg0.N) (p : Fin 1000) (q : Fin 512) :
    (((cfg0.win 2).blk t).view.emb (ix2 p q) : S10000x512.Idx) = ix2 ⟨t.val * 1000 + p.val, row_lt t p⟩ q := by
  obtain ⟨-, -, -, -, e0, e1⟩ := idx0 t
  funext a
  apply Fin.ext
  match a with
  | ⟨0, _⟩ => show win0_2.index t (0 : Fin 2) * 1000 + 1 * p.val = t.val * 1000 + p.val; rw [e0]; omega
  | ⟨1, _⟩ => show win0_2.index t (1 : Fin 2) * 512 + 1 * q.val = q.val; rw [e1]; omega

/-! ## What a point writes back, the cover, and the array -/

/-- WHAT POINT `t` WRITES BACK is block `t` of rows of the product. -/
theorem flushed_eq (c : Dev nD) (t : Fin cfg0.N) :
    (dat0 (F := Ideal) V c).flushed 2 t
      = ((cfg0.win 2).blk t).view.read (Elt Ideal) (Cert.Spec.hmat (V c main_v40) (V c main_arg5)) := by
  show (cfg0.win 2).cut (grid0.coords t) ((dat0 (F := Ideal) V c).after 2 t) = _
  rw [after0_2]
  unfold out0_2
  rw [View.canon_unit_zero hz]
  simp only [View.ld_unit_zero (S := S1000x512) hz, View.ld_unit_zero (S := S512x512) hz]
  funext j
  obtain ⟨p, q, rfl⟩ : ∃ (p : Fin 1000) (q : Fin 512), j = ix2 p q := ⟨j 0, j 1, eq_ix2 j⟩
  show (k0_pay1 (F := Ideal) (iblk0 V c 0 t) (iblk0 V c 1 t) : FVec Ideal S1000x512 .bf16) (ix2 p q)
    = Cert.Spec.hmat (V c main_v40) (V c main_arg5) (((cfg0.win 2).blk t).view.emb (ix2 p q))
  rw [emb0_2 t p q]
  exact pay_apply (V c main_v40) (V c main_arg5) (iblk0 V c 0 t) (iblk0 V c 1 t) t.val (row_lt t)
    (iblk0_0_apply V c t) (iblk0_1_apply V c t) p q

/-- An index of the array is in point `t`'s block iff each coordinate is in the block's range on its axis. -/
theorem mem_blk (t : Fin cfg0.N) (i : S10000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v41).slice (win0_2.rect t)).set ↔ _
  rw [View.set_slice_whole, Rect.mem_set_unit]
  exact Iff.rfl

/-- Every block of rows is some point's. -/
theorem idx_onto : ∀ q0 : Fin 10, ∃ t : Fin cfg0.N, t.val = q0.val :=
  (by decide +kernel : ∀ q0 : Fin 10, ∃ t : Fin grid0.N, t.val = q0.val)

/-- Row `r` of the array is in the block of point `r / 1000`. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ := idx_onto ⟨(i 0).val / 1000, by omega⟩
  have ht' : t.val = (i 0).val / 1000 := ht
  obtain ⟨-, -, -, -, e0, e1⟩ := idx0 t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; rw [e0]; omega
  | ⟨1, _⟩ => show win0_2.index t (1 : Fin 2) * 512 ≤ (i 1).val ∧ (i 1).val < win0_2.index t (1 : Fin 2) * 512 + 512; rw [e1]; omega

/-- THE ARRAY after the region: the transformed node table `xl · W` of the two arrays the region found. -/
theorem region0_value (c : Dev nD) :
    ((Gen.dat0 (F := Ideal) V c).arrAt 2 cfg0.N : S10000x512.Idx → EReal)
      = Cert.Spec.hmat (V c main_v40) (V c main_arg5) :=
  (dat0 (F := Ideal) V c).arrAt_eq_of_cover 2 (Cert.Spec.hmat (V c main_v40) (V c main_arg5))
    (fun t _ => flushed_eq V c t) cover

end Cert.KernelIdeal.Region0

end
-- ==== Proof.LibBlockedSum.lean ====
/-
  A zero-padded sum cut into equal blocks.

  Let g be a sequence in a commutative additive monoid that vanishes from position N on, and let
  n blocks of b positions each cover the first N positions (N ≤ n · b).  Then adding the n block
  sums  ∑ kk < b, g (b · kb + kk)  for kb = 0, …, n − 1  gives the plain sum  ∑ k < N, g k:
  the blocks tile the positions below n · b in order, and the positions from N up to n · b
  contribute nothing.  This is the contraction of a matrix product over an axis that has been
  padded with zeros to a whole number of blocks and is then summed block by block.
-/
import Mathlib.Algebra.BigOperators.Fin
import Mathlib.Algebra.BigOperators.Intervals

namespace Cert.SparseLinear

/-- The blocks tile an initial segment: n consecutive blocks of b positions are the positions
    below n · b, each once and in order. -/
theorem sum_blocks_range {M : Type*} [AddCommMonoid M] (n b : ℕ) (g : ℕ → M) :
    ∑ kb ∈ Finset.range n, ∑ kk ∈ Finset.range b, g (b * kb + kk) = ∑ k ∈ Finset.range (b * n), g k := by
  induction n with
  | zero => simp
  | succ n ih =>
    rw [Finset.sum_range_succ, ih, Nat.mul_succ, Finset.sum_range_add]

/-- A sum whose terms vanish from N on may be taken over any longer initial segment. -/
theorem sum_range_of_zero_tail {M : Type*} [AddCommMonoid M] (N L : ℕ) (hN : N ≤ L) (g : ℕ → M)
    (hz : ∀ k, N ≤ k → g k = 0) :
    ∑ k ∈ Finset.range L, g k = ∑ k ∈ Finset.range N, g k := by
  obtain ⟨d, rfl⟩ := Nat.exists_eq_add_of_le hN
  rw [Finset.sum_range_add, Finset.sum_eq_zero (fun k _ => hz (N + k) (Nat.le_add_right N k)), add_zero]

/-- The blocked, zero-padded sum is the plain sum: n blocks of b positions covering the first N,
    the terms zero from N on. -/
theorem sum_blocks_of_zero_tail {M : Type*} [AddCommMonoid M] (n b N : ℕ) (hN : N ≤ n * b) (g : ℕ → M)
    (hz : ∀ k, N ≤ k → g k = 0) :
    ∑ kb ∈ Finset.range n, ∑ kk : Fin b, g (b * kb + kk.val) = ∑ k : Fin N, g k.val := by
  rw [Fin.sum_univ_eq_sum_range (fun k => g k) N, ← sum_range_of_zero_tail N (b * n) (Nat.mul_comm n b ▸ hN) g hz,
    ← sum_blocks_range n b g]
  exact Finset.sum_congr rfl fun kb _ => Fin.sum_univ_eq_sum_range (fun kk => g (b * kb + kk)) b

/-- The running total after one more block: the first n + 1 block sums added one after another
    are the first n, then block n. -/
theorem sum_blocks_succ {M : Type*} [AddCommMonoid M] (n : ℕ) (s : ℕ → M) :
    ∑ kb ∈ Finset.range (n + 1), s kb = ∑ kb ∈ Finset.range n, s kb + s n :=
  Finset.sum_range_succ s n

end Cert.SparseLinear
-- ==== Proof.PadSum.lean ====
/-
  The two padded halves add up to the edge list.

  The padded list has 480256 places: places 0 … 239999 hold edges 0 … 239999, places 240000 … 240127 are padding,
  places 240128 … 480127 hold edges 240000 … 479999, and places 480128 … 480255 are padding again.  At a padding place the
  weight is zero, so the place's term is `x · 0 = 0` whatever the words read (true of every extended real `x`).  At a
  place that holds edge `e` the words and weights are the list's; the source word is a node number, so the selected row
  is the gathered row; the target word reads `n` unsigned exactly when it reads `n` signed; and the product commutes.
  So the term there is edge `e`'s message at `(n, f)` when the edge points at `n`, and zero otherwise.

  A half's accumulator is the sum of 938 tiles of 256 consecutive places, which is the sum over the half's 240128
  consecutive places: 240000 edges and then 128 zeros.  The two halves' 240000 + 240000 edges are the whole list in order,
  and a sum of "message if the edge points at `n`, else zero" over all edges is the sum of the messages over the edges
  that point at `n`.  Only the order and grouping of additions change; nothing is asked of the terms.
-/
import proofs.«118648_j41850161332740_2_alg».proof.Proof.Spec
import proofs.«118648_j41850161332740_2_alg».proof.Proof.LibBlockedSum

noncomputable section

open scoped BigOperators

namespace Cert.PadSum

open Cert.Spec Idealize.ShloMosaic Idealize.ShloMosaic.ValueIdx

/-! ## Where the places come from -/

theorem unpad_lo (j : Fin 480256) (hj : j.val < 240000) : unpad j = some ⟨j.val, by omega⟩ := by
  unfold unpad
  rw [dif_pos hj]

theorem unpad_mid (j : Fin 480256) (h1 : 240000 ≤ j.val) (h2 : j.val < 240128) : unpad j = none := by
  unfold unpad
  rw [dif_neg (by omega), dif_pos h2]

theorem unpad_hi (j : Fin 480256) (h1 : 240128 ≤ j.val) (h2 : j.val < 480128) :
    unpad j = some ⟨j.val - 128, by omega⟩ := by
  unfold unpad
  rw [dif_neg (by omega), dif_neg (by omega), dif_pos h2]

theorem unpad_end (j : Fin 480256) (h1 : 480128 ≤ j.val) : unpad j = none := by
  unfold unpad
  rw [dif_neg (by omega), dif_neg (by omega), dif_neg (by omega)]

/-! ## The padded words and weights at a place -/

theorem padI_some (v : IVec SE 32) (j : Fin 480256) (e : Fin 480000) (hu : unpad j = some e) :
    padI v (ix1 j) = v (ix1 e) := by
  show (match unpad j with | some e => v (ix1 e) | none => 0#32) = v (ix1 e)
  rw [hu]

theorem padF_some (a : SA.Idx → EReal) (j : Fin 480256) (c : Fin 8) (e : Fin 480000) (hu : unpad j = some e) :
    padF a (ix2 j c) = a (ix2 e c) := by
  show (match unpad j with | some e => a (ix2 e c) | none => 0) = a (ix2 e c)
  rw [hu]

theorem padF_none (a : SA.Idx → EReal) (j : Fin 480256) (c : Fin 8) (hu : unpad j = none) :
    padF a (ix2 j c) = 0 := by
  show (match unpad j with | some e => a (ix2 e c) | none => 0) = 0
  rw [hu]

/-! ## One place's term -/

/-- Edge `e`'s message at node `n`, column `f` when the edge's target word read signed is `n`, and zero otherwise. -/
def edgeMsg (alpha : SA.Idx → EReal) (src dst : IVec SE 32) (h : SN.Idx → EReal) (n : Fin 10000) (f : Fin 512)
    (e : Fin 480000) : EReal :=
  if (dst (ix1 e)).toInt = (n.val : Int) then alpha (ix2 e (headOf f)) * h (ix2 (rowOf (src (ix1 e))) f) else 0

/-- A padding place contributes nothing: its weight is zero. -/
theorem edgeTerm_none (alpha : SA.Idx → EReal) (src dst : IVec SE 32) (h : SN.Idx → EReal) (n : Fin 10000) (f : Fin 512)
    (j : Fin 480256) (hu : unpad j = none) :
    edgeTerm h (padI src) (padI dst) (padF alpha) n f j = 0 := by
  unfold edgeTerm
  rw [padF_none alpha j _ hu, mul_zero]
  exact ite_self 0

/-- A place that holds edge `e` contributes that edge's message. -/
theorem edgeTerm_some (alpha : SA.Idx → EReal) (src dst : IVec SE 32) (h : SN.Idx → EReal)
    (hsrc : ∀ e : Fin 480000, IsNode (src (ix1 e))) (n : Fin 10000) (f : Fin 512)
    (j : Fin 480256) (e : Fin 480000) (hu : unpad j = some e) :
    edgeTerm h (padI src) (padI dst) (padF alpha) n f j = edgeMsg alpha src dst h n f e := by
  unfold edgeTerm edgeMsg
  rw [padI_some src j e hu, padI_some dst j e hu, padF_some alpha j _ e hu, sel_of_isNode h (hsrc e) f,
    mul_comm (h (ix2 (rowOf (src (ix1 e))) f)) (alpha (ix2 e (headOf f)))]
  exact if_congr (toInt_eq_iff_toNat_eq _ n).symm rfl rfl

/-! ## Places and edges numbered by naturals -/

/-- Edge number `e`'s message, zero past the end of the list. -/
def edgeMsgN (alpha : SA.Idx → EReal) (src dst : IVec SE 32) (h : SN.Idx → EReal) (n : Fin 10000) (f : Fin 512)
    (e : ℕ) : EReal :=
  if he : e < 480000 then edgeMsg alpha src dst h n f ⟨e, he⟩ else 0

/-- Place number `j`'s term, zero past the end of the padded list. -/
def placeN (alpha : SA.Idx → EReal) (src dst : IVec SE 32) (h : SN.Idx → EReal) (n : Fin 10000) (f : Fin 512)
    (j : ℕ) : EReal :=
  if hj : j < 480256 then edgeTerm h (padI src) (padI dst) (padF alpha) n f ⟨j, hj⟩ else 0

section
variable (alpha : SA.Idx → EReal) (src dst : IVec SE 32) (h : SN.Idx → EReal)
  (hsrc : ∀ e : Fin 480000, IsNode (src (ix1 e))) (n : Fin 10000) (f : Fin 512)

include hsrc in
/-- The first 240000 places hold the first 240000 edges. -/
theorem placeN_lo (j : ℕ) (hj : j < 240000) : placeN alpha src dst h n f j = edgeMsgN alpha src dst h n f j := by
  unfold placeN edgeMsgN
  rw [dif_pos (show j < 480256 by omega), dif_pos (show j < 480000 by omega)]
  exact edgeTerm_some alpha src dst h hsrc n f ⟨j, by omega⟩ ⟨j, by omega⟩ (unpad_lo ⟨j, by omega⟩ hj)

/-- The next 128 places are padding. -/
theorem placeN_mid (j : ℕ) (h1 : 240000 ≤ j) (h2 : j < 240128) : placeN alpha src dst h n f j = 0 := by
  unfold placeN
  rw [dif_pos (show j < 480256 by omega)]
  exact edgeTerm_none alpha src dst h n f ⟨j, by omega⟩ (unpad_mid ⟨j, by omega⟩ h1 h2)

include hsrc in
/-- The next 240000 places hold the last 240000 edges, 128 places late. -/
theorem placeN_hi (j : ℕ) (h1 : 240128 ≤ j) (h2 : j < 480128) :
    placeN alpha src dst h n f j = edgeMsgN alpha src dst h n f (j - 128) := by
  unfold placeN edgeMsgN
  rw [dif_pos (show j < 480256 by omega), dif_pos (show j - 128 < 480000 by omega)]
  exact edgeTerm_some alpha src dst h hsrc n f ⟨j, by omega⟩ ⟨j - 128, by omega⟩ (unpad_hi ⟨j, by omega⟩ h1 h2)

/-- The last 128 places are padding. -/
theorem placeN_end (j : ℕ) (h1 : 480128 ≤ j) : placeN alpha src dst h n f j = 0 := by
  unfold placeN
  by_cases hj : j < 480256
  · rw [dif_pos hj]
    exact edgeTerm_none alpha src dst h n f ⟨j, hj⟩ (unpad_end ⟨j, hj⟩ h1)
  · rw [dif_neg hj]

/-! ## One half -/

/-- A half's 938 tiles of 256 places are its 240128 consecutive places. -/
theorem coreSum_eq_range (k : Fin 2) :
    coreSum h (padI src) (padI dst) (padF alpha) k n f
      = ∑ m ∈ Finset.range (256 * 938), placeN alpha src dst h n f (k.val * 240128 + m) := by
  have hk := k.isLt
  calc coreSum h (padI src) (padI dst) (padF alpha) k n f
      = ∑ t : Fin 938, ∑ e : Fin 256, placeN alpha src dst h n f (k.val * 240128 + (256 * t.val + e.val)) := by
        unfold coreSum
        refine Finset.sum_congr rfl fun t _ => Finset.sum_congr rfl fun e _ => ?_
        have ht := t.isLt
        have he := e.isLt
        have hlt : k.val * 240128 + (256 * t.val + e.val) < 480256 := by omega
        unfold placeN
        rw [dif_pos hlt]
        refine congrArg _ (Fin.ext ?_)
        show (k.val * 938 + t.val) * 256 + e.val = k.val * 240128 + (256 * t.val + e.val)
        omega
    _ = ∑ t ∈ Finset.range 938, ∑ e ∈ Finset.range 256, placeN alpha src dst h n f (k.val * 240128 + (256 * t + e)) := by
        rw [← Fin.sum_univ_eq_sum_range
          (fun t => ∑ e ∈ Finset.range 256, placeN alpha src dst h n f (k.val * 240128 + (256 * t + e))) 938]
        exact Finset.sum_congr rfl fun t _ =>
          Fin.sum_univ_eq_sum_range (fun e => placeN alpha src dst h n f (k.val * 240128 + (256 * t.val + e))) 256
    _ = ∑ m ∈ Finset.range (256 * 938), placeN alpha src dst h n f (k.val * 240128 + m) :=
        Cert.SparseLinear.sum_blocks_range 938 256 (fun m => placeN alpha src dst h n f (k.val * 240128 + m))

include hsrc in
/-- A half's accumulator is the sum of its 240000 edges' messages. -/
theorem coreSum_half (k : Fin 2) :
    coreSum h (padI src) (padI dst) (padF alpha) k n f
      = ∑ x ∈ Finset.range 240000, edgeMsgN alpha src dst h n f (k.val * 240000 + x) := by
  have hk := k.isLt
  rw [coreSum_eq_range alpha src dst h n f k, show 256 * 938 = 240000 + 128 from rfl, Finset.sum_range_add]
  have hz : ∑ x ∈ Finset.range 128, placeN alpha src dst h n f (k.val * 240128 + (240000 + x)) = 0 := by
    refine Finset.sum_eq_zero fun x hx => ?_
    have hx' := Finset.mem_range.mp hx
    obtain hk0 | hk1 : k.val = 0 ∨ k.val = 1 := by omega
    · exact placeN_mid alpha src dst h n f _ (by omega) (by omega)
    · exact placeN_end alpha src dst h n f _ (by omega)
  rw [hz, add_zero]
  refine Finset.sum_congr rfl fun x hx => ?_
  have hx' := Finset.mem_range.mp hx
  obtain hk0 | hk1 : k.val = 0 ∨ k.val = 1 := by omega
  · rw [placeN_lo alpha src dst h hsrc n f _ (by omega)]
    exact congrArg _ (by omega)
  · rw [placeN_hi alpha src dst h hsrc n f _ (by omega) (by omega)]
    exact congrArg _ (by omega)

end

/-! ## The two halves together -/

/-- The two halves' accumulators add up to the messages arriving at node `n`, column `f`. -/
theorem coreSum_add (alpha : SA.Idx → EReal) (src dst : IVec SE 32) (h : SN.Idx → EReal)
    (hsrc : ∀ e : Fin 480000, IsNode (src (ix1 e))) (n : Fin 10000) (f : Fin 512) :
    coreSum h (padI src) (padI dst) (padF alpha) 0 n f + coreSum h (padI src) (padI dst) (padF alpha) 1 n f
      = msgAt alpha src dst h n f := by
  have e0 : ∑ x ∈ Finset.range 240000, edgeMsgN alpha src dst h n f ((0 : Fin 2).val * 240000 + x)
      = ∑ x ∈ Finset.range 240000, edgeMsgN alpha src dst h n f x :=
    Finset.sum_congr rfl fun x _ => congrArg _ (by show 0 * 240000 + x = x; omega)
  have e1 : ∑ x ∈ Finset.range 240000, edgeMsgN alpha src dst h n f ((1 : Fin 2).val * 240000 + x)
      = ∑ x ∈ Finset.range 240000, edgeMsgN alpha src dst h n f (240000 + x) :=
    Finset.sum_congr rfl fun x _ => congrArg _ (by show 1 * 240000 + x = 240000 + x; omega)
  rw [coreSum_half alpha src dst h hsrc n f 0, coreSum_half alpha src dst h hsrc n f 1, e0, e1,
    ← Finset.sum_range_add (edgeMsgN alpha src dst h n f) 240000 240000,
    show 240000 + 240000 = 480000 from rfl,
    ← Fin.sum_univ_eq_sum_range (edgeMsgN alpha src dst h n f) 480000]
  unfold msgAt
  rw [Finset.sum_filter]
  refine Finset.sum_congr rfl fun e _ => ?_
  unfold edgeMsgN
  rw [dif_pos e.isLt]
  rfl

end Cert.PadSum

end
-- ==== Proof.LibSlabGatherScatter.lean ====
/-
  Row gather and row scatter-add of a rank-3 array, read at an index.

  `x[idx]` of `x : [N, H, D]` at an integer vector `idx : [E]` (carried as `[E, 1]`) lowers to a `stablehlo.gather`
  of whole `[H, D]` slabs: result element `(e, h, d)` is `x` at slab `idx[e]` (read signed, clamped into
  `[0, N − 1]`) and position `(h, d)`. A segment sum of slabs `upd : [E, H, D]` into `[N, H, D]` lowers to a
  `stablehlo.scatter` with an `add` body: operand element `(n, h, d)` receives every `upd (e, h, d)` whose index
  `idx[e]`, read signed and not clamped, is exactly `n`.
-/
import Idealize.ShloMosaic.Lib.ValueIdx
import Idealize.ShloMosaic.PureOps.Ideal

noncomputable section

open scoped BigOperators

namespace Cert.SlabOps

open Idealize.ShloMosaic Idealize.ShloMosaic.ValueIdx

/-! ## The slab gather -/

/-- The dimension numbers of a slab gather: operand `[N, H, D]`, start indices `[E, 1]`, result `[E, H, D]`; offset
    axes `1, 2`, collapsed operand axis `0`, the start index naming operand axis `0`, slices of one whole slab. -/
abbrev slabGatherDims (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- The slab the gather reads for edge `e`: the start index read signed and clamped into `[0, N − 1]`. -/
def gatherSlab {N E w : Nat} (hN : 0 < N) (idx : IVec ⟨2, ![E, 1]⟩ w) (e : Fin E) : Fin N :=
  ⟨min (idx (ix2 e 0)).toInt.toNat (N - 1), by omega⟩

/-- The slab gather at `(e, h, d)` is the operand at slab `gatherSlab e` and position `(h, d)`. -/
theorem slabGather_apply {α : Type} {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (slabGatherDims N E H D wf) x idx (ix3 e h d) = x (ix3 (gatherSlab hN idx e) h d) := by
  unfold Host.gather
  congr 1
  funext a
  refine Fin.ext ?_
  match a with
  | ⟨0, _⟩ =>
    show (slabGatherDims N E H D wf).start (ix3 e h d) idx 0 + (slabGatherDims N E H D wf).batchCoord (ix3 e h d) 0
      + (slabGatherDims N E H D wf).offCoord (ix3 e h d) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ (slabGatherDims N E H D wf).startIndexMap from List.mem_singleton.mpr rfl)]
    have hsi : (slabGatherDims N E H D wf).siIdx (ix3 e h d) ⟨List.idxOf (0 : Fin 3) (slabGatherDims N E H D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (slabGatherDims N E H D wf).start (ix3 e h d) idx 1 + (slabGatherDims N E H D wf).batchCoord (ix3 e h d) 1
      + (slabGatherDims N E H D wf).offCoord (ix3 e h d) 1 = h.val
    rw [GatherDims.batchCoord_eq_zero _ _ _ List.not_mem_nil]
    have hst : (slabGatherDims N E H D wf).start (ix3 e h d) idx 1 = 0 := by
      unfold GatherDims.start
      rw [dif_neg (fun hh => absurd (List.mem_singleton.mp hh) (show (1 : Fin 3) ≠ 0 by decide))]
    rw [hst]
    simp only [Nat.add_zero, Nat.zero_add]
    unfold GatherDims.offCoord
    rw [dif_pos ((GatherDims.mem_sKept _ _).mpr
      ⟨fun hh => absurd (List.mem_singleton.mp hh) (show (1 : Fin 3) ≠ 0 by decide), List.not_mem_nil⟩)]
    rfl
  | ⟨2, _⟩ =>
    show (slabGatherDims N E H D wf).start (ix3 e h d) idx 2 + (slabGatherDims N E H D wf).batchCoord (ix3 e h d) 2
      + (slabGatherDims N E H D wf).offCoord (ix3 e h d) 2 = d.val
    rw [GatherDims.batchCoord_eq_zero _ _ _ List.not_mem_nil]
    have hst : (slabGatherDims N E H D wf).start (ix3 e h d) idx 2 = 0 := by
      unfold GatherDims.start
      rw [dif_neg (fun hh => absurd (List.mem_singleton.mp hh) (show (2 : Fin 3) ≠ 0 by decide))]
    rw [hst]
    simp only [Nat.add_zero, Nat.zero_add]
    unfold GatherDims.offCoord
    rw [dif_pos ((GatherDims.mem_sKept _ _).mpr
      ⟨fun hh => absurd (List.mem_singleton.mp hh) (show (2 : Fin 3) ≠ 0 by decide), List.not_mem_nil⟩)]
    rfl

/-! ## The slab scatter-add -/

/-- The dimension numbers of a slab scatter: operand `[N, H, D]`, scatter indices `[E, 1]`, updates `[E, H, D]`;
    update window axes `1, 2`, inserted operand axis `0`, the scatter index naming operand axis `0`. -/
abbrev slabScatterDims (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section Scatter
variable {N E H D w : Nat} (wf : ScatterDims.WF ⟨3, ![N, H, D]⟩ ⟨2, ![E, 1]⟩ ⟨3, ![E, H, D]⟩ [1, 2] [0] [0] 1)

theorem slabScatter_mem_sKept (a : Fin 3) :
    a ∈ (slabScatterDims N E H D wf).sKept ↔ a ∉ (slabScatterDims N E H D wf).insertedWindowDims := by
  simp [ScatterDims.sKept, Shape.kept, List.mem_filter, List.mem_finRange]

/-- On the slab axis the window of update `(e, h, d)` starts at the scatter index `idx[e]`, read signed. -/
theorem slabScatter_start0 (idx : IVec ⟨2, ![E, 1]⟩ w) (e : Fin E) (h : Fin H) (d : Fin D) :
    (slabScatterDims N E H D wf).start (ix3 e h d) idx 0 = (idx (ix2 e 0)).toInt := by
  unfold ScatterDims.start
  rw [dif_pos (show (0 : Fin 3) ∈ (slabScatterDims N E H D wf).scatterDimsToOperandDims from List.mem_singleton.mpr rfl)]
  have hsi : (slabScatterDims N E H D wf).siIdx (ix3 e h d)
      ⟨List.idxOf (0 : Fin 3) (slabScatterDims N E H D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem slabScatter_start1 (idx : IVec ⟨2, ![E, 1]⟩ w) (e : Fin E) (h : Fin H) (d : Fin D) :
    (slabScatterDims N E H D wf).start (ix3 e h d) idx 1 = 0 := by
  unfold ScatterDims.start
  rw [dif_neg (fun hh => absurd (List.mem_singleton.mp hh) (show (1 : Fin 3) ≠ 0 by decide))]

theorem slabScatter_start2 (idx : IVec ⟨2, ![E, 1]⟩ w) (e : Fin E) (h : Fin H) (d : Fin D) :
    (slabScatterDims N E H D wf).start (ix3 e h d) idx 2 = 0 := by
  unfold ScatterDims.start
  rw [dif_neg (fun hh => absurd (List.mem_singleton.mp hh) (show (2 : Fin 3) ≠ 0 by decide))]

theorem slabScatter_window0 (e : Fin E) (h : Fin H) (d : Fin D) :
    (slabScatterDims N E H D wf).window (ix3 e h d) 0 = 0 := by
  unfold ScatterDims.window
  rw [dif_neg (fun hh => ((slabScatter_mem_sKept wf 0).mp hh) (List.mem_singleton.mpr rfl))]

theorem slabScatter_window1 (e : Fin E) (h : Fin H) (d : Fin D) :
    (slabScatterDims N E H D wf).window (ix3 e h d) 1 = h.val := by
  unfold ScatterDims.window
  rw [dif_pos ((slabScatter_mem_sKept wf 1).mpr
    (fun hh => absurd (List.mem_singleton.mp hh) (show (1 : Fin 3) ≠ 0 by decide)))]
  rfl

theorem slabScatter_window2 (e : Fin E) (h : Fin H) (d : Fin D) :
    (slabScatterDims N E H D wf).window (ix3 e h d) 2 = d.val := by
  unfold ScatterDims.window
  rw [dif_pos ((slabScatter_mem_sKept wf 2).mpr
    (fun hh => absurd (List.mem_singleton.mp hh) (show (2 : Fin 3) ≠ 0 by decide)))]
  rfl

end Scatter

/-- Update `(e, h, d)` lands on operand element `(n, h', d')` exactly when the positions agree and the scatter index
    `idx[e]`, read signed, is the slab `n`. -/
theorem slabScatter_resultIdx_iff {N E H D w : Nat}
    (wf : ScatterDims.WF ⟨3, ![N, H, D]⟩ ⟨2, ![E, 1]⟩ ⟨3, ![E, H, D]⟩ [1, 2] [0] [0] 1)
    (idx : IVec ⟨2, ![E, 1]⟩ w) (e : Fin E) (h : Fin H) (d : Fin D) (n : Fin N) (h' : Fin H) (d' : Fin D) :
    (slabScatterDims N E H D wf).resultIdx? (ix3 e h d) idx = some (ix3 n h' d')
      ↔ (h = h' ∧ d = d' ∧ (idx (ix2 e 0)).toInt = (n.val : Int)) := by
  have hh := h.isLt
  have hd := d.isLt
  have hn := n.isLt
  unfold ScatterDims.resultIdx?
  constructor
  · intro hyp
    by_cases hall : ∀ a, 0 ≤ (slabScatterDims N E H D wf).start (ix3 e h d) idx a + (slabScatterDims N E H D wf).window (ix3 e h d) a
        ∧ (slabScatterDims N E H D wf).start (ix3 e h d) idx a + (slabScatterDims N E H D wf).window (ix3 e h d) a
          < (⟨3, ![N, H, D]⟩ : Shape).size a
    · rw [dif_pos hall] at hyp
      have heq := Option.some.inj hyp
      have h0 : ((slabScatterDims N E H D wf).start (ix3 e h d) idx 0 + (slabScatterDims N E H D wf).window (ix3 e h d) 0).toNat
          = n.val := congrArg (fun f => (f 0).val) heq
      have h1 : ((slabScatterDims N E H D wf).start (ix3 e h d) idx 1 + (slabScatterDims N E H D wf).window (ix3 e h d) 1).toNat
          = h'.val := congrArg (fun f => (f 1).val) heq
      have h2 : ((slabScatterDims N E H D wf).start (ix3 e h d) idx 2 + (slabScatterDims N E H D wf).window (ix3 e h d) 2).toNat
          = d'.val := congrArg (fun f => (f 2).val) heq
      have b0 := (hall 0).1
      rw [slabScatter_start0, slabScatter_window0] at h0 b0
      rw [slabScatter_start1, slabScatter_window1] at h1
      rw [slabScatter_start2, slabScatter_window2] at h2
      refine ⟨Fin.ext ?_, Fin.ext ?_, ?_⟩
      · omega
      · omega
      · omega
    · rw [dif_neg hall] at hyp
      exact absurd hyp (by simp)
  · rintro ⟨rfl, rfl, hi⟩
    have hall : ∀ a, 0 ≤ (slabScatterDims N E H D wf).start (ix3 e h d) idx a + (slabScatterDims N E H D wf).window (ix3 e h d) a
        ∧ (slabScatterDims N E H D wf).start (ix3 e h d) idx a + (slabScatterDims N E H D wf).window (ix3 e h d) a
          < (⟨3, ![N, H, D]⟩ : Shape).size a := by
      intro a
      match a with
      | ⟨0, _⟩ =>
        show 0 ≤ (slabScatterDims N E H D wf).start (ix3 e h d) idx 0 + (slabScatterDims N E H D wf).window (ix3 e h d) 0
          ∧ (slabScatterDims N E H D wf).start (ix3 e h d) idx 0 + (slabScatterDims N E H D wf).window (ix3 e h d) 0 < (N : Int)
        rw [slabScatter_start0, slabScatter_window0, hi]
        omega
      | ⟨1, _⟩ =>
        show 0 ≤ (slabScatterDims N E H D wf).start (ix3 e h d) idx 1 + (slabScatterDims N E H D wf).window (ix3 e h d) 1
          ∧ (slabScatterDims N E H D wf).start (ix3 e h d) idx 1 + (slabScatterDims N E H D wf).window (ix3 e h d) 1 < (H : Int)
        rw [slabScatter_start1, slabScatter_window1]
        omega
      | ⟨2, _⟩ =>
        show 0 ≤ (slabScatterDims N E H D wf).start (ix3 e h d) idx 2 + (slabScatterDims N E H D wf).window (ix3 e h d) 2
          ∧ (slabScatterDims N E H D wf).start (ix3 e h d) idx 2 + (slabScatterDims N E H D wf).window (ix3 e h d) 2 < (D : Int)
        rw [slabScatter_start2, slabScatter_window2]
        omega
    rw [dif_pos hall]
    congr 1
    funext a
    refine Fin.ext ?_
    match a with
    | ⟨0, _⟩ =>
      show ((slabScatterDims N E H D wf).start (ix3 e h d) idx 0 + (slabScatterDims N E H D wf).window (ix3 e h d) 0).toNat = n.val
      rw [slabScatter_start0, slabScatter_window0, hi]
      omega
    | ⟨1, _⟩ =>
      show ((slabScatterDims N E H D wf).start (ix3 e h d) idx 1 + (slabScatterDims N E H D wf).window (ix3 e h d) 1).toNat = h.val
      rw [slabScatter_start1, slabScatter_window1]
      omega
    | ⟨2, _⟩ =>
      show ((slabScatterDims N E H D wf).start (ix3 e h d) idx 2 + (slabScatterDims N E H D wf).window (ix3 e h d) 2).toNat = d.val
      rw [slabScatter_start2, slabScatter_window2]
      omega

/-- THE SLAB SCATTER-ADD AT `(n, h, d)`: the operand element plus the sum of the update elements `upd (e, h, d)` over
    the edges `e` whose scatter index `idx[e]`, read signed and not clamped, is the slab `n`. -/
theorem slabScatterAdd_apply {N E H D w : Nat}
    (wf : ScatterDims.WF ⟨3, ![N, H, D]⟩ ⟨2, ![E, 1]⟩ ⟨3, ![E, H, D]⟩ [1, 2] [0] [0] 1)
    (x : (⟨3, ![N, H, D]⟩ : Shape).Idx → EReal) (idx : IVec ⟨2, ![E, 1]⟩ w)
    (upd : (⟨3, ![E, H, D]⟩ : Shape).Idx → EReal) (n : Fin N) (h : Fin H) (d : Fin D) :
    Ideal.hostScatterAdd (slabScatterDims N E H D wf) x idx upd (ix3 n h d)
      = x (ix3 n h d)
        + ∑ e ∈ Finset.univ.filter (fun e : Fin E => (idx (ix2 e 0)).toInt = (n.val : Int)), upd (ix3 e h d) := by
  unfold Ideal.hostScatterAdd
  congr 1
  refine Finset.sum_nbij' (fun j => (j 0 : Fin E)) (fun e => ix3 e h d) ?_ ?_ ?_ ?_ ?_
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    exact Finset.mem_filter.mpr ⟨Finset.mem_univ _, hyp.2.2⟩
  · intro e he
    exact Finset.mem_filter.mpr ⟨Finset.mem_univ _,
      (slabScatter_resultIdx_iff wf idx e h d n h d).mpr ⟨rfl, rfl, (Finset.mem_filter.mp he).2⟩⟩
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    show ix3 a h d = ix3 a b c
    rw [hyp.1, hyp.2.1]
  · intro e _
    rfl
  · intro j hj
    obtain ⟨a, b, c, rfl⟩ : ∃ (a : Fin E) (b : Fin H) (c : Fin D), j = ix3 a b c := ⟨j 0, j 1, j 2, eq_ix3 j⟩
    have hyp := (slabScatter_resultIdx_iff wf idx a b c n h d).mp (Finset.mem_filter.mp hj).2
    show upd (ix3 a b c) = upd (ix3 a h d)
    rw [hyp.1, hyp.2.1]

end Cert.SlabOps

end
-- ==== Proof.RefSide.lean ====
/-
  The reference program computes the specification.

  Read one element at a time, the reference's last stage is: the bias at the column, plus a scatter-add, onto a zero array,
  of one slab of 8 × 64 numbers per edge at the slab named by the edge's target word; an edge's slab is its weight for each
  head times the row of the transformed node table named by its source word; the transformed table is the product of the
  node table with the weight matrix. Each of these steps is read at an index below, over arbitrary operand arrays, and the
  last theorem chains them into the specification's sum over the edges that arrive at a node.
-/
import proofs.«118648_j41850161332740_2_alg».proof.Proof.Gen.ReferenceIdeal.Read
import proofs.«118648_j41850161332740_2_alg».proof.Proof.Spec
import proofs.«118648_j41850161332740_2_alg».proof.Proof.LibSlabGatherScatter

noncomputable section

open scoped BigOperators

namespace Cert.RefSide

open Cert.ReferenceIdeal Cert.ReferenceIdeal.Read Idealize.ShloMosaic Idealize.ShloMosaic.ValueIdx

/-! ## Words -/

/-- A word that is non-negative read signed is not below zero, so a select on "below zero" keeps its second operand. -/
theorem select_slt_zero_of_nonneg {α : Type} (v : BitVec 32) (a b : α) (h : 0 ≤ v.toInt) :
    Scalar.select (IntOp.cmpi .slt v 0#32) a b = b := by
  have hc : IntOp.cmpi .slt v 0#32 = 0#1 := by
    unfold IntOp.cmpi
    have : v.slt 0#32 = false := by
      simp only [BitVec.slt, BitVec.toInt_zero, decide_eq_false_iff_not, not_lt]
      exact h
    simp only [this]
    rfl
  rw [hc]
  exact select_zero a b

/-! ## The layout steps, read at coordinates -/

/-- The bias, broadcast along the rows, reads the bias at the column. -/
theorem bias_apply (x6 : (⟨S512, .f32⟩ : BufTy).Contents (Elt Ideal)) (n : Fin 10000) (f : Fin 512) :
    val_main_v58 (F := Ideal) x6 (ix2 n f) = x6 (ix1 f) := by
  rw [val_main_v58_apply, val_main_v57_apply]
  congr 1
  funext a
  match a with
  | ⟨0, _⟩ => rfl

/-- The scatter's initial array is zero everywhere. -/
theorem zeros_apply (i : S10000x8x64.Idx) : val_main_v53 (F := Ideal) i = (0 : EReal) := by
  rw [val_main_v53_apply, val_main_cst_apply]
  exact Ideal.ofBits_zero_f32

/-- The per-head weights, broadcast along a head's 64 columns, read the weight of the edge and head. -/
theorem alpha_apply (x2 : (⟨S3x160000x8, .f32⟩ : BufTy).Contents (Elt Ideal)) (x4 : (⟨S8x3, .f32⟩ : BufTy).Contents (Elt Ideal))
    (e : Fin 480000) (h : Fin 8) (d : Fin 64) :
    val_main_v51 (F := Ideal) x2 x4 (ix3 e h d) = val_main_v4 (F := Ideal) x2 x4 (ix2 e h) := by
  rw [val_main_v51_apply, val_main_v43_apply]
  congr 1
  funext a
  match a with
  | ⟨0, _⟩ => rfl
  | ⟨1, _⟩ => rfl

/-- Column `f` of the flat [10000, 512] result is head `f / 64`, position `f % 64` of the [10000, 8, 64] array. -/
theorem v56_apply (x0 : (⟨S10000x512, .f32⟩ : BufTy).Contents (Elt Ideal)) (x1 : (⟨S10000, .i32⟩ : BufTy).Contents (Elt Ideal))
    (x2 : (⟨S3x160000x8, .f32⟩ : BufTy).Contents (Elt Ideal)) (x3 : (⟨S3x2x160000, .i32⟩ : BufTy).Contents (Elt Ideal))
    (x4 : (⟨S8x3, .f32⟩ : BufTy).Contents (Elt Ideal)) (x5 : (⟨S512x512, .f32⟩ : BufTy).Contents (Elt Ideal))
    (n : Fin 10000) (f : Fin 512) :
    val_main_v56 (F := Ideal) x0 x1 x2 x3 x4 x5 (ix2 n f)
      = val_main_v55 (F := Ideal) x0 x1 x2 x3 x4 x5 (ix3 n (Cert.Spec.headOf f) ⟨f.val % 64, Nat.mod_lt _ (by decide)⟩) := by
  rw [val_main_v56_apply]
  congr 1
  funext a
  have hn := n.isLt
  have hf := f.isLt
  match a with
  | ⟨0, _⟩ => exact Fin.ext (by show (n.val * 512 + f.val) / 512 = n.val; omega)
  | ⟨1, _⟩ => exact Fin.ext (by show (n.val * 512 + f.val) / 64 % 8 = f.val / 64; omega)
  | ⟨2, _⟩ => exact Fin.ext (by show (n.val * 512 + f.val) % 64 = f.val % 64; omega)

/-- Head `h`, position `d` of the [10000, 8, 64] table is column `h * 64 + d` of the flat one. -/
theorem v42_apply (x0 : (⟨S10000x512, .f32⟩ : BufTy).Contents (Elt Ideal)) (x1 : (⟨S10000, .i32⟩ : BufTy).Contents (Elt Ideal))
    (x5 : (⟨S512x512, .f32⟩ : BufTy).Contents (Elt Ideal)) (r : Fin 10000) (h : Fin 8) (d : Fin 64) :
    val_main_v42 (F := Ideal) x0 x1 x5 (ix3 r h d)
      = val_main_v41 (F := Ideal) x0 x1 x5 (ix2 r ⟨h.val * 64 + d.val, by omega⟩) := by
  rw [val_main_v42_apply]
  congr 1
  funext a
  have hr := r.isLt
  have hh := h.isLt
  have hd := d.isLt
  match a with
  | ⟨0, _⟩ => exact Fin.ext (by show ((r.val * 8 + h.val) * 64 + d.val) / 512 = r.val; omega)
  | ⟨1, _⟩ => exact Fin.ext (by show ((r.val * 8 + h.val) * 64 + d.val) % 512 = h.val * 64 + d.val; omega)

/-- The product of the node table with the weight matrix, read at a row and a column, is the specification's sum. -/
theorem v41_apply (x0 : (⟨S10000x512, .f32⟩ : BufTy).Contents (Elt Ideal)) (x1 : (⟨S10000, .i32⟩ : BufTy).Contents (Elt Ideal))
    (x5 : (⟨S512x512, .f32⟩ : BufTy).Contents (Elt Ideal)) (r : Fin 10000) (f : Fin 512) :
    val_main_v41 (F := Ideal) x0 x1 x5 (ix2 r f) = Cert.Spec.hAt (val_main_v40 (F := Ideal) x0 x1) x5 r f := by
  rw [val_main_v41_apply]
  unfold Cert.Spec.hAt
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-! ## The gather of source rows and the scatter-add onto target nodes, over arbitrary operands -/

/-- The reference's slab gather at edge `e`, head `h`, position `d`: the table at the slab the start index names, read
    signed and clamped into the node range. -/
theorem gather_apply (y : (⟨S10000x8x64, .f32⟩ : BufTy).Contents (Elt Ideal)) (idx : (⟨S480000x1, .i32⟩ : BufTy).Contents (Elt Ideal))
    (e : Fin 480000) (h : Fin 8) (d : Fin 64) :
    Host.gather gather_S10000x8x64_S480000x1_S480000x8x64_12_0_n_n_0_1_1864 y idx (ix3 e h d)
      = y (ix3 (Cert.SlabOps.gatherSlab (N := 10000) (by decide) idx e) h d) :=
  Cert.SlabOps.slabGather_apply (N := 10000) (E := 480000) (H := 8) (D := 64) (by decide)
    Gen.gather_S10000x8x64_S480000x1_S480000x8x64_12_0_n_n_0_1_1864_wf y idx e h d

/-- The reference's slab scatter-add at node `n`, head `h`, position `d`: the operand there plus the updates of the edges
    whose index word, read signed, is `n`. -/
theorem scatterAdd_apply (z : (⟨S10000x8x64, .f32⟩ : BufTy).Contents (Elt Ideal)) (idx : (⟨S480000x1, .i32⟩ : BufTy).Contents (Elt Ideal))
    (upd : (⟨S480000x8x64, .f32⟩ : BufTy).Contents (Elt Ideal)) (n : Fin 10000) (h : Fin 8) (d : Fin 64) :
    Host.scatterAdd (F := Ideal) (φ := .f32) scatter_S10000x8x64_S480000x1_S480000x8x64_12_0_0_1 z idx upd (ix3 n h d)
      = z (ix3 n h d)
        + ∑ e ∈ Finset.univ.filter (fun e : Fin 480000 => (idx (ix2 e 0)).toInt = (n.val : Int)), upd (ix3 e h d) :=
  Cert.SlabOps.slabScatterAdd_apply (N := 10000) (E := 480000) (H := 8) (D := 64)
    Gen.scatter_S10000x8x64_S480000x1_S480000x8x64_12_0_0_1_wf z idx upd n h d

/-! ## The index columns -/

/-- The scatter's index column at edge `e` is the edge's target word. -/
theorem v54_apply (x1 : (⟨S10000, .i32⟩ : BufTy).Contents (Elt Ideal)) (x3 : (⟨S3x2x160000, .i32⟩ : BufTy).Contents (Elt Ideal))
    (e : Fin 480000) :
    val_main_v54 (F := Ideal) x1 x3 (ix2 e 0) = val_main_v33 (F := Ideal) x1 x3 (ix1 e) := by
  rw [val_main_v54_apply]
  congr 1
  funext a
  match a with
  | ⟨0, _⟩ => rfl

/-- The gather's index column at edge `e`: the wrap-around of negative words leaves a non-negative source word as it is. -/
theorem v49_apply (x1 : (⟨S10000, .i32⟩ : BufTy).Contents (Elt Ideal)) (x3 : (⟨S3x2x160000, .i32⟩ : BufTy).Contents (Elt Ideal))
    (e : Fin 480000) (hv : 0 ≤ (val_main_v24 (F := Ideal) x1 x3 (ix1 e)).toInt) :
    val_main_v49 (F := Ideal) x1 x3 (ix2 e 0) = val_main_v24 (F := Ideal) x1 x3 (ix1 e) := by
  rw [val_main_v49_apply]
  have hi : idx_main_v49 (ix2 e 0) = ix1 e := by
    funext a
    match a with
    | ⟨0, _⟩ => rfl
  rw [hi, val_main_v48_apply, val_main_v45_apply, val_main_v44_apply, val_main_c_8_apply]
  exact select_slt_zero_of_nonneg _ _ _ hv

/-- The slab the gather reads for an edge whose source word is a node number is the row the specification reads. -/
theorem gatherSlab_eq (x1 : (⟨S10000, .i32⟩ : BufTy).Contents (Elt Ideal)) (x3 : (⟨S3x2x160000, .i32⟩ : BufTy).Contents (Elt Ideal))
    (e : Fin 480000) (hv : Cert.Spec.IsNode (val_main_v24 (F := Ideal) x1 x3 (ix1 e))) :
    Cert.SlabOps.gatherSlab (N := 10000) (by decide) (val_main_v49 (F := Ideal) x1 x3) e
      = Cert.Spec.rowOf (val_main_v24 (F := Ideal) x1 x3 (ix1 e)) := by
  unfold Cert.SlabOps.gatherSlab Cert.Spec.rowOf
  refine Fin.ext ?_
  show min (val_main_v49 (F := Ideal) x1 x3 (ix2 e 0)).toInt.toNat (10000 - 1) = min (val_main_v24 (F := Ideal) x1 x3 (ix1 e)).toInt.toNat 9999
  rw [v49_apply x1 x3 e hv.1]

/-! ## The reference is the specification -/

theorem ref_eq (x0 : (⟨S10000x512, .f32⟩ : BufTy).Contents (Elt Ideal)) (x1 : (⟨S10000, .i32⟩ : BufTy).Contents (Elt Ideal)) (x2 : (⟨S3x160000x8, .f32⟩ : BufTy).Contents (Elt Ideal)) (x3 : (⟨S3x2x160000, .i32⟩ : BufTy).Contents (Elt Ideal)) (x4 : (⟨S8x3, .f32⟩ : BufTy).Contents (Elt Ideal)) (x5 : (⟨S512x512, .f32⟩ : BufTy).Contents (Elt Ideal)) (x6 : (⟨S512, .f32⟩ : BufTy).Contents (Elt Ideal))
    (hsrc : ∀ e : Fin 480000, Cert.Spec.IsNode (val_main_v24 (F := Ideal) x1 x3 (ix1 e))) :
    val_main_v59 (F := Ideal) x0 x1 x2 x3 x4 x5 x6
      = Cert.Spec.G (val_main_v4 (F := Ideal) x2 x4) (val_main_v24 (F := Ideal) x1 x3) (val_main_v33 (F := Ideal) x1 x3) (Cert.Spec.hmat (val_main_v40 (F := Ideal) x0 x1) x5) x6 := by
  funext i
  obtain ⟨n, f, rfl⟩ : ∃ (n : Fin 10000) (f : Fin 512), i = ix2 n f := ⟨i 0, i 1, eq_ix2 i⟩
  rw [Cert.Spec.G_apply, val_main_v59_apply, Ideal.addf_def, bias_apply, v56_apply]
  refine congrArg (· + x6 (ix1 f)) ?_
  unfold val_main_v55
  rw [scatterAdd_apply, zeros_apply, zero_add]
  unfold Cert.Spec.msgAt
  have hfil : (Finset.univ.filter fun e : Fin 480000 => (val_main_v54 (F := Ideal) x1 x3 (ix2 e 0)).toInt = (n.val : Int))
      = Finset.univ.filter fun e : Fin 480000 => (val_main_v33 (F := Ideal) x1 x3 (ix1 e)).toInt = (n.val : Int) :=
    Finset.filter_congr fun e _ => by rw [v54_apply]
  rw [hfil]
  refine Finset.sum_congr rfl fun e _ => ?_
  rw [val_main_v52_apply, Ideal.mulf_def, alpha_apply]
  refine congrArg (val_main_v4 (F := Ideal) x2 x4 (ix2 e (Cert.Spec.headOf f)) * ·) ?_
  unfold val_main_v50
  rw [gather_apply, gatherSlab_eq x1 x3 e (hsrc e), v42_apply, v41_apply, Cert.Spec.hmat_apply]
  congr 1
  refine Fin.ext ?_
  have hf := f.isLt
  show f.val / 64 * 64 + f.val % 64 = f.val
  omega

end Cert.RefSide

end
-- ==== Proof.LibVecGatherScatter.lean ====
/-
  Gather and scatter-add of a vector, read at an index.

  What `x[idx]` of a vector `x : [N]` at an integer vector `idx : [E]` (carried as `[E, 1]`) lowers to is a
  `stablehlo.gather` of single elements: result element `e` is `x` at `idx[e]` (read signed, clamped into
  `[0, N − 1]`). What a segment sum of `upd : [E]` into `[N]` lowers to is a `stablehlo.scatter` with an `add` body:
  operand element `n` receives every `upd e` whose index `idx[e]`, read signed and not clamped, is exactly `n`.
-/
import Idealize.ShloMosaic.Lib.ValueIdx
import Idealize.ShloMosaic.PureOps.Ideal

noncomputable section

open scoped BigOperators

namespace Cert.VecOps

open Idealize.ShloMosaic Idealize.ShloMosaic.ValueIdx

/-! ## The element gather -/

/-- The dimension numbers of an element gather: operand `[N]`, start indices `[E, 1]`, result `[E]`; no offset axis,
    the operand's one axis collapsed, the start index naming it, slices of one element. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element the gather reads for edge `e`: the start index read signed and clamped into `[0, N − 1]`. -/
def gatherElt {N E w : Nat} (hN : 0 < N) (idx : IVec ⟨2, ![E, 1]⟩ w) (e : Fin E) : Fin N :=
  ⟨min (idx (ix2 e 0)).toInt.toNat (N - 1), by omega⟩

/-- The element gather at `e` is the operand at `gatherElt e` (the clamped start index). -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (gatherElt hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## The element scatter-add -/

/-- The dimension numbers of an element scatter: operand `[N]`, scatter indices `[E, 1]`, updates `[E]`; no update
    window axis, the operand's one axis inserted, the scatter index naming it. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)

/-- The operand axes the update windows go to are the ones that are not inserted. -/
theorem vecScatter_mem_sKept (a : Fin 1) :
    a ∈ (vecScatterDims N E wf).sKept ↔ a ∉ (vecScatterDims N E wf).insertedWindowDims := by
  simp [ScatterDims.sKept, Shape.kept, List.mem_filter, List.mem_finRange]

/-- The window of update `e` starts at the scatter index `idx[e]`, read signed. -/
theorem vecScatter_start0 (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's axis is an inserted one: the window coordinate there is `0`. -/
theorem vecScatter_window0 (e : Fin E) : (vecScatterDims N E wf).window (ix1 e) 0 = 0 := by
  unfold ScatterDims.window
  rw [dif_neg (fun h => ((vecScatter_mem_sKept wf 0).mp h) (List.mem_singleton.mpr rfl))]

end Scatter

/-- Update `e` lands on operand element `n` exactly when the scatter index `idx[e]`, read signed, is `n`. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e 0)).toInt = (n.val : Int) := by
  have hn := n.isLt
  unfold ScatterDims.resultIdx?
  constructor
  · intro h
    by_cases hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a
    · rw [dif_pos hall] at h
      have heq := Option.some.inj h
      have h0 : ((vecScatterDims N E wf).start (ix1 e) idx 0 + (vecScatterDims N E wf).window (ix1 e) 0).toNat
          = n.val := congrArg (fun f => (f 0).val) heq
      have b0 := (hall 0).1
      rw [vecScatter_start0, vecScatter_window0] at h0 b0
      omega
    · rw [dif_neg hall] at h
      exact absurd h (by simp)
  · intro hi
    have hall : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [vecScatter_start0, vecScatter_window0, hi]
        omega
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [vecScatter_start0, vecScatter_window0, hi]
      omega

/-- THE ELEMENT SCATTER-ADD AT `n`: the operand element plus the sum of the update elements `upd e` over the edges
    `e` whose scatter index `idx[e]`, read signed and not clamped, is `n`. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n)
        + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    obtain ⟨a, rfl⟩ : ∃ (a : Fin E), j = ix1 a := ⟨j 0, eq_ix1 j⟩
    exact Finset.mem_filter.mpr ⟨Finset.mem_univ _, (vecScatter_resultIdx_iff wf idx a n).mp (Finset.mem_filter.mp hj).2⟩
  · intro e he
    exact Finset.mem_filter.mpr ⟨Finset.mem_univ _, (vecScatter_resultIdx_iff wf idx e n).mpr (Finset.mem_filter.mp he).2⟩
  · intro j _
    exact (eq_ix1 j).symm
  · intro e _
    rfl
  · intro j _
    exact congrArg upd (eq_ix1 j)

end Cert.VecOps

end
-- ==== Proof.LibScatterKeeps.lean ====
/-
  An overwriting scatter keeps every property that the operand's and the updates' elements share.

  A `stablehlo.scatter` whose body returns the update (`x.at[idx].set(v)`) builds its result by taking the update
  indices in order, each one replacing one element of the running result by the update's element, or doing nothing
  when its result index falls outside the operand. So every element of the result is either an element of the
  operand or an element of the updates, whatever the scatter indices are: a property that holds of every element
  of both holds of every element of the result.
-/
import Idealize.ShloMosaic.PureOps.ShapeOps

namespace Cert.ScatterKeeps

open Idealize.ShloMosaic

/-- The fold behind an overwriting scatter, over any list of update positions: if every element of the running
    result satisfies `P` and every update element satisfies `P`, every element after the fold satisfies `P`. -/
theorem foldl_keeps {α : Type} {s si u : Shape} {w : Nat} (d : ScatterDims s si u) (P : α → Prop)
    (idx : IVec si w) (upd : u.Idx → α) (hu : ∀ j, P (upd j)) (l : List (Fin u.numel)) :
    ∀ (r : s.Idx → α), (∀ i, P (r i)) → ∀ i,
      P (l.foldl (fun r n =>
          match d.resultIdx? (u.rowMajor.symm n) idx with
          | some i => fun i' => if i' = i then (fun (_ b : α) => b) (r i) (upd (u.rowMajor.symm n)) else r i'
          | none => r) r i) := by
  induction l with
  | nil => intro r hr i; exact hr i
  | cons n l ih =>
    intro r hr i
    rw [List.foldl_cons]
    refine ih _ ?_ i
    intro i'
    cases d.resultIdx? (u.rowMajor.symm n) idx with
    | none => exact hr i'
    | some k =>
      show P (if i' = k then upd (u.rowMajor.symm n) else r i')
      by_cases h : i' = k
      · rw [if_pos h]; exact hu _
      · rw [if_neg h]; exact hr i'

/-- AN OVERWRITING SCATTER KEEPS `P`: when the body returns the update's element, and every element of the operand
    and every element of the updates satisfies `P`, so does every element of the result — for any scatter indices. -/
theorem scatter_keeps {α : Type} {s si u : Shape} {w : Nat} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  exact foldl_keeps d P idx upd hu _ x hx i

end Cert.ScatterKeeps
-- ==== Proof.Range.lean ====
/-
  The source words the reference reads are node numbers.

  The reference does not use an edge's source word directly: it first builds a table of 10000 words by writing, over
  a table of zero words, the word `j` at the place the `j`-th entry of a node-index list names (a later write to the
  same place replacing an earlier one, a write outside the table being dropped), and then reads that table at the
  edge's source word. Whatever the index list holds, every entry of the table is either the zero word it started
  with or one of the written words `j < 10000`: a node number. An element read from the table — at any place — is
  therefore a node number.
-/
import proofs.«118648_j41850161332740_2_alg».proof.Proof.Gen.ReferenceIdeal.Read
import proofs.«118648_j41850161332740_2_alg».proof.Proof.Spec
import proofs.«118648_j41850161332740_2_alg».proof.Proof.LibVecGatherScatter
import proofs.«118648_j41850161332740_2_alg».proof.Proof.LibScatterKeeps

noncomputable section

namespace Cert.Range

open Cert.ReferenceIdeal Cert.ReferenceIdeal.Read Idealize.ShloMosaic Idealize.ShloMosaic.ValueIdx

/-- The zero word is a node number. -/
theorem isNode_zero : Cert.Spec.IsNode 0#32 := by
  unfold Cert.Spec.IsNode
  decide

/-- The 32-bit word of a natural number below 10000 reads, signed, as that number: it is a node number. -/
theorem isNode_ofNat {j : Nat} (hj : j < 10000) : Cert.Spec.IsNode (BitVec.ofNat 32 j) := by
  unfold Cert.Spec.IsNode
  have hc := BitVec.toInt_eq_toNat_cond (BitVec.ofNat 32 j)
  rw [BitVec.toNat_ofNat, Nat.mod_eq_of_lt (show j < 2 ^ 32 by omega)] at hc
  split_ifs at hc <;> omega

/-- Every entry of the table of written words is a node number: the table starts as zero words and is overwritten
    only by words `j < 10000`, wherever the index list sends them. -/
theorem table_isNode (x1 : (⟨S10000, .i32⟩ : BufTy).Contents (Elt Ideal)) (i : S10000.Idx) :
    Cert.Spec.IsNode (val_main_v15 (F := Ideal) x1 i) := by
  unfold val_main_v15
  refine Cert.ScatterKeeps.scatter_keeps _ Cert.Spec.IsNode _ _ _ ?_ ?_ i
  · intro k
    rw [val_main_v7_apply, val_main_c_apply]
    exact isNode_zero
  · intro j
    rw [val_main_v8_apply]
    exact isNode_ofNat (show (j 0).val < 10000 from (j 0).isLt)

/-- THE SOURCE WORD OF EVERY EDGE IS A NODE NUMBER: it is an entry of the table of written words, read at the place
    the edge's own word names (signed, clamped into the table). -/
theorem src_isNode (x1 : (⟨S10000, .i32⟩ : BufTy).Contents (Elt Ideal)) (x3 : (⟨S3x2x160000, .i32⟩ : BufTy).Contents (Elt Ideal)) (e : Fin 480000) :
    Cert.Spec.IsNode (val_main_v24 (F := Ideal) x1 x3 (ix1 e)) := by
  unfold val_main_v24
  have hd : gather_S10000_S480000x1_S480000_n_0_n_n_0_1_1
      = Cert.VecOps.vecGatherDims 10000 480000
          Cert.ReferenceIdeal.Gen.gather_S10000_S480000x1_S480000_n_0_n_n_0_1_1_wf := rfl
  rw [hd, Cert.VecOps.vecGather_apply (by omega)]
  exact table_isNode x1 _

end Cert.Range

end
-- ==== Proof.KernelValue.lean ====
/-
  The idealized kernel's result is the reference's.

  Reading the last boundary's contents back through the five segments: the result at node `n`, column `f` is the
  two halves' accumulators added, plus the bias; a half's accumulator is the sum over its 938 tiles of 256 padded
  edges of the edge terms over the first kernel's product `xl · W`; the padded halves add up to the edge list;
  and that sum plus the bias is what the reference computes from the same four stages of the arguments.
-/
import proofs.«118648_j41850161332740_2_alg».proof.Proof.GlueTail
import proofs.«118648_j41850161332740_2_alg».proof.Proof.Region0
import proofs.«118648_j41850161332740_2_alg».proof.Proof.PadSum
import proofs.«118648_j41850161332740_2_alg».proof.Proof.RefSide
import proofs.«118648_j41850161332740_2_alg».proof.Proof.Range

set_option maxRecDepth 16384

noncomputable section

namespace Cert.KernelIdeal.KValue

open Cert.KernelIdeal Cert.KernelIdeal.Gen Cert.KernelIdeal.Glue
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The last boundary's result array is the reference's result term of the same arguments, given what the second
    kernel leaves in each half's accumulator (`hR`: the sum over the half's tiles). -/
theorem result_eq_of
    (hR : ∀ (c : Dev nD) (k : Fin 2) (n : Fin 10000) (f : Fin 512),
      ((Gen.dat1 (F := Ideal) (V3 m ρ) c).arrAt 4 cfg1.N : S2x10000x512.Idx → EReal) (ix3 k n f)
        = Cert.Spec.coreSum (V3 m ρ c main_v41) (V3 m ρ c main_v48) (V3 m ρ c main_v55) (V3 m ρ c main_v62) k n f)
    (c : Dev nD) :
    W5 m ρ c (Proc.devRef .tc main_v67)
      = Cert.ReferenceIdeal.Read.val_main_v59 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Cert.RefSide.ref_eq _ _ _ _ _ _ _ (fun e => Cert.Range.src_isNode _ _ e)]
  funext i
  obtain ⟨n, f, rfl⟩ : ∃ (n : Fin 10000) (f : Fin 512), i = ix2 n f := ⟨i 0, i 1, eq_ix2 i⟩
  rw [Cert.Spec.G_apply]
  -- the four stages of the arguments
  generalize hal : Cert.ReferenceIdeal.Read.val_main_v4 (F := Ideal) (m ((c : Thread nD τ).loc main_arg2)) (m ((c : Thread nD τ).loc main_arg4)) = alpha
  generalize hsr : Cert.ReferenceIdeal.Read.val_main_v24 (F := Ideal) (m ((c : Thread nD τ).loc main_arg1)) (m ((c : Thread nD τ).loc main_arg3)) = src
  generalize hds : Cert.ReferenceIdeal.Read.val_main_v33 (F := Ideal) (m ((c : Thread nD τ).loc main_arg1)) (m ((c : Thread nD τ).loc main_arg3)) = dst
  generalize hxl : Cert.ReferenceIdeal.Read.val_main_v40 (F := Ideal) (m ((c : Thread nD τ).loc main_arg0)) (m ((c : Thread nD τ).loc main_arg1)) = xl
  have hsrc : ∀ e : Fin 480000, Cert.Spec.IsNode (src (ix1 e)) := fun e => by
    rw [← hsr]; exact Cert.Range.src_isNode _ _ e
  -- the buffers the second kernel is entered with
  have e41 : V3 m ρ c main_v41 = Cert.Spec.hmat xl (m ((c : Thread nD τ).loc main_arg5)) := by
    have h0 := Cert.KernelIdeal.Region0.region0_value (V1 m ρ) c
    rw [show V1 m ρ c main_v40 = xl from (W1_v40 m ρ c).trans hxl,
      show V1 m ρ c main_arg5 = m ((c : Thread nD τ).loc main_arg5) from W1_arg5 m ρ c] at h0
    exact (W3_v41 m ρ c).trans ((W2_arr m ρ c 2).trans h0)
  have e48 : V3 m ρ c main_v48 = Cert.Spec.padI src := (W3_v48 m ρ c).trans (congrArg Cert.Spec.padI ((W1_v24 m ρ c).trans hsr))
  have e55 : V3 m ρ c main_v55 = Cert.Spec.padI dst := (W3_v55 m ρ c).trans (congrArg Cert.Spec.padI ((W1_v33 m ρ c).trans hds))
  have e62 : V3 m ρ c main_v62 = Cert.Spec.padF alpha := (W3_v62 m ρ c).trans (congrArg Cert.Spec.padF ((W1_v4 m ρ c).trans hal))
  -- each half's accumulator
  have hk : ∀ k : Fin 2, W4 m ρ c (Proc.devRef .tc main_v63) (ix3 k n f)
      = Cert.Spec.coreSum (Cert.Spec.hmat xl (m ((c : Thread nD τ).loc main_arg5))) (Cert.Spec.padI src) (Cert.Spec.padI dst)
          (Cert.Spec.padF alpha) k n f := fun k => by
    have h1 := hR c k n f
    rw [e41, e48, e55, e62] at h1
    exact (congrFun (W4_arr m ρ c 4) (ix3 k n f)).trans h1
  -- the last stretch
  show StableHlo.after hostOps2 (W4 m ρ c) (Proc.devRef .tc main_v67) (ix2 n f) = _
  refine (after2_v67 (W4 m ρ c) _ _ rfl (W4_arg6 m ρ c) n f).symm.trans ?_
  rw [hk 0, hk 1, Cert.PadSum.coreSum_add alpha src dst _ hsrc n f]

end Cert.KernelIdeal.KValue

end
-- ==== Proof.Region1.lean ====
/-
  The second kernel's accumulation over its grid of 2 × 938 points.

  Point `t` is tile `t % 938` of half `t / 938`.  At every point the kernel sees the whole node table, block `t` (256 places)
  of the padded source words, target words and weights, and the accumulator of half `t / 938`, which stays in place across
  the half's 938 tiles and is written to the result once, after the last of them.  Given that one tile's body is
  `Cert.Spec.tileStep` — from zero at a half's first tile, from what the tile before left at every other —, the result
  array ends holding `Cert.Spec.coreSum`: half by half, the sum over 938 tiles of 256 places of the places' terms.
  The proof: where each block sits in its array (one index-map fact per window, decided over the points), the invariant
  "after tile `j` the accumulator is the sum of tiles `0 … j`" by induction on the tile, and the two write-backs, whose blocks
  cover the result array.
-/
import proofs.«118648_j41850161332740_2_alg».proof.Proof.Gen.KernelIdeal.Frame
import proofs.«118648_j41850161332740_2_alg».proof.Proof.Spec
import Idealize.ShloMosaic.Lib.Pipeline.Value

noncomputable section

open scoped BigOperators

namespace Cert.KernelIdeal.Region1

open Cert.KernelIdeal Cert.KernelIdeal.Gen Idealize.ShloMosaic Idealize.ShloMosaic.ValueIdx Idealize.ShloMosaic.Pipeline Idealize.SL.Sem Idealize.ShloMosaic.TcCoe

variable (V : (c : Dev nD) → (b : Ref sig .tc) → Buf (Elt Ideal) ((c : Thread nD τ).loc b))

/-! ## Where the windows' blocks sit in their arrays

Grid point `t` is tile `t % 938` of half `t / 938`; the three edge windows read block `t` of the padded edge list (256
places from `256 · t`), the node table's window is the whole table, and the output window is block `t / 938` of the
two accumulators.  Each index-map fact is decided once over the 1876 points. -/

theorem index0 : ∀ t : Fin cfg1.N, win1_0.index t 0 = 0 ∧ win1_0.index t 1 = 0 :=
  (by decide +kernel : ∀ t : Fin grid1.N, win1_0.index t 0 = 0 ∧ win1_0.index t 1 = 0)
theorem index1 : ∀ t : Fin cfg1.N, win1_1.index t 0 = t.val :=
  (by decide +kernel : ∀ t : Fin grid1.N, win1_1.index t 0 = t.val)
theorem index2 : ∀ t : Fin cfg1.N, win1_2.index t 0 = t.val :=
  (by decide +kernel : ∀ t : Fin grid1.N, win1_2.index t 0 = t.val)
theorem index3 : ∀ t : Fin cfg1.N, win1_3.index t 0 = t.val ∧ win1_3.index t 1 = 0 :=
  (by decide +kernel : ∀ t : Fin grid1.N, win1_3.index t 0 = t.val ∧ win1_3.index t 1 = 0)
theorem index4 : ∀ t : Fin cfg1.N, win1_4.index t 0 = t.val / 938 ∧ win1_4.index t 1 = 0 ∧ win1_4.index t 2 = 0 :=
  (by decide +kernel : ∀ t : Fin grid1.N, win1_4.index t 0 = t.val / 938 ∧ win1_4.index t 1 = 0 ∧ win1_4.index t 2 = 0)

/-- A place of tile `t` is a place of the padded edge list. -/
theorem place_lt (t : Fin cfg1.N) (e : Fin 256) : t.val * 256 + e.val < 480256 := by
  have := t.isLt; have : cfg1.N = 1876 := N_1; have := e.isLt; omega

/-- The node table's window is the whole table at every point. -/
theorem blk0 (c : Dev nD) (t : Fin cfg1.N) :
    (Gen.iblk1 V c 0 t : Cert.Spec.SN.Idx → EReal) = V c main_v41 := by
  funext j
  unfold Gen.iblk1
  rw [View.read_apply]
  show V c main_v41 _ = V c main_v41 _
  congr 1
  funext a
  apply Fin.ext
  match a with
  | ⟨0, _⟩ =>
    show win1_0.index t 0 * 10000 + 1 * (j 0).val = (j 0).val
    rw [(index0 t).1]; omega
  | ⟨1, _⟩ =>
    show win1_0.index t 1 * 512 + 1 * (j 1).val = (j 1).val
    rw [(index0 t).2]; omega

/-- The source words of tile `t` are the padded list's at the places `256 · t + e`. -/
theorem blk1 (c : Dev nD) (t : Fin cfg1.N) (e : Fin 256) :
    (Gen.iblk1 V c 1 t : IVec Cert.Spec.ST 32) (ix1 e)
      = (V c main_v48 : IVec Cert.Spec.SEp 32) (ix1 ⟨t.val * 256 + e.val, place_lt t e⟩) := by
  unfold Gen.iblk1
  rw [View.read_apply]
  show V c main_v48 _ = V c main_v48 _
  congr 1
  funext a
  apply Fin.ext
  match a with
  | ⟨0, _⟩ =>
    show win1_1.index t 0 * 256 + 1 * e.val = t.val * 256 + e.val
    rw [index1 t]; omega

/-- The target words of tile `t`, the same. -/
theorem blk2 (c : Dev nD) (t : Fin cfg1.N) (e : Fin 256) :
    (Gen.iblk1 V c 2 t : IVec Cert.Spec.ST 32) (ix1 e)
      = (V c main_v55 : IVec Cert.Spec.SEp 32) (ix1 ⟨t.val * 256 + e.val, place_lt t e⟩) := by
  unfold Gen.iblk1
  rw [View.read_apply]
  show V c main_v55 _ = V c main_v55 _
  congr 1
  funext a
  apply Fin.ext
  match a with
  | ⟨0, _⟩ =>
    show win1_2.index t 0 * 256 + 1 * e.val = t.val * 256 + e.val
    rw [index2 t]; omega

/-- The weights of tile `t`, the same, head by head. -/
theorem blk3 (c : Dev nD) (t : Fin cfg1.N) (e : Fin 256) (h : Fin 8) :
    (Gen.iblk1 V c 3 t : Cert.Spec.STA.Idx → EReal) (ix2 e h)
      = (V c main_v62 : Cert.Spec.SAp.Idx → EReal) (ix2 ⟨t.val * 256 + e.val, place_lt t e⟩ h) := by
  unfold Gen.iblk1
  rw [View.read_apply]
  show V c main_v62 _ = V c main_v62 _
  congr 1
  funext a
  apply Fin.ext
  match a with
  | ⟨0, _⟩ =>
    show win1_3.index t 0 * 256 + 1 * e.val = t.val * 256 + e.val
    rw [(index3 t).1]; omega
  | ⟨1, _⟩ =>
    show win1_3.index t 1 * 8 + 1 * h.val = h.val
    rw [(index3 t).2]; omega

/-! ## One tile's sum, and the accumulator after each point -/

/-- What the tile of grid point `p` adds at node `n`, column `f`: the sum of its 256 places' terms (nothing past the grid). -/
def tileSum (c : Dev nD) (n : Fin 10000) (f : Fin 512) (p : Nat) : EReal :=
  if h : p < 1876 then
    ∑ e : Fin 256, Cert.Spec.edgeTerm (V c main_v41) (V c main_v48) (V c main_v55) (V c main_v62) n f
      ⟨p * 256 + e.val, by have := e.isLt; omega⟩
  else 0

/-- One tile's step over the windows' blocks at point `t` adds that tile's sum. -/
theorem tile_apply (c : Dev nD) (t : Fin cfg1.N) (old : Cert.Spec.SO.Idx → EReal) (n : Fin 10000) (f : Fin 512) :
    Cert.Spec.tileStep (Gen.iblk1 V c 0 t) (Gen.iblk1 V c 1 t) (Gen.iblk1 V c 2 t) (Gen.iblk1 V c 3 t) old (ix3 0 n f)
      = old (ix3 0 n f) + tileSum V c n f t.val := by
  rw [Cert.Spec.tileStep_apply]
  congr 1
  unfold tileSum
  rw [dif_pos (lt_of_lt_of_eq t.isLt N_1)]
  refine Finset.sum_congr rfl fun e _ => ?_
  rw [blk0, blk1, blk2, blk3]
  rfl

section Accumulate

variable (hA : ∀ (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : Gen.cond1_0 i) (x0 : Vec Ideal S10000x512 .bf16) (x1 : Vec Ideal S256 .i32) (x2 : Vec Ideal S256 .i32) (x3 : Vec Ideal S256x8 .f32),
      Gen.out1_A_4 (F := Ideal) c i arg2 harg2 arg3 harg3 arg4 harg4 arg5 harg5 arg6 harg6 hc0 x0 x1 x2 x3 = Cert.Spec.tileStep x0 x1 x2 x3 (fun _ => 0))
    (hB : ∀ (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : ¬Gen.cond1_0 i) (x0 : Vec Ideal S10000x512 .bf16) (x1 : Vec Ideal S256 .i32) (x2 : Vec Ideal S256 .i32) (x3 : Vec Ideal S256x8 .f32) (xo4 : Vec Ideal S1x10000x512 .f32),
      Gen.out1_B_4 (F := Ideal) c i arg2 harg2 arg3 harg3 arg4 harg4 arg5 harg5 arg6 harg6 hc0 x0 x1 x2 x3 xo4 = Cert.Spec.tileStep x0 x1 x2 x3 xo4)
include hA hB

/-- THE INVARIANT. After tile `j` of half `q` (grid point `938 · q + j`) the accumulator holds, at node `n`, column `f`, the
    sum of the half's tiles `0 … j`: the first tile starts from zero, every later one adds to what the tile before left.
    By induction on the tile, never on the grid's size. -/
theorem outsAt_eq (c : Dev nD) (n : Fin 10000) (f : Fin 512) (q : Nat) :
    ∀ (j : Nat) (_ : j < 938) (h : 938 * q + j < cfg1.N),
      (Gen.outsAt1 V c (938 * q + j) h : Cert.Spec.SO.Idx → EReal) (ix3 0 n f)
        = ∑ s ∈ Finset.range (j + 1), tileSum V c n f (938 * q + s)
  | 0, _, h => by
    have h0 : (⟨938 * q + 0, h⟩ : Fin cfg1.N).val % 938 = 0 := by
      show (938 * q + 0) % 938 = 0
      omega
    rw [Gen.outsAt1_A V c ⟨938 * q + 0, h⟩ h0, hA, tile_apply, Finset.sum_range_one]
    exact zero_add _
  | j + 1, hj, h => by
    have h0 : ¬(⟨938 * q + (j + 1), h⟩ : Fin cfg1.N).val % 938 = 0 := by
      show ¬(938 * q + (j + 1)) % 938 = 0
      omega
    rw [Gen.outsAt1_B V c ⟨938 * q + (j + 1), h⟩ h0, hB, tile_apply, Finset.sum_range_succ _ (j + 1)]
    congr 1
    exact outsAt_eq c n f q j (Nat.lt_of_succ_lt hj) (Nat.lt_of_succ_lt h)

end Accumulate

/-! ## The write-backs: each half's accumulator, once, after its last tile -/

/-- A half's sum over its 938 tiles, tile by tile. -/
theorem coreSum_eq (c : Dev nD) (k : Fin 2) (n : Fin 10000) (f : Fin 512) :
    Cert.Spec.coreSum (V c main_v41) (V c main_v48) (V c main_v55) (V c main_v62) k n f
      = ∑ s ∈ Finset.range 938, tileSum V c n f (938 * k.val + s) := by
  rw [Finset.sum_range]
  unfold Cert.Spec.coreSum
  refine Finset.sum_congr rfl fun t _ => ?_
  unfold tileSum
  rw [dif_pos (by have := k.isLt; have := t.isLt; omega)]
  refine Finset.sum_congr rfl fun e _ => ?_
  congr 1
  apply Fin.ext
  show (k.val * 938 + t.val) * 256 + e.val = (938 * k.val + t.val) * 256 + e.val
  omega

/-- The two halves' accumulators as one array: what the result array ends holding. -/
def result (c : Dev nD) : Buf (Elt Ideal) ((c : Thread nD τ).loc main_v63) := fun i =>
  Cert.Spec.coreSum (V c main_v41) (V c main_v48) (V c main_v55) (V c main_v62) (i 0) (i 1) (i 2)

section Flush

variable (hA : ∀ (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : Gen.cond1_0 i) (x0 : Vec Ideal S10000x512 .bf16) (x1 : Vec Ideal S256 .i32) (x2 : Vec Ideal S256 .i32) (x3 : Vec Ideal S256x8 .f32),
      Gen.out1_A_4 (F := Ideal) c i arg2 harg2 arg3 harg3 arg4 harg4 arg5 harg5 arg6 harg6 hc0 x0 x1 x2 x3 = Cert.Spec.tileStep x0 x1 x2 x3 (fun _ => 0))
    (hB : ∀ (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : ¬Gen.cond1_0 i) (x0 : Vec Ideal S10000x512 .bf16) (x1 : Vec Ideal S256 .i32) (x2 : Vec Ideal S256 .i32) (x3 : Vec Ideal S256x8 .f32) (xo4 : Vec Ideal S1x10000x512 .f32),
      Gen.out1_B_4 (F := Ideal) c i arg2 harg2 arg3 harg3 arg4 harg4 arg5 harg5 arg6 harg6 hc0 x0 x1 x2 x3 xo4 = Cert.Spec.tileStep x0 x1 x2 x3 xo4)
include hA hB

/-- The write-back after the last tile of half `t / 938` (the points ≡ 937 mod 938, the only ones that write back) writes that
    half's whole sum: block `t / 938` of the result. -/
theorem flushed_eq (c : Dev nD) (t : Fin cfg1.N) (hf : (cfg1.win 4).flush t = true) :
    (Gen.dat1 V c).flushed 4 t = ((cfg1.win 4).blk t).view.read (Elt Ideal) (result V c) := by
  have hN : cfg1.N = 1876 := N_1
  have h937 : t.val % 938 = 937 := (flush1_4 t).mp hf
  have htN : t.val < 1876 := lt_of_lt_of_eq t.isLt hN
  show (cfg1.win 4).cut (grid1.coords t) ((Gen.dat1 V c).after 4 t) = _
  rw [Gen.after1_4]
  funext y
  rw [View.read_apply]
  obtain ⟨a, n, f, rfl⟩ : ∃ (a : Fin 1) (n : Fin 10000) (f : Fin 512), y = ix3 a n f := ⟨y 0, y 1, y 2, eq_ix3 y⟩
  obtain rfl : a = 0 := Subsingleton.elim _ _
  have he : (((cfg1.win 4).blk t).view.emb (ix3 0 n f) : S2x10000x512.Idx) = ix3 ⟨t.val / 938, by omega⟩ n f := by
    funext a
    apply Fin.ext
    match a with
    | ⟨0, _⟩ =>
      show win1_4.index t 0 * 1 + 1 * 0 = t.val / 938
      rw [(index4 t).1]; omega
    | ⟨1, _⟩ =>
      show win1_4.index t 1 * 10000 + 1 * n.val = n.val
      rw [(index4 t).2.1]; omega
    | ⟨2, _⟩ =>
      show win1_4.index t 2 * 512 + 1 * f.val = f.val
      rw [(index4 t).2.2]; omega
  show (Gen.outsAt1 V c t.val t.isLt : Cert.Spec.SO.Idx → EReal) (ix3 0 n f)
    = result V c (((cfg1.win 4).blk t).view.emb (ix3 0 n f))
  rw [he]
  have ht : 938 * (t.val / 938) + 937 = t.val := by omega
  have same : ∀ (u : Nat) (hu : u < cfg1.N), u = t.val → Gen.outsAt1 V c u hu = Gen.outsAt1 V c t.val t.isLt :=
    fun u hu e => by subst e; rfl
  rw [← same _ (by omega) ht, outsAt_eq V hA hB c n f (t.val / 938) 937 (by omega) (by omega)]
  show _ = Cert.Spec.coreSum (V c main_v41) (V c main_v48) (V c main_v55) (V c main_v62) ⟨t.val / 938, by omega⟩ n f
  rw [coreSum_eq]

/-- Every place of the result array lies in the block one write-back writes: place `(k, n, f)` in half `k`'s, written back after
    point `938 · k + 937`. So the array ends holding the two halves' sums. -/
theorem final (c : Dev nD) : (Gen.dat1 V c).arrAt 4 cfg1.N = result V c :=
  (Gen.dat1 V c).arrAt_eq_of_cover 4 (result V c) (flushed_eq V hA hB c) fun i => by
    have hN : cfg1.N = 1876 := N_1
    have h0 : (i 0 : Nat) < 2 := (i 0).isLt
    have h1 : (i 1 : Nat) < 10000 := (i 1).isLt
    have h2 : (i 2 : Nat) < 512 := (i 2).isLt
    have htN : 938 * (i 0 : Nat) + 937 < cfg1.N := by omega
    refine ⟨⟨938 * (i 0 : Nat) + 937, htN⟩, (flush1_4 _).mpr (by show (938 * (i 0 : Nat) + 937) % 938 = 937; omega), ?_⟩
    show i ∈ ((View.whole main_v63).slice (win1_4.rect ⟨938 * (i 0 : Nat) + 937, htN⟩)).set
    rw [View.set_slice_whole, Rect.mem_set_unit]
    intro a
    have hi := index4 ⟨938 * (i 0 : Nat) + 937, htN⟩
    match a with
    | ⟨0, _⟩ =>
      show win1_4.index ⟨938 * (i 0 : Nat) + 937, htN⟩ 0 * 1 ≤ (i 0 : Nat)
        ∧ (i 0 : Nat) < win1_4.index ⟨938 * (i 0 : Nat) + 937, htN⟩ 0 * 1 + 1
      rw [hi.1]
      show (938 * (i 0 : Nat) + 937) / 938 * 1 ≤ (i 0 : Nat) ∧ (i 0 : Nat) < (938 * (i 0 : Nat) + 937) / 938 * 1 + 1
      omega
    | ⟨1, _⟩ =>
      show win1_4.index ⟨938 * (i 0 : Nat) + 937, htN⟩ 1 * 10000 ≤ (i 1 : Nat)
        ∧ (i 1 : Nat) < win1_4.index ⟨938 * (i 0 : Nat) + 937, htN⟩ 1 * 10000 + 10000
      rw [hi.2.1]; omega
    | ⟨2, _⟩ =>
      show win1_4.index ⟨938 * (i 0 : Nat) + 937, htN⟩ 2 * 512 ≤ (i 2 : Nat)
        ∧ (i 2 : Nat) < win1_4.index ⟨938 * (i 0 : Nat) + 937, htN⟩ 2 * 512 + 512
      rw [hi.2.2]; omega

end Flush

/-- THE SECOND KERNEL'S RESULT: given that one tile's body is `tileStep` — from zero at a half's first tile (`hA`), from what the
    tile before left elsewhere (`hB`) —, the result array ends holding, at half `k`, node `n`, column `f`, the half's sum over its
    938 tiles of 256 places. -/
theorem region1_value
    (hA : ∀ (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : Gen.cond1_0 i) (x0 : Vec Ideal S10000x512 .bf16) (x1 : Vec Ideal S256 .i32) (x2 : Vec Ideal S256 .i32) (x3 : Vec Ideal S256x8 .f32),
      Gen.out1_A_4 (F := Ideal) c i arg2 harg2 arg3 harg3 arg4 harg4 arg5 harg5 arg6 harg6 hc0 x0 x1 x2 x3 = Cert.Spec.tileStep x0 x1 x2 x3 (fun _ => 0))
    (hB : ∀ (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : ¬Gen.cond1_0 i) (x0 : Vec Ideal S10000x512 .bf16) (x1 : Vec Ideal S256 .i32) (x2 : Vec Ideal S256 .i32) (x3 : Vec Ideal S256x8 .f32) (xo4 : Vec Ideal S1x10000x512 .f32),
      Gen.out1_B_4 (F := Ideal) c i arg2 harg2 arg3 harg3 arg4 harg4 arg5 harg5 arg6 harg6 hc0 x0 x1 x2 x3 xo4 = Cert.Spec.tileStep x0 x1 x2 x3 xo4)
    (c : Dev nD) (k : Fin 2) (n : Fin 10000) (f : Fin 512) :
    ((Gen.dat1 (F := Ideal) V c).arrAt 4 cfg1.N : S2x10000x512.Idx → EReal) (ix3 k n f)
      = Cert.Spec.coreSum (V c main_v41) (V c main_v48) (V c main_v55) (V c main_v62) k n f := by
  rw [final V hA hB c]
  rfl

end Cert.KernelIdeal.Region1

end
-- ==== Proof.Body1Term.lean ====
/-
  The message of one tile of edges, as the second kernel's body computes it.

  For a tile of 256 edges with source words x1 and per-head weights x3 over the node table x0, the body forms a
  256 × 512 matrix: the ten one-hot products that pick, chunk of 1000 node rows by chunk, the table row named by each
  edge's source word, added up, then multiplied entry by entry with the edge's weight for the column's head. This
  module only NAMES that term (the body's own arithmetic over the ten row blocks of the table); what it equals is proved
  beside it.
-/
import proofs.«118648_j41850161332740_2_alg».proof.Proof.Gen.KernelIdeal.Frame
import proofs.«118648_j41850161332740_2_alg».proof.Proof.Spec

noncomputable section

namespace Cert.KernelIdeal.Body1

open Cert.KernelIdeal Cert.KernelIdeal.Gen Idealize.ShloMosaic Idealize.ShloMosaic.ValueIdx

/-- The tile's message matrix: the body's gather of the source rows (ten chunks of 1000 node rows, each a one-hot product
    with that block of the table) times the broadcast weights, as the body's own term over the table's ten row blocks. -/
def msgTerm (x0 : Vec Ideal S10000x512 .bf16) (x1 : Vec Ideal S256 .i32) (x3 : Vec Ideal S256x8 .f32) :
    FVec Ideal S256x512 .bf16 :=
  k1_pay14 (k1_pay4 x1) (k1_pay6 x3)
    (k1_pay11 (k1_pay4 x1)
      (k1_pay9 (k1_pay4 x1)
        (k1_pay7 x1 (View.ld x0 (Rect.unit ![0, 0] S1000x512.size inb_S10000x512_S1000x512_0_0)) (View.ld x0 (Rect.unit ![1000, 0] S1000x512.size inb_S10000x512_S1000x512_1000_0)))
        k1_pay8 (View.ld x0 (Rect.unit ![2000, 0] S1000x512.size inb_S10000x512_S1000x512_2000_0)) (View.ld x0 (Rect.unit ![3000, 0] S1000x512.size inb_S10000x512_S1000x512_3000_0)) (View.ld x0 (Rect.unit ![4000, 0] S1000x512.size inb_S10000x512_S1000x512_4000_0)))
      (k1_pay10 (k1_pay4 x1)) (View.ld x0 (Rect.unit ![5000, 0] S1000x512.size inb_S10000x512_S1000x512_5000_0)) (View.ld x0 (Rect.unit ![6000, 0] S1000x512.size inb_S10000x512_S1000x512_6000_0)) (View.ld x0 (Rect.unit ![7000, 0] S1000x512.size inb_S10000x512_S1000x512_7000_0)))
    (k1_pay12 (k1_pay4 x1))
    (k1_pay13 (View.ld x0 (Rect.unit ![8000, 0] S1000x512.size inb_S10000x512_S1000x512_8000_0)))
    (constant S256x512 .f32 0x00000000#32)
    (View.ld x0 (Rect.unit ![9000, 0] S1000x512.size inb_S10000x512_S1000x512_9000_0))

end Cert.KernelIdeal.Body1

end
-- ==== Proof.Body1Scatter.lean ====
/-
  One chunk of the scatter half of the second kernel's tile, read at a row and a column.

  The tile adds its 256 messages into the node accumulator 1000 node rows at a time. For the chunk that starts at node
  `off`, the body builds the 1000 × 256 matrix whose entry (j, e) is 1 when the word of node off + j equals edge e's
  target word and 0 otherwise (a comparison bit, widened, converted, narrowed: all exact on the extended reals),
  multiplies it with the 256 × 512 message matrix into a zero accumulator, and adds the product to the chunk's old rows.
  At row j and column f that is

      old (j, f) + ∑ e, [word (off + j) = t e] · M (e, f),

  and since 1 · x = x and 0 · x = 0 for EVERY extended real x (infinite ones too), it is the old entry plus the messages
  of exactly the edges whose target word reads off + j: the tile step of the specification on those rows. Nothing here
  needs a finite value.
-/
import proofs.«118648_j41850161332740_2_alg».proof.Proof.Body1Term
import proofs.«118648_j41850161332740_2_alg».proof.Proof.LibPlainDot
import Idealize.ShloMosaic.Lib.Pipeline.Value

noncomputable section

namespace Cert.KernelIdeal.Body1

open Cert.KernelIdeal Cert.KernelIdeal.Gen Idealize.ShloMosaic Idealize.ShloMosaic.ValueIdx
open scoped BigOperators

/-- The entry of a one-hot matrix: the comparison bit of two words, widened and converted, is 1 when the words are equal and 0 otherwise. -/
theorem onehot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    rw [if_pos rfl]
    simp [IntOp.cmpi]
  · rw [if_neg h]
    have : (a == b) = false := by simpa using h
    simp [IntOp.cmpi, this]

/-- The word of node number `off + j`, formed as the word of `j` plus the word of `off`, equals a word `v` exactly when `v` reads `off + j`. -/
theorem rowWord_eq_iff (off j : Nat) (h : off + j < 10000) (v : BitVec 32) :
    BitVec.ofNat 32 j + BitVec.ofNat 32 off = v ↔ v.toNat = off + j := by
  constructor
  · intro e
    rw [← e, BitVec.toNat_add, BitVec.toNat_ofNat, BitVec.toNat_ofNat]
    omega
  · intro e
    apply BitVec.eq_of_toNat_eq
    rw [BitVec.toNat_add, BitVec.toNat_ofNat, BitVec.toNat_ofNat, e]
    omega

/-- One chunk of the scatter as the body computes it: the chunk's 1000 accumulator rows `old` plus the product of the
    transposed one-hot matrix (row `j` of the chunk against the tile's target words `t`, the chunk starting at the node
    whose word is `w`) with the message matrix `M`. -/
def scatChunk (w : BitVec 32) (t : IVec S256 32) (M : FVec Ideal S256x512 .bf16) (old : Vec Ideal S1x1000x512 .f32) :
    FVec Ideal S1x1000x512 .f32 :=
  shapeCast S1x1000x512
    (addf (shapeCast S1000x512 old shapeCasts_S1x1000x512_S1000x512)
      (matmul dot_S1000x256_S256x512_S1000x512_1_0_0_1_n_n none
        (truncf .bf16 (sitofp .f32 (extui 32 (cmpi .eq
          (broadcastTo S1000x256 (addi (iota .tc S1000x1 32 [0] iota_S1000x1_d0_w32) (broadcast S1000x1 w)) broadcasts_S1000x1_S1000x256)
          (broadcastTo S1000x256 (shapeCast S1x256 t shapeCasts_S256_S1x256) broadcasts_S1x256_S1000x256)) natLt_1_32)) bitsLt_bf16_f32)
        M (constant S1000x512 .f32 0x00000000#32)))
    shapeCasts_S1000x512_S1x1000x512

/-- The chunk at row `j`, column `f`: the old entry plus, over the tile's edges, the one-hot entry times the message. -/
theorem scatChunk_apply (w : BitVec 32) (t : IVec S256 32) (M : FVec Ideal S256x512 .bf16) (old : Vec Ideal S1x1000x512 .f32)
    (j : Fin 1000) (f : Fin 512) :
    scatChunk w t M old (ix3 (0 : Fin 1) j f)
      = old (ix3 (0 : Fin 1) j f) + ∑ e : Fin 256, (if BitVec.ofNat 32 j.val + w = t (ix1 e) then (1 : EReal) else 0) * M (ix2 e f) := by
  unfold scatChunk
  refine (shapeCast_apply _ _ (ix3 (0 : Fin 1) j f) (ix2 j f) ?_).trans ?_
  · rw [Shape.rowMajor_val_two, Shape.rowMajor_val_three]
    show j.val * 512 + f.val = (0 * 1000 + j.val) * 512 + f.val
    omega
  refine (addf_apply _ _ (ix2 j f)).trans ?_
  congr 1
  · refine shapeCast_apply _ _ (ix2 j f) (ix3 (0 : Fin 1) j f) ?_
    rw [Shape.rowMajor_val_two, Shape.rowMajor_val_three]
    show (0 * 1000 + j.val) * 512 + f.val = j.val * 512 + f.val
    omega
  · refine (PlainDot.matmul_zero_apply dot_S1000x256_S256x512_S1000x512_1_0_0_1_n_n_wf none _ M j f).trans ?_
    refine Finset.sum_congr rfl fun e _ => ?_
    congr 1
    have hA : (broadcastTo S1000x256 (addi (iota .tc S1000x1 32 [0] iota_S1000x1_d0_w32) (broadcast S1000x1 w)) broadcasts_S1000x1_S1000x256) (ix2 j e)
        = BitVec.ofNat 32 j.val + w := by
      refine (broadcastTo_apply _ _ (ix2 j e) (ix2 j (0 : Fin 1)) ?_).trans ?_
      · intro a
        match a with
        | ⟨0, _⟩ => rfl
        | ⟨1, _⟩ => rfl
      · show IntOp.addi (iota .tc S1000x1 32 [0] iota_S1000x1_d0_w32 (ix2 j (0 : Fin 1))) w = _
        rw [iota_single_apply]
        rfl
    have hB : (broadcastTo S1000x256 (shapeCast S1x256 t shapeCasts_S256_S1x256) broadcasts_S1x256_S1000x256) (ix2 j e) = t (ix1 e) := by
      refine (broadcastTo_apply _ _ (ix2 j e) (ix2 (0 : Fin 1) e) ?_).trans ?_
      · intro a
        match a with
        | ⟨0, _⟩ => rfl
        | ⟨1, _⟩ => rfl
      · refine shapeCast_apply _ _ _ (ix1 e) ?_
        rw [Shape.rowMajor_val_one, Shape.rowMajor_val_two]
        show e.val = 0 * 256 + e.val
        omega
    refine (onehot_entry _ _).trans ?_
    rw [hA, hB]

/-- The ten stored payloads are the chunk term at the chunk's first node word (the body is cut by statement count, so the
    pieces of the term arrive under different names; each unfolds to the same expression). -/
theorem pay15_eq (v4 t : IVec S256 32) (v8 : FVec Ideal S256x8 .f32) (v121 : FVec Ideal S256x512 .f32) (v131 : FVec Ideal S256x1000 .bf16)
    (v133 : FVec Ideal S1000x512 .bf16) (cst : FVec Ideal S256x512 .f32) (v146 : Vec Ideal S1000x512 .bf16) (old : Vec Ideal S1x1000x512 .f32) :
    k1_pay15 v4 t v8 v121 v131 v133 cst v146 old = scatChunk 0#32 t (k1_pay14 v4 v8 v121 v131 v133 cst v146) old := rfl
theorem pay17_eq (t : IVec S256 32) (M : FVec Ideal S256x512 .bf16) (old : Vec Ideal S1x1000x512 .f32) :
    k1_pay17 M (k1_pay16 t) old = scatChunk 1000#32 t M old := rfl
theorem pay18_eq (t : IVec S256 32) (M : FVec Ideal S256x512 .bf16) (old : Vec Ideal S1x1000x512 .f32) :
    k1_pay18 t M old = scatChunk 2000#32 t M old := rfl
theorem pay20_eq (t : IVec S256 32) (M : FVec Ideal S256x512 .bf16) (old : Vec Ideal S1x1000x512 .f32) :
    k1_pay20 (k1_pay19 t M) old = scatChunk 3000#32 t M old := rfl
theorem pay21_eq (t : IVec S256 32) (M : FVec Ideal S256x512 .bf16) (old : Vec Ideal S1x1000x512 .f32) :
    k1_pay21 t M old = scatChunk 4000#32 t M old := rfl
theorem pay23_eq (t : IVec S256 32) (M : FVec Ideal S256x512 .bf16) (old : Vec Ideal S1x1000x512 .f32) :
    k1_pay23 (k1_pay22 t M old) = scatChunk 5000#32 t M old := rfl
theorem pay24_eq (t : IVec S256 32) (M : FVec Ideal S256x512 .bf16) (old : Vec Ideal S1x1000x512 .f32) :
    k1_pay24 t M old = scatChunk 6000#32 t M old := rfl
theorem pay25_eq (t : IVec S256 32) (M : FVec Ideal S256x512 .bf16) (old : Vec Ideal S1x1000x512 .f32) :
    k1_pay25 t M old = scatChunk 7000#32 t M old := rfl
theorem pay1_eq (t : IVec S256 32) (M : FVec Ideal S256x512 .bf16) (old : Vec Ideal S1x1000x512 .f32) :
    k1_pay1 M (k1_pay26 t) k1_pay27 old = scatChunk 8000#32 t M old := rfl
theorem pay2_eq (t : IVec S256 32) (M : FVec Ideal S256x512 .bf16) (old : Vec Ideal S1x1000x512 .f32) :
    k1_pay2 t M old = scatChunk 9000#32 t M old := rfl

/-- The tile's target words pass through a same-shape cast unchanged. -/
theorem pay5_apply (x2 : Vec Ideal S256 .i32) : k1_pay5 x2 = x2 := shapeCast_self x2 _

/-- ONE CHUNK OF THE SCATTER IS THE TILE STEP ON ITS ROWS. With the message matrix `M` reading the selected source row
    times the edge's weight, and the chunk's old rows `oldblk` being rows off … off + 999 of `old`, the chunk term at row
    `j`, column `f` is the tile step over `old` at node off + j: a one-hot entry is 1 exactly on the edges whose target
    word reads off + j, and 1 · x = x, 0 · x = 0 for every extended real x. -/
theorem chunk_pay (x0 : Vec Ideal S10000x512 .bf16) (x1 x2 : Vec Ideal S256 .i32) (x3 : Vec Ideal S256x8 .f32)
    (M : FVec Ideal S256x512 .bf16)
    (hM : ∀ (e : Fin 256) (f : Fin 512), M (ix2 e f) = Cert.Spec.sel x0 (x1 (ix1 e)) f * x3 (ix2 e (Cert.Spec.headOf f)))
    (off : Nat) (old : Vec Ideal S1x10000x512 .f32) (oldblk : Vec Ideal S1x1000x512 .f32)
    (j : Fin 1000) (f : Fin 512) (h : off + j.val < 10000)
    (hold : oldblk (ix3 (0 : Fin 1) j f) = old (ix3 (0 : Fin 1) (⟨off + j.val, h⟩ : Fin 10000) f)) :
    scatChunk (BitVec.ofNat 32 off) (k1_pay5 x2) M oldblk (ix3 (0 : Fin 1) j f)
      = Cert.Spec.tileStep x0 x1 x2 x3 old (ix3 (0 : Fin 1) (⟨off + j.val, h⟩ : Fin 10000) f) := by
  rw [scatChunk_apply, pay5_apply, hold]
  refine (congrArg (old (ix3 (0 : Fin 1) (⟨off + j.val, h⟩ : Fin 10000) f) + ·) (Finset.sum_congr rfl fun e _ => ?_)).trans
    (Cert.Spec.tileStep_apply x0 x1 x2 x3 old (⟨off + j.val, h⟩ : Fin 10000) f).symm
  rw [hM e f]
  by_cases hw : (x2 (ix1 e)).toNat = off + j.val
  · rw [if_pos ((rowWord_eq_iff off j.val h _).mpr hw), if_pos hw, one_mul]
  · rw [if_neg (fun hh => hw ((rowWord_eq_iff off j.val h _).mp hh)), if_neg hw, zero_mul]

end Cert.KernelIdeal.Body1

end
-- ==== Proof.Body1Gather.lean ====
/-
  The gather half of one tile: the message matrix at an entry.

  For a tile of 256 edges the body builds, chunk of 1000 node rows by chunk, the 256 × 1000 matrix whose entry (e, j)
  is 1 when edge `e`'s source word equals the word of node number `lo + j` and 0 otherwise, and multiplies it with that
  block of the node table.  Entry (e, f) of the product is a sum over the chunk's 1000 rows in which at most one term is
  not `0 · x = 0`: the term of the row the word names, `1 · x = x`, present exactly when the word read unsigned falls in
  `[lo, lo + 1000)`.  Adding the ten chunks to a zero matrix therefore gives the row the word names when it reads below
  10000 and zero otherwise, which is the specification's selection.  The weights, eight per edge, are laid out over
  the 512 columns by repeating each 64 times, so column `f` carries the weight of head `f / 64`; the product is entry
  by entry, and narrowing the float format changes nothing on extended reals.  Nothing here needs finiteness: only
  `0 · x = 0`, `1 · x = x` and `0 + x = x` are used.
-/
import proofs.«118648_j41850161332740_2_alg».proof.Proof.Body1Term
import proofs.«118648_j41850161332740_2_alg».proof.Proof.LibPlainDot
import Idealize.ShloMosaic.Lib.Pipeline.Value

noncomputable section

open scoped BigOperators

namespace Cert.KernelIdeal.Body1

open Cert.KernelIdeal Cert.KernelIdeal.Gen Idealize.ShloMosaic Idealize.ShloMosaic.ValueIdx

/-! ## Words and chunks: the arithmetic -/

/-- A word equals the word of `j + lo` exactly when it reads `j + lo` unsigned (`j + lo` is small: no wrap-around). -/
theorem word_eq_iff (v : BitVec 32) (j lo : Nat) (h : j + lo < 2 ^ 32) :
    v = BitVec.ofNat 32 j + BitVec.ofNat 32 lo ↔ v.toNat = j + lo := by
  rw [← BitVec.ofNat_add]
  constructor
  · intro hv
    rw [hv, BitVec.toNat_ofNat, Nat.mod_eq_of_lt h]
  · intro hv
    apply BitVec.eq_of_toNat_eq
    rw [BitVec.toNat_ofNat, Nat.mod_eq_of_lt h]
    exact hv

/-- The selected row when the word falls in the chunk of 1000 node numbers from `lo`, zero otherwise. -/
def pick (x0 : Cert.Spec.SN.Idx → EReal) (v : BitVec 32) (f : Fin 512) (lo : Nat) : EReal :=
  if lo ≤ v.toNat ∧ v.toNat < lo + 1000 then Cert.Spec.sel x0 v f else 0

/-- A one-hot row over a chunk times the chunk's rows picks the row the word names, if it is in the chunk. -/
theorem onehot_sum (x0 : Cert.Spec.SN.Idx → EReal) (v : BitVec 32) (f : Fin 512) (lo : Nat) (h0 : lo + 1000 ≤ 10000) :
    ∑ j : Fin 1000, (if v = BitVec.ofNat 32 j.val + BitVec.ofNat 32 lo then (1 : EReal) else 0)
        * x0 (ix2 (⟨lo + j.val, by omega⟩ : Fin 10000) f)
      = pick x0 v f lo := by
  unfold pick
  by_cases hin : lo ≤ v.toNat ∧ v.toNat < lo + 1000
  · rw [if_pos hin]
    have hj : v.toNat - lo < 1000 := by omega
    rw [Finset.sum_eq_single (⟨v.toNat - lo, hj⟩ : Fin 1000)]
    · rw [if_pos ((word_eq_iff v _ lo (by omega)).mpr (by show v.toNat = v.toNat - lo + lo; omega)), one_mul]
      unfold Cert.Spec.sel
      rw [dif_pos (show v.toNat < 10000 by omega)]
      exact congrArg (fun r : Fin 10000 => x0 (ix2 r f)) (Fin.ext (by show lo + (v.toNat - lo) = v.toNat; omega))
    · intro j _ hne
      rw [if_neg, zero_mul]
      intro hv
      have := (word_eq_iff v j.val lo (by have := j.isLt; omega)).mp hv
      exact hne (Fin.ext (by show j.val = v.toNat - lo; omega))
    · intro hnot
      exact absurd (Finset.mem_univ _) hnot
  · rw [if_neg hin]
    refine Finset.sum_eq_zero fun j _ => ?_
    rw [if_neg, zero_mul]
    intro hv
    have := (word_eq_iff v j.val lo (by have := j.isLt; omega)).mp hv
    have := j.isLt
    exact hin ⟨by omega, by omega⟩

/-- The selected row when the word reads below `K`, zero otherwise. -/
def below (x0 : Cert.Spec.SN.Idx → EReal) (v : BitVec 32) (f : Fin 512) (K : Nat) : EReal :=
  if v.toNat < K then Cert.Spec.sel x0 v f else 0

theorem below_zero (x0 : Cert.Spec.SN.Idx → EReal) (v : BitVec 32) (f : Fin 512) : below x0 v f 0 = 0 := by
  unfold below
  rw [if_neg (Nat.not_lt_zero _)]

/-- Adding the next chunk's pick moves the bound up by 1000. -/
theorem below_add_pick (x0 : Cert.Spec.SN.Idx → EReal) (v : BitVec 32) (f : Fin 512) (K K' : Nat) (hK : K' = K + 1000) :
    below x0 v f K + pick x0 v f K = below x0 v f K' := by
  subst hK
  unfold below pick
  by_cases h1 : v.toNat < K
  · rw [if_pos h1, if_neg (by omega), if_pos (by omega), add_zero]
  · rw [if_neg h1]
    by_cases h2 : v.toNat < K + 1000
    · rw [if_pos ⟨by omega, h2⟩, if_pos h2, zero_add]
    · rw [if_neg (by omega), if_neg h2, add_zero]

/-- Below 10000 is everything: past the table the selection is zero anyway. -/
theorem below_all (x0 : Cert.Spec.SN.Idx → EReal) (v : BitVec 32) (f : Fin 512) :
    below x0 v f 10000 = Cert.Spec.sel x0 v f := by
  unfold below
  by_cases h : v.toNat < 10000
  · rw [if_pos h]
  · rw [if_neg h]
    unfold Cert.Spec.sel
    rw [dif_neg h]

/-! ## The body's term, chunk by chunk -/

/-- One chunk's one-hot product: the words `w` compared with the node numbers `off, off + 1, …`, times a block of the table. -/
def chunk (w : IVec S256 32) (off : BitVec 32) (blk : Vec Ideal S1000x512 .bf16) : FVec Ideal S256x512 .f32 :=
  matmul dot_S256x1000_S1000x512_S256x512_1_0_0_1_n_n none
    (truncf .bf16 (sitofp .f32 (extui 32 (cmpi .eq
      (broadcastTo S256x1000 (shapeCast S256x1 w shapeCasts_S256_S256x1) broadcasts_S256x1_S256x1000)
      (broadcastTo S256x1000 (addi (iota .tc S1x1000 32 [1] iota_S1x1000_d1_w32) (broadcast S1x1000 off)) broadcasts_S1x1000_S256x1000))
      natLt_1_32)) bitsLt_bf16_f32)
    (shapeCast S1000x512 blk shapeCasts_S1000x512_S1000x512 : FVec Ideal S1000x512 .bf16)
    (constant S256x512 .f32 0x00000000#32)

/-- The weights laid out over the 512 columns: each of an edge's eight weights repeated over its head's 64 columns. -/
def wgt (x3 : Vec Ideal S256x8 .f32) : FVec Ideal S256x512 .f32 :=
  shapeCast S256x512 (broadcastTo S256x8x64 (shapeCast S256x8x1 (shapeCast S256x8x1 (shapeCast S256x8 x3 shapeCasts_S256x8_S256x8) shapeCasts_S256x8_S256x8x1) shapeCasts_S256x8x1_S256x8x1) broadcasts_S256x8x1_S256x8x64) shapeCasts_S256x8x64_S256x512

/-- The block of 1000 rows of the table from row `off`. -/
abbrev blkAt (x0 : Vec Ideal S10000x512 .bf16) (off : Nat) (inb : ∀ a, (![off, 0] : Fin 2 → Nat) a + S1000x512.size a ≤ S10000x512.size a) : Vec Ideal S1000x512 .bf16 :=
  View.ld x0 (Rect.unit ![off, 0] S1000x512.size inb)

/-- The body's term is zero plus the ten chunks, times the laid-out weights, entry by entry (by unfolding alone). -/
theorem msgTerm_eq (x0 : Vec Ideal S10000x512 .bf16) (x1 : Vec Ideal S256 .i32) (x3 : Vec Ideal S256x8 .f32) (i : S256x512.Idx) :
    msgTerm x0 x1 x3 i =
      ((((((((((broadcast S256x512 (Scalar.ofBits (F := Ideal) .f32 0x00000000#32) i
        + chunk (shapeCast S256 x1 shapeCasts_S256_S256) 0#32 (blkAt x0 0 inb_S10000x512_S1000x512_0_0) i)
        + chunk (shapeCast S256 x1 shapeCasts_S256_S256) 1000#32 (blkAt x0 1000 inb_S10000x512_S1000x512_1000_0) i)
        + chunk (shapeCast S256 x1 shapeCasts_S256_S256) 2000#32 (blkAt x0 2000 inb_S10000x512_S1000x512_2000_0) i)
        + chunk (shapeCast S256 x1 shapeCasts_S256_S256) 3000#32 (blkAt x0 3000 inb_S10000x512_S1000x512_3000_0) i)
        + chunk (shapeCast S256 x1 shapeCasts_S256_S256) 4000#32 (blkAt x0 4000 inb_S10000x512_S1000x512_4000_0) i)
        + chunk (shapeCast S256 x1 shapeCasts_S256_S256) 5000#32 (blkAt x0 5000 inb_S10000x512_S1000x512_5000_0) i)
        + chunk (shapeCast S256 x1 shapeCasts_S256_S256) 6000#32 (blkAt x0 6000 inb_S10000x512_S1000x512_6000_0) i)
        + chunk (shapeCast S256 x1 shapeCasts_S256_S256) 7000#32 (blkAt x0 7000 inb_S10000x512_S1000x512_7000_0) i)
        + chunk (shapeCast S256 x1 shapeCasts_S256_S256) 8000#32 (blkAt x0 8000 inb_S10000x512_S1000x512_8000_0) i)
        + chunk (shapeCast S256 x1 shapeCasts_S256_S256) 9000#32 (blkAt x0 9000 inb_S10000x512_S1000x512_9000_0) i)
      * wgt x3 i := rfl

/-! ## A block of the table read at an index -/

/-- Row `j` of the block from row `lo` is row `lo + j` of the table. -/
theorem blkAt_apply (x0 : Vec Ideal S10000x512 .bf16) (lo : Nat)
    (inb : ∀ a, (![lo, 0] : Fin 2 → Nat) a + S1000x512.size a ≤ S10000x512.size a) (h0 : lo + 1000 ≤ 10000)
    (j : Fin 1000) (f : Fin 512) :
    blkAt x0 lo inb (ix2 j f) = x0 (ix2 (⟨lo + j.val, by omega⟩ : Fin 10000) f) := by
  show x0 _ = x0 _
  refine congrArg x0 (funext fun a => Fin.ext ?_)
  match a with
  | ⟨0, _⟩ => show lo + 1 * j.val = lo + j.val; omega
  | ⟨1, _⟩ => show 0 + 1 * f.val = f.val; omega

/-! ## The one-hot entry -/

/-- A comparison's bit, widened to a word and converted to a float, is 1 when the words are equal and 0 otherwise. -/
theorem onehot_scalar (x y : BitVec 32) :
    (((((IntOp.cmpi .eq x y).setWidth 32 : BitVec 32).toInt : ℝ) : EReal)) = if x = y then 1 else 0 := by
  by_cases h : x = y
  · rw [if_pos h, IntOp.cmpi_eq.mpr h]
    norm_num
  · rw [if_neg h, eq_zero_of_ne_one (fun hc => h (IntOp.cmpi_eq.mp hc))]
    norm_num

/-- Entry (e, j) of the one-hot matrix: edge `e`'s word against the word of `j` plus the chunk's offset. -/
theorem onehot_apply (w : IVec S256 32) (off : BitVec 32) (e : Fin 256) (j : Fin 1000) :
    (truncf .bf16 (sitofp .f32 (extui 32 (cmpi .eq
      (broadcastTo S256x1000 (shapeCast S256x1 w shapeCasts_S256_S256x1) broadcasts_S256x1_S256x1000)
      (broadcastTo S256x1000 (addi (iota .tc S1x1000 32 [1] iota_S1x1000_d1_w32) (broadcast S1x1000 off)) broadcasts_S1x1000_S256x1000))
      natLt_1_32)) bitsLt_bf16_f32 : FVec Ideal S256x1000 .bf16) (ix2 e j)
      = if w (ix1 e) = BitVec.ofNat 32 j.val + off then 1 else 0 := by
  have hA : broadcastTo S256x1000 (shapeCast S256x1 w shapeCasts_S256_S256x1) broadcasts_S256x1_S256x1000 (ix2 e j)
      = w (ix1 e) := by
    refine (broadcastTo_apply _ _ (ix2 e j) (ix2 e (0 : Fin 1)) ?_).trans ?_
    · intro a
      match a with
      | ⟨0, _⟩ => rfl
      | ⟨1, _⟩ => rfl
    · refine shapeCast_apply _ _ (ix2 e (0 : Fin 1)) (ix1 e) ?_
      rw [Shape.rowMajor_val_one, Shape.rowMajor_val_two]
      show e.val = e.val * 1 + 0
      omega
  have hB : broadcastTo S256x1000 (addi (iota .tc S1x1000 32 [1] iota_S1x1000_d1_w32) (broadcast S1x1000 off))
      broadcasts_S1x1000_S256x1000 (ix2 e j) = BitVec.ofNat 32 j.val + off := by
    refine (broadcastTo_apply _ _ (ix2 e j) (ix2 (0 : Fin 1) j) ?_).trans ?_
    · intro a
      match a with
      | ⟨0, _⟩ => rfl
      | ⟨1, _⟩ => rfl
    · show IntOp.addi (iota .tc S1x1000 32 [1] iota_S1x1000_d1_w32 (ix2 (0 : Fin 1) j)) off = _
      rw [iota_single_apply]
      rfl
  show (((((IntOp.cmpi .eq
      (broadcastTo S256x1000 (shapeCast S256x1 w shapeCasts_S256_S256x1) broadcasts_S256x1_S256x1000 (ix2 e j))
      (broadcastTo S256x1000 (addi (iota .tc S1x1000 32 [1] iota_S1x1000_d1_w32) (broadcast S1x1000 off))
        broadcasts_S1x1000_S256x1000 (ix2 e j))).setWidth 32 : BitVec 32).toInt : ℝ) : EReal)) = _
  rw [hA, hB]
  exact onehot_scalar _ _

/-! ## One chunk as a sum, and as a pick -/

/-- A chunk at (e, f): the sum over the chunk's rows of the one-hot entry times the block's entry. -/
theorem chunk_apply (w : IVec S256 32) (off : BitVec 32) (blk : Vec Ideal S1000x512 .bf16) (e : Fin 256) (f : Fin 512) :
    chunk w off blk (ix2 e f)
      = ∑ j : Fin 1000, (if w (ix1 e) = BitVec.ofNat 32 j.val + off then (1 : EReal) else 0) * blk (ix2 j f) := by
  unfold chunk
  refine (PlainDot.matmul_zero_apply dot_S256x1000_S1000x512_S256x512_1_0_0_1_n_n_wf none _ _ e f).trans ?_
  refine Finset.sum_congr rfl fun j _ => ?_
  rw [onehot_apply w off e j, shapeCast_self]

/-- The chunk from row `lo` at (e, f) is the row edge `e`'s word names if the word is in the chunk, else zero. -/
theorem chunk_pick (x0 : Vec Ideal S10000x512 .bf16) (w : IVec S256 32) (lo : Nat)
    (inb : ∀ a, (![lo, 0] : Fin 2 → Nat) a + S1000x512.size a ≤ S10000x512.size a) (h0 : lo + 1000 ≤ 10000)
    (e : Fin 256) (f : Fin 512) :
    chunk w (BitVec.ofNat 32 lo) (blkAt x0 lo inb) (ix2 e f) = pick x0 (w (ix1 e)) f lo := by
  refine (chunk_apply w (BitVec.ofNat 32 lo) (blkAt x0 lo inb) e f).trans ?_
  refine (Finset.sum_congr rfl fun j _ => ?_).trans (onehot_sum x0 (w (ix1 e)) f lo h0)
  exact congrArg (HMul.hMul _) (blkAt_apply x0 lo inb h0 j f)

/-! ## The weights -/

/-- Column `f` of edge `e` carries the edge's weight for head `f / 64`. -/
theorem wgt_apply (x3 : Vec Ideal S256x8 .f32) (e : Fin 256) (f : Fin 512) :
    wgt x3 (ix2 e f) = x3 (ix2 e (Cert.Spec.headOf f)) := by
  unfold wgt
  have hf := f.isLt
  refine (shapeCast_apply _ _ (ix2 e f) (ix3 e (Cert.Spec.headOf f) (⟨f.val % 64, by omega⟩ : Fin 64)) ?_).trans ?_
  · rw [Shape.rowMajor_val_three, Shape.rowMajor_val_two]
    show (e.val * 8 + f.val / 64) * 64 + f.val % 64 = e.val * 512 + f.val
    omega
  refine (broadcastTo_apply _ _ _ (ix3 e (Cert.Spec.headOf f) (0 : Fin 1)) ?_).trans ?_
  · intro a
    match a with
    | ⟨0, _⟩ => rfl
    | ⟨1, _⟩ => rfl
    | ⟨2, _⟩ => rfl
  rw [shapeCast_self]
  refine (shapeCast_apply _ _ _ (ix2 e (Cert.Spec.headOf f)) ?_).trans ?_
  · rw [Shape.rowMajor_val_three, Shape.rowMajor_val_two]
    show e.val * 8 + f.val / 64 = (e.val * 8 + f.val / 64) * 1 + 0
    omega
  rw [shapeCast_self]

/-! ## The message matrix at an entry -/

/-- THE TILE'S MESSAGE at edge `e`, column `f`: the selected source row times the edge's weight for the column's head. -/
theorem msgTerm_apply (x0 : Vec Ideal S10000x512 .bf16) (x1 : Vec Ideal S256 .i32) (x3 : Vec Ideal S256x8 .f32) (e : Fin 256) (f : Fin 512) :
    msgTerm x0 x1 x3 (ix2 e f) = Cert.Spec.sel x0 (x1 (ix1 e)) f * x3 (ix2 e (Cert.Spec.headOf f)) := by
  have hw : (shapeCast S256 x1 shapeCasts_S256_S256 : IVec S256 32) = x1 := shapeCast_self _ _
  have hz : broadcast S256x512 (Scalar.ofBits (F := Ideal) .f32 0x00000000#32) (ix2 e f) = below x0 (x1 (ix1 e)) f 0 := by
    rw [below_zero]
    exact Ideal.ofBits_zero_f32
  have grow := below_add_pick x0 (x1 (ix1 e)) f
  rw [msgTerm_eq, hw, hz, wgt_apply,
    chunk_pick x0 x1 0 inb_S10000x512_S1000x512_0_0 (by omega) e f,
    chunk_pick x0 x1 1000 inb_S10000x512_S1000x512_1000_0 (by omega) e f,
    chunk_pick x0 x1 2000 inb_S10000x512_S1000x512_2000_0 (by omega) e f,
    chunk_pick x0 x1 3000 inb_S10000x512_S1000x512_3000_0 (by omega) e f,
    chunk_pick x0 x1 4000 inb_S10000x512_S1000x512_4000_0 (by omega) e f,
    chunk_pick x0 x1 5000 inb_S10000x512_S1000x512_5000_0 (by omega) e f,
    chunk_pick x0 x1 6000 inb_S10000x512_S1000x512_6000_0 (by omega) e f,
    chunk_pick x0 x1 7000 inb_S10000x512_S1000x512_7000_0 (by omega) e f,
    chunk_pick x0 x1 8000 inb_S10000x512_S1000x512_8000_0 (by omega) e f,
    chunk_pick x0 x1 9000 inb_S10000x512_S1000x512_9000_0 (by omega) e f,
    grow 0 1000 rfl, grow 1000 2000 rfl, grow 2000 3000 rfl, grow 3000 4000 rfl, grow 4000 5000 rfl,
    grow 5000 6000 rfl, grow 6000 7000 rfl, grow 7000 8000 rfl, grow 8000 9000 rfl, grow 9000 10000 rfl,
    below_all]

end Cert.KernelIdeal.Body1

end
-- ==== Proof.Body1Rows.lean ====
/-
  One more block of rows stored into a buffer that already reads as the target below the block.
-/
import Idealize.ShloMosaic.Lib.Pipeline.FrameBody
import Idealize.ShloMosaic.Lib.Pipeline.Value
import Idealize.ShloMosaic.Lib.ValueIdx

noncomputable section

namespace Cert.KernelIdeal.Body1

open Idealize.ShloMosaic Idealize.ShloMosaic.ValueIdx

/-- A buffer of shape [1, N, C] written in blocks of B whole rows, last store first. If the stores so far (the list L) leave
    T on the rows below `off` and Z on the rows from `off` on, and one more store writes rows off … off + B − 1 with T's values
    there, then the longer list leaves T on the rows below off + B and Z from there on. -/
theorem canon_cons_rows {Val : EltTy → Type} [∀ e, Nonempty (Val e)] {e : EltTy} {N C B : Nat}
    (L : List (View.Piece Val ⟨3, ![1, N, C]⟩ e)) (off : Nat)
    (inb : ∀ a, (![0, off, 0] : Fin 3 → Nat) a + (![1, B, C] : Fin 3 → Nat) a ≤ (⟨3, ![1, N, C]⟩ : Shape).size a)
    (pay : (Rect.unit (s := ⟨3, ![1, N, C]⟩) ![0, off, 0] ![1, B, C] inb).shape.Idx → Val e)
    (T Z : (⟨3, ![1, N, C]⟩ : Shape).Idx → Val e)
    (hpay : ∀ (j : Fin B) (f : Fin C) (h : off + j.val < N),
      pay (ix3 (0 : Fin 1) j f) = T (ix3 (0 : Fin 1) (⟨off + j.val, h⟩ : Fin N) f))
    (hL : ∀ (n : Fin N) (f : Fin C),
      View.canon L (ix3 (0 : Fin 1) n f) = if n.val < off then T (ix3 (0 : Fin 1) n f) else Z (ix3 (0 : Fin 1) n f)) :
    ∀ (n : Fin N) (f : Fin C),
      View.canon ((⟨Rect.unit (s := ⟨3, ![1, N, C]⟩) ![0, off, 0] ![1, B, C] inb, pay⟩ : View.Piece Val ⟨3, ![1, N, C]⟩ e) :: L)
          (ix3 (0 : Fin 1) n f)
        = if n.val < off + B then T (ix3 (0 : Fin 1) n f) else Z (ix3 (0 : Fin 1) n f) := by
  intro n f
  have hn := n.isLt
  by_cases hin : off ≤ n.val ∧ n.val < off + B
  · -- the row lies in the new block: the index is the block's own index (n − off, f) placed in the buffer
    obtain ⟨hlo, hhi⟩ := hin
    have hemb : (Rect.unit (s := ⟨3, ![1, N, C]⟩) ![0, off, 0] ![1, B, C] inb).emb
        (ix3 (0 : Fin 1) (⟨n.val - off, by omega⟩ : Fin B) f) = ix3 (0 : Fin 1) n f := by
      funext a
      refine Fin.ext ?_
      rw [Rect.emb_apply]
      match a with
      | ⟨0, _⟩ => show 0 + 1 * 0 = 0; omega
      | ⟨1, _⟩ => show off + 1 * (n.val - off) = n.val; omega
      | ⟨2, _⟩ => show 0 + 1 * f.val = f.val; omega
    have hc := View.canon_cons_emb (Rect.unit (s := ⟨3, ![1, N, C]⟩) ![0, off, 0] ![1, B, C] inb) pay L
      (ix3 (0 : Fin 1) (⟨n.val - off, by omega⟩ : Fin B) f)
    rw [hemb] at hc
    rw [hc, if_pos hhi, hpay ⟨n.val - off, by omega⟩ f (by show off + (n.val - off) < N; omega)]
    congr 2
    refine Fin.ext ?_
    show off + (n.val - off) = n.val
    omega
  · -- the row lies outside the new block: the earlier stores decide, and the two conditions agree
    have hnm : ix3 (0 : Fin 1) n f ∉ (Rect.unit (s := ⟨3, ![1, N, C]⟩) ![0, off, 0] ![1, B, C] inb).set := by
      rw [Rect.mem_set_unit]
      intro hall
      have h1 := hall 1
      exact hin ⟨h1.1, h1.2⟩
    refine (View.canon_cons_of_not_mem
      (⟨Rect.unit (s := ⟨3, ![1, N, C]⟩) ![0, off, 0] ![1, B, C] inb, pay⟩ : View.Piece Val ⟨3, ![1, N, C]⟩ e) L hnm).trans
      ((hL n f).trans ?_)
    by_cases h : n.val < off
    · rw [if_pos h, if_pos (by omega)]
    · rw [if_neg h, if_neg (by omega)]

end Cert.KernelIdeal.Body1

end
-- ==== Proof.Body1Walk.lean ====
/-
  Walking the accumulator's stores, one chunk of 1000 node rows at a time.

  The tile's body writes the [1, 10000, 512] accumulator in ten blocks of 1000 rows (after a whole-buffer zero store when
  the tile is a core's first). What the buffer holds after such a list of stores is read one store at a time: if the
  stores so far leave T on the rows below `off` and Z from `off` on, and the next store writes T's values on rows
  off … off + 999, the longer list leaves T below off + 1000 and Z from there on. For the first tile Z is zero, and a
  chunk's read-back of its own rows — made after the zero store and the earlier chunks, none of which touches those rows
  again — reads zeros; so the chunk leaves the tile step over zeros on its rows.
-/
import proofs.«118648_j41850161332740_2_alg».proof.Proof.Body1Scatter
import proofs.«118648_j41850161332740_2_alg».proof.Proof.Body1Gather
import proofs.«118648_j41850161332740_2_alg».proof.Proof.Body1Rows

noncomputable section

namespace Cert.KernelIdeal.Body1

open Cert.KernelIdeal Cert.KernelIdeal.Gen Idealize.ShloMosaic Idealize.ShloMosaic.ValueIdx
open scoped BigOperators

/-- The store-list walk at this accumulator's shape: blocks of 1000 rows of a [1, 10000, 512] buffer of extended reals. -/
theorem rows_step (L : List (View.Piece (Elt Ideal) S1x10000x512 .f32)) (off : Nat)
    (inb : ∀ a, (![0, off, 0] : Fin 3 → Nat) a + (![1, 1000, 512] : Fin 3 → Nat) a ≤ S1x10000x512.size a)
    (pay : (Rect.unit (s := S1x10000x512) ![0, off, 0] ![1, 1000, 512] inb).shape.Idx → EReal)
    (T Z : S1x10000x512.Idx → EReal)
    (hpay : ∀ (j : Fin 1000) (f : Fin 512) (h : off + j.val < 10000),
      pay (ix3 (0 : Fin 1) j f) = T (ix3 (0 : Fin 1) (⟨off + j.val, h⟩ : Fin 10000) f))
    (hL : ∀ (n : Fin 10000) (f : Fin 512),
      View.canon L (ix3 (0 : Fin 1) n f) = if n.val < off then T (ix3 (0 : Fin 1) n f) else Z (ix3 (0 : Fin 1) n f)) :
    ∀ (n : Fin 10000) (f : Fin 512),
      View.canon ((⟨Rect.unit (s := S1x10000x512) ![0, off, 0] ![1, 1000, 512] inb, pay⟩ : View.Piece (Elt Ideal) S1x10000x512 .f32) :: L)
          (ix3 (0 : Fin 1) n f)
        = if n.val < off + 1000 then T (ix3 (0 : Fin 1) n f) else Z (ix3 (0 : Fin 1) n f) :=
  canon_cons_rows (Val := Elt Ideal) (e := .f32) (N := 10000) (C := 512) (B := 1000) L off inb pay T Z hpay hL

/-- What a buffer reads where no store of a list has written: the value the empty list leaves. -/
abbrev junk0 : S1x10000x512.Idx → EReal := View.canon ([] : List (View.Piece (Elt Ideal) S1x10000x512 .f32))

/-- The accumulator after the first tile's zero store. -/
abbrev zero0 : S1x10000x512.Idx → EReal := fun _ => 0

/-- The chunk's rectangle places its row `j` at node off + j. -/
theorem idx_chunk (off : Nat)
    (inb : ∀ a, (![0, off, 0] : Fin 3 → Nat) a + (![1, 1000, 512] : Fin 3 → Nat) a ≤ S1x10000x512.size a)
    (j : Fin 1000) (f : Fin 512) (h : off + j.val < 10000) :
    (Rect.unit (s := S1x10000x512) ![0, off, 0] ![1, 1000, 512] inb).toLoadRect.idx (ix3 (0 : Fin 1) j f)
      = ix3 (0 : Fin 1) (⟨off + j.val, h⟩ : Fin 10000) f := by
  refine funext fun d => Fin.ext ?_
  match d with
  | ⟨0, _⟩ => show 0 + 1 * 0 = 0; omega
  | ⟨1, _⟩ => show off + 1 * j.val = off + j.val; omega
  | ⟨2, _⟩ => show 0 + 1 * f.val = f.val; omega

/-- Rows off … off + 999 of a [1, 10000, 512] array, read through the chunk's rectangle. -/
theorem ld_chunk (X : Vec Ideal S1x10000x512 .f32) (off : Nat)
    (inb : ∀ a, (![0, off, 0] : Fin 3 → Nat) a + (![1, 1000, 512] : Fin 3 → Nat) a ≤ S1x10000x512.size a)
    (j : Fin 1000) (f : Fin 512) (h : off + j.val < 10000) :
    View.ld X (Rect.unit (s := S1x10000x512) ![0, off, 0] ![1, 1000, 512] inb) (ix3 (0 : Fin 1) j f)
      = X (ix3 (0 : Fin 1) (⟨off + j.val, h⟩ : Fin 10000) f) :=
  congrArg X (idx_chunk off inb j f h)

/-- The all-zero offsets of a whole-buffer access, at ranks one to three. -/
theorem zeroOff1 : (![0] : Fin 1 → Nat) = fun _ => 0 := funext fun a => by match a with | ⟨0, _⟩ => rfl
theorem zeroOff2 : (![0, 0] : Fin 2 → Nat) = fun _ => 0 := funext fun a => by match a with | ⟨0, _⟩ => rfl | ⟨1, _⟩ => rfl
theorem zeroOff3 : (![0, 0, 0] : Fin 3 → Nat) = fun _ => 0 :=
  funext fun a => by match a with | ⟨0, _⟩ => rfl | ⟨1, _⟩ => rfl | ⟨2, _⟩ => rfl

/-- A chunk's rows read back after the stores `L`: where the stores so far have left `Z` from row `off` on, the read is `Z`. -/
theorem readCov_rows {sig' : RefSig} {κ : Kind} {sp : Space} (v : View sig' κ sp S1x10000x512 .f32)
    (L : List (View.Piece (Elt Ideal) S1x10000x512 .f32)) (off : Nat)
    (inb : ∀ a, (![0, off, 0] : Fin 3 → Nat) a + (![1, 1000, 512] : Fin 3 → Nat) a ≤ S1x10000x512.size a)
    (T Z : S1x10000x512.Idx → EReal)
    (hL : ∀ (n : Fin 10000) (f : Fin 512),
      View.canon L (ix3 (0 : Fin 1) n f) = if n.val < off then T (ix3 (0 : Fin 1) n f) else Z (ix3 (0 : Fin 1) n f))
    (j : Fin 1000) (f : Fin 512) (h : off + j.val < 10000) :
    v.readCov L (Rect.unit (s := S1x10000x512) ![0, off, 0] ![1, 1000, 512] inb).toLoadRect (ix3 (0 : Fin 1) j f)
      = Z (ix3 (0 : Fin 1) (⟨off + j.val, h⟩ : Fin 10000) f) := by
  rw [View.readCov_eq_canon']
  show View.canon L ((Rect.unit (s := S1x10000x512) ![0, off, 0] ![1, 1000, 512] inb).toLoadRect.idx (ix3 (0 : Fin 1) j f)) = _
  rw [idx_chunk off inb j f h, hL, if_neg (by show ¬(off + j.val < off); omega)]

/-- ONE STORE OF THE FIRST TILE. After the zero store and the chunks below `off`, the accumulator holds the tile step over
    zeros on the rows below `off` and zeros from there on; the next chunk reads zeros back and leaves the tile step on its rows. -/
theorem stepA (x0 : Vec Ideal S10000x512 .bf16) (x1 x2 : Vec Ideal S256 .i32) (x3 : Vec Ideal S256x8 .f32)
    {sig' : RefSig} {κ : Kind} {sp : Space} (v : View sig' κ sp S1x10000x512 .f32)
    (L : List (View.Piece (Elt Ideal) S1x10000x512 .f32)) (off : Nat)
    (inb : ∀ a, (![0, off, 0] : Fin 3 → Nat) a + (![1, 1000, 512] : Fin 3 → Nat) a ≤ S1x10000x512.size a)
    (hL : ∀ (n : Fin 10000) (f : Fin 512),
      View.canon L (ix3 (0 : Fin 1) n f)
        = if n.val < off then Cert.Spec.tileStep x0 x1 x2 x3 zero0 (ix3 (0 : Fin 1) n f) else zero0 (ix3 (0 : Fin 1) n f)) :
    ∀ (n : Fin 10000) (f : Fin 512),
      View.canon ((⟨Rect.unit (s := S1x10000x512) ![0, off, 0] ![1, 1000, 512] inb,
          scatChunk (BitVec.ofNat 32 off) (k1_pay5 x2) (msgTerm x0 x1 x3)
            (v.readCov L (Rect.unit (s := S1x10000x512) ![0, off, 0] ![1, 1000, 512] inb).toLoadRect)⟩ :
            View.Piece (Elt Ideal) S1x10000x512 .f32) :: L) (ix3 (0 : Fin 1) n f)
        = if n.val < off + 1000 then Cert.Spec.tileStep x0 x1 x2 x3 zero0 (ix3 (0 : Fin 1) n f) else zero0 (ix3 (0 : Fin 1) n f) :=
  rows_step L off inb _ (Cert.Spec.tileStep x0 x1 x2 x3 zero0) zero0
    (fun j f h => chunk_pay x0 x1 x2 x3 (msgTerm x0 x1 x3) (msgTerm_apply x0 x1 x3) off zero0 _ j f h
      (readCov_rows v L off inb (Cert.Spec.tileStep x0 x1 x2 x3 zero0) zero0 hL j f h)) hL

/-- The zero store's payload is zero everywhere. -/
theorem pay3_apply (y : S1x10000x512.Idx) : k1_pay3 (F := Ideal) y = 0 := by
  show FloatOps.ofBits (F := Ideal) .f32 0x00000000#32 = 0
  exact Ideal.ofBits_zero_f32

end Cert.KernelIdeal.Body1

end
-- ==== Proof.Body1CaseA.lean ====
/-
  The first tile of a core: the accumulator after the body is the tile step over zeros.

  The body first stores zeros over the whole accumulator, then, chunk by chunk, reads the chunk's rows back (zeros: no
  earlier chunk wrote them), adds the chunk's one-hot product, and stores them. The generated run names the list of
  stores after each chunk and each read-back by the list before it, so the lists are opened one at a time, each by the
  walking step over the list before.
-/
import proofs.«118648_j41850161332740_2_alg».proof.Proof.Body1Walk

noncomputable section

namespace Cert.KernelIdeal.Body1

open Cert.KernelIdeal Cert.KernelIdeal.Gen Idealize.ShloMosaic Idealize.ShloMosaic.ValueIdx
open scoped BigOperators

section CaseA
variable (c : Dev nD) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32)
    (x0 : Vec Ideal S10000x512 .bf16) (x1 : Vec Ideal S256 .i32) (x2 : Vec Ideal S256 .i32) (x3 : Vec Ideal S256x8 .f32)

/-- The run's name for the tile's target words is the loaded vector itself. -/
theorem r1_eq : kernelRun1_A.sl.r_1 (F := Ideal) c arg4 harg4 x2 = k1_pay5 x2 := by
  unfold kernelRun1_A.sl.r_1
  rw [View.readAt_eq_ld, harg4.read_unread, View.ld_unit_zero (S := S256) zeroOff1]

/-- The run's name for the message matrix is the message term. -/
theorem r9_eq : kernelRun1_A.sl.r_9 (F := Ideal) c arg2 harg2 arg3 harg3 arg5 harg5 x0 x1 x3 = msgTerm x0 x1 x3 := by
  unfold kernelRun1_A.sl.r_9 msgTerm
  sl_unfold_words
  simp only [View.readAt_eq_ld, harg2.read_unread, harg3.read_unread, harg5.read_unread,
    View.ld_unit_zero (S := S256) zeroOff1, View.ld_unit_zero (S := S256x8) zeroOff2]

end CaseA

/-- After the zero store alone: zeros everywhere. -/
theorem invA_1 (x0 : Vec Ideal S10000x512 .bf16) (x1 x2 : Vec Ideal S256 .i32) (x3 : Vec Ideal S256x8 .f32) :
    ∀ (n : Fin 10000) (f : Fin 512), View.canon (kernelRun1_A.sl.H4_1 (F := Ideal)) (ix3 (0 : Fin 1) n f)
      = if n.val < 0 then Cert.Spec.tileStep x0 x1 x2 x3 zero0 (ix3 (0 : Fin 1) n f) else zero0 (ix3 (0 : Fin 1) n f) := by
  intro n f
  unfold kernelRun1_A.sl.H4_1
  rw [View.canon_unit_zero zeroOff3, if_neg (Nat.not_lt_zero _)]
  exact pay3_apply _

section CaseA2
variable (c : Dev nD) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32)
    (x0 : Vec Ideal S10000x512 .bf16) (x1 : Vec Ideal S256 .i32) (x2 : Vec Ideal S256 .i32) (x3 : Vec Ideal S256x8 .f32)

/-- The message term under the names the run gives its parts. -/
theorem r0_eq : k1_pay14 (kernelRun1_A.sl.r (F := Ideal) c arg3 harg3 x1) (kernelRun1_A.sl.r_2 c arg5 harg5 x3)
      (kernelRun1_A.sl.r_6 c arg2 harg2 arg3 harg3 x0 x1) (kernelRun1_A.sl.r_7 c arg3 harg3 x1) (kernelRun1_A.sl.r_8 c arg2 harg2 x0)
      kernelRun1_A.sl.cst_23
      (View.readAt (Elt Ideal) arg2.view (Rect.unit (s := S10000x512) ![9000, 0] S1000x512.size inb_S10000x512_S1000x512_9000_0).toLoadRect (harg2.unread x0))
    = msgTerm x0 x1 x3 := r9_eq c arg2 harg2 arg3 harg3 arg5 harg5 x0 x1 x3

/-- After the zero store and chunks 0 … 0. -/
theorem invA_2 :
    ∀ (n : Fin 10000) (f : Fin 512), View.canon (kernelRun1_A.sl.H4_2 (F := Ideal) c arg2 harg2 arg3 harg3 arg4 harg4 arg5 harg5 arg6 x0 x1 x2 x3) (ix3 (0 : Fin 1) n f)
      = if n.val < 0 + 1000 then Cert.Spec.tileStep x0 x1 x2 x3 zero0 (ix3 (0 : Fin 1) n f) else zero0 (ix3 (0 : Fin 1) n f) := by
  unfold kernelRun1_A.sl.H4_2 kernelRun1_A.sl.v167
  rw [pay15_eq, r0_eq c arg2 harg2 arg3 harg3 arg5 harg5 x0 x1 x3, r1_eq c arg4 harg4 x2]
  exact stepA x0 x1 x2 x3 arg6.view _ 0 _ (invA_1 x0 x1 x2 x3)

/-- After the zero store and chunks 0 … 1. -/
theorem invA_3 :
    ∀ (n : Fin 10000) (f : Fin 512), View.canon (kernelRun1_A.sl.H4_3 (F := Ideal) c arg2 harg2 arg3 harg3 arg4 harg4 arg5 harg5 arg6 x0 x1 x2 x3) (ix3 (0 : Fin 1) n f)
      = if n.val < 1000 + 1000 then Cert.Spec.tileStep x0 x1 x2 x3 zero0 (ix3 (0 : Fin 1) n f) else zero0 (ix3 (0 : Fin 1) n f) := by
  unfold kernelRun1_A.sl.H4_3 kernelRun1_A.sl.v184 kernelRun1_A.sl.r_10
  rw [r9_eq c arg2 harg2 arg3 harg3 arg5 harg5 x0 x1 x3, r1_eq c arg4 harg4 x2, pay17_eq]
  exact stepA x0 x1 x2 x3 arg6.view _ 1000 _ (invA_2 c arg2 harg2 arg3 harg3 arg4 harg4 arg5 harg5 arg6 x0 x1 x2 x3)

/-- After the zero store and chunks 0 … 2. -/
theorem invA_4 :
    ∀ (n : Fin 10000) (f : Fin 512), View.canon (kernelRun1_A.sl.H4_4 (F := Ideal) c arg2 harg2 arg3 harg3 arg4 harg4 arg5 harg5 arg6 x0 x1 x2 x3) (ix3 (0 : Fin 1) n f)
      = if n.val < 2000 + 1000 then Cert.Spec.tileStep x0 x1 x2 x3 zero0 (ix3 (0 : Fin 1) n f) else zero0 (ix3 (0 : Fin 1) n f) := by
  unfold kernelRun1_A.sl.H4_4 kernelRun1_A.sl.v201
  rw [r9_eq c arg2 harg2 arg3 harg3 arg5 harg5 x0 x1 x3, r1_eq c arg4 harg4 x2, pay18_eq]
  exact stepA x0 x1 x2 x3 arg6.view _ 2000 _ (invA_3 c arg2 harg2 arg3 harg3 arg4 harg4 arg5 harg5 arg6 x0 x1 x2 x3)

/-- After the zero store and chunks 0 … 3. -/
theorem invA_5 :
    ∀ (n : Fin 10000) (f : Fin 512), View.canon (kernelRun1_A.sl.H4_5 (F := Ideal) c arg2 harg2 arg3 harg3 arg4 harg4 arg5 harg5 arg6 x0 x1 x2 x3) (ix3 (0 : Fin 1) n f)
      = if n.val < 3000 + 1000 then Cert.Spec.tileStep x0 x1 x2 x3 zero0 (ix3 (0 : Fin 1) n f) else zero0 (ix3 (0 : Fin 1) n f) := by
  unfold kernelRun1_A.sl.H4_5 kernelRun1_A.sl.v218 kernelRun1_A.sl.r_11
  rw [r9_eq c arg2 harg2 arg3 harg3 arg5 harg5 x0 x1 x3, r1_eq c arg4 harg4 x2, pay20_eq]
  exact stepA x0 x1 x2 x3 arg6.view _ 3000 _ (invA_4 c arg2 harg2 arg3 harg3 arg4 harg4 arg5 harg5 arg6 x0 x1 x2 x3)

/-- After the zero store and chunks 0 … 4. -/
theorem invA_6 :
    ∀ (n : Fin 10000) (f : Fin 512), View.canon (kernelRun1_A.sl.H4_6 (F := Ideal) c arg2 harg2 arg3 harg3 arg4 harg4 arg5 harg5 arg6 x0 x1 x2 x3) (ix3 (0 : Fin 1) n f)
      = if n.val < 4000 + 1000 then Cert.Spec.tileStep x0 x1 x2 x3 zero0 (ix3 (0 : Fin 1) n f) else zero0 (ix3 (0 : Fin 1) n f) := by
  unfold kernelRun1_A.sl.H4_6 kernelRun1_A.sl.v235
  rw [r9_eq c arg2 harg2 arg3 harg3 arg5 harg5 x0 x1 x3, r1_eq c arg4 harg4 x2, pay21_eq]
  exact stepA x0 x1 x2 x3 arg6.view _ 4000 _ (invA_5 c arg2 harg2 arg3 harg3 arg4 harg4 arg5 harg5 arg6 x0 x1 x2 x3)

/-- After the zero store and chunks 0 … 5. -/
theorem invA_7 :
    ∀ (n : Fin 10000) (f : Fin 512), View.canon (kernelRun1_A.sl.H4_7 (F := Ideal) c arg2 harg2 arg3 harg3 arg4 harg4 arg5 harg5 arg6 x0 x1 x2 x3) (ix3 (0 : Fin 1) n f)
      = if n.val < 5000 + 1000 then Cert.Spec.tileStep x0 x1 x2 x3 zero0 (ix3 (0 : Fin 1) n f) else zero0 (ix3 (0 : Fin 1) n f) := by
  unfold kernelRun1_A.sl.H4_7 kernelRun1_A.sl.r_12 kernelRun1_A.sl.v252
  rw [r9_eq c arg2 harg2 arg3 harg3 arg5 harg5 x0 x1 x3, r1_eq c arg4 harg4 x2, pay23_eq]
  exact stepA x0 x1 x2 x3 arg6.view _ 5000 _ (invA_6 c arg2 harg2 arg3 harg3 arg4 harg4 arg5 harg5 arg6 x0 x1 x2 x3)

/-- After the zero store and chunks 0 … 6. -/
theorem invA_8 :
    ∀ (n : Fin 10000) (f : Fin 512), View.canon (kernelRun1_A.sl.H4_8 (F := Ideal) c arg2 harg2 arg3 harg3 arg4 harg4 arg5 harg5 arg6 x0 x1 x2 x3) (ix3 (0 : Fin 1) n f)
      = if n.val < 6000 + 1000 then Cert.Spec.tileStep x0 x1 x2 x3 zero0 (ix3 (0 : Fin 1) n f) else zero0 (ix3 (0 : Fin 1) n f) := by
  unfold kernelRun1_A.sl.H4_8 kernelRun1_A.sl.v269
  rw [r9_eq c arg2 harg2 arg3 harg3 arg5 harg5 x0 x1 x3, r1_eq c arg4 harg4 x2, pay24_eq]
  exact stepA x0 x1 x2 x3 arg6.view _ 6000 _ (invA_7 c arg2 harg2 arg3 harg3 arg4 harg4 arg5 harg5 arg6 x0 x1 x2 x3)

/-- After the zero store and chunks 0 … 7. -/
theorem invA_9 :
    ∀ (n : Fin 10000) (f : Fin 512), View.canon (kernelRun1_A.sl.H4_9 (F := Ideal) c arg2 harg2 arg3 harg3 arg4 harg4 arg5 harg5 arg6 x0 x1 x2 x3) (ix3 (0 : Fin 1) n f)
      = if n.val < 7000 + 1000 then Cert.Spec.tileStep x0 x1 x2 x3 zero0 (ix3 (0 : Fin 1) n f) else zero0 (ix3 (0 : Fin 1) n f) := by
  unfold kernelRun1_A.sl.H4_9 kernelRun1_A.sl.v286
  rw [r9_eq c arg2 harg2 arg3 harg3 arg5 harg5 x0 x1 x3, r1_eq c arg4 harg4 x2, pay25_eq]
  exact stepA x0 x1 x2 x3 arg6.view _ 7000 _ (invA_8 c arg2 harg2 arg3 harg3 arg4 harg4 arg5 harg5 arg6 x0 x1 x2 x3)

/-- After the zero store and chunks 0 … 8. -/
theorem invA_10 :
    ∀ (n : Fin 10000) (f : Fin 512), View.canon (kernelRun1_A.sl.H4_10 (F := Ideal) c arg2 harg2 arg3 harg3 arg4 harg4 arg5 harg5 arg6 x0 x1 x2 x3) (ix3 (0 : Fin 1) n f)
      = if n.val < 8000 + 1000 then Cert.Spec.tileStep x0 x1 x2 x3 zero0 (ix3 (0 : Fin 1) n f) else zero0 (ix3 (0 : Fin 1) n f) := by
  unfold kernelRun1_A.sl.H4_10 kernelRun1_A.sl.v303 kernelRun1_A.sl.r_13
  rw [r9_eq c arg2 harg2 arg3 harg3 arg5 harg5 x0 x1 x3, r1_eq c arg4 harg4 x2, pay1_eq]
  exact stepA x0 x1 x2 x3 arg6.view _ 8000 _ (invA_9 c arg2 harg2 arg3 harg3 arg4 harg4 arg5 harg5 arg6 x0 x1 x2 x3)

end CaseA2

set_option maxHeartbeats 1000000 in
/-- THE FIRST TILE OF A CORE: the accumulator after the body is the tile step over zeros. -/
theorem out1_A_4_eq (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : Gen.cond1_0 i)
    (x0 : Vec Ideal S10000x512 .bf16) (x1 : Vec Ideal S256 .i32) (x2 : Vec Ideal S256 .i32) (x3 : Vec Ideal S256x8 .f32) :
    Gen.out1_A_4 (F := Ideal) c i arg2 harg2 arg3 harg3 arg4 harg4 arg5 harg5 arg6 harg6 hc0 x0 x1 x2 x3 = Cert.Spec.tileStep x0 x1 x2 x3 (fun _ => 0) := by
  unfold out1_A_4
  rw [View.read_writes_junk_eq_canon]
  unfold kernelRun1_A
  dsimp only
  unfold kernelRun1_A.sl.v320
  rw [r9_eq c arg2 harg2 arg3 harg3 arg5 harg5 x0 x1 x3, r1_eq c arg4 harg4 x2, pay2_eq]
  funext y
  obtain ⟨a, n, f, rfl⟩ : ∃ (a : Fin 1) (n : Fin 10000) (f : Fin 512), y = ix3 a n f := ⟨y 0, y 1, y 2, eq_ix3 y⟩
  obtain rfl : a = 0 := Subsingleton.elim _ _
  exact ((stepA x0 x1 x2 x3 arg6.view _ 9000 _ (invA_10 c arg2 harg2 arg3 harg3 arg4 harg4 arg5 harg5 arg6 x0 x1 x2 x3)) n f).trans (if_pos n.isLt)

end Cert.KernelIdeal.Body1

end
-- ==== Proof.Body1CaseB.lean ====
/-
  A later tile of a core: the accumulator after the body is the tile step over what it held before.

  The body's ten stores, last first, each write rows 1000c … 1000c + 999 with the chunk term over the old rows read
  from the accumulator's contents before the body; the ten blocks tile the 10000 rows, so walking the list from the empty
  list up leaves the tile step on every row.
-/
import proofs.«118648_j41850161332740_2_alg».proof.Proof.Body1Walk

noncomputable section

namespace Cert.KernelIdeal.Body1

open Cert.KernelIdeal Cert.KernelIdeal.Gen Idealize.ShloMosaic Idealize.ShloMosaic.ValueIdx
open scoped BigOperators

set_option maxHeartbeats 1000000 in
/-- A LATER TILE OF A CORE: the accumulator after the body is the tile step over its old contents. -/
theorem out1_B_4_eq (c : Dev nD) (i : grid1.Coords) (arg2 : Memref sig .tc .vmem S10000x512 .bf16) (harg2 : arg2.IsWhole) (arg3 : Memref sig .tc .vmem S256 .i32) (harg3 : arg3.IsWhole) (arg4 : Memref sig .tc .vmem S256 .i32) (harg4 : arg4.IsWhole) (arg5 : Memref sig .tc .vmem S256x8 .f32) (harg5 : arg5.IsWhole) (arg6 : Memref sig .tc .vmem S1x10000x512 .f32) (harg6 : arg6.IsWhole) (hc0 : ¬Gen.cond1_0 i)
    (x0 : Vec Ideal S10000x512 .bf16) (x1 : Vec Ideal S256 .i32) (x2 : Vec Ideal S256 .i32) (x3 : Vec Ideal S256x8 .f32) (xo4 : Vec Ideal S1x10000x512 .f32) :
    Gen.out1_B_4 (F := Ideal) c i arg2 harg2 arg3 harg3 arg4 harg4 arg5 harg5 arg6 harg6 hc0 x0 x1 x2 x3 xo4 = Cert.Spec.tileStep x0 x1 x2 x3 xo4 := by
  unfold out1_B_4
  rw [View.read_writes_junk_eq_canon]
  unfold kernelRun1_B
  dsimp only
  sl_unfold_words
  simp only [View.readAt_eq_ld, harg2.read_unread, harg3.read_unread, harg4.read_unread, harg5.read_unread, harg6.read_unread,
    View.ld_unit_zero (S := S256) zeroOff1, View.ld_unit_zero (S := S256x8) zeroOff2,
    pay15_eq, pay17_eq, pay18_eq, pay20_eq, pay21_eq, pay23_eq, pay24_eq, pay25_eq, pay1_eq, pay2_eq]
  have hM := msgTerm_apply x0 x1 x3
  unfold msgTerm at hM
  generalize (k1_pay14 (F := Ideal) (k1_pay4 x1) _ _ _ _ _ _) = M at hM ⊢
  funext y
  obtain ⟨a, n, f, rfl⟩ : ∃ (a : Fin 1) (n : Fin 10000) (f : Fin 512), y = ix3 a n f := ⟨y 0, y 1, y 2, eq_ix3 y⟩
  obtain rfl : a = 0 := Subsingleton.elim _ _
  have hL0 : ∀ (n : Fin 10000) (f : Fin 512), View.canon ([] : List (View.Piece (Elt Ideal) S1x10000x512 .f32)) (ix3 (0 : Fin 1) n f)
      = if n.val < 0 then Cert.Spec.tileStep x0 x1 x2 x3 xo4 (ix3 (0 : Fin 1) n f) else junk0 (ix3 (0 : Fin 1) n f) :=
    fun n f => (if_neg (Nat.not_lt_zero _)).symm
  have hL1 := rows_step _ 0 inb_S1x10000x512_S1x1000x512_0_0_0 _ (Cert.Spec.tileStep x0 x1 x2 x3 xo4) junk0
    (fun j f h => chunk_pay x0 x1 x2 x3 M hM 0 xo4 _ j f h (ld_chunk xo4 0 inb_S1x10000x512_S1x1000x512_0_0_0 j f h)) hL0
  have hL2 := rows_step _ 1000 inb_S1x10000x512_S1x1000x512_0_1000_0 _ (Cert.Spec.tileStep x0 x1 x2 x3 xo4) junk0
    (fun j f h => chunk_pay x0 x1 x2 x3 M hM 1000 xo4 _ j f h (ld_chunk xo4 1000 inb_S1x10000x512_S1x1000x512_0_1000_0 j f h)) hL1
  have hL3 := rows_step _ 2000 inb_S1x10000x512_S1x1000x512_0_2000_0 _ (Cert.Spec.tileStep x0 x1 x2 x3 xo4) junk0
    (fun j f h => chunk_pay x0 x1 x2 x3 M hM 2000 xo4 _ j f h (ld_chunk xo4 2000 inb_S1x10000x512_S1x1000x512_0_2000_0 j f h)) hL2
  have hL4 := rows_step _ 3000 inb_S1x10000x512_S1x1000x512_0_3000_0 _ (Cert.Spec.tileStep x0 x1 x2 x3 xo4) junk0
    (fun j f h => chunk_pay x0 x1 x2 x3 M hM 3000 xo4 _ j f h (ld_chunk xo4 3000 inb_S1x10000x512_S1x1000x512_0_3000_0 j f h)) hL3
  have hL5 := rows_step _ 4000 inb_S1x10000x512_S1x1000x512_0_4000_0 _ (Cert.Spec.tileStep x0 x1 x2 x3 xo4) junk0
    (fun j f h => chunk_pay x0 x1 x2 x3 M hM 4000 xo4 _ j f h (ld_chunk xo4 4000 inb_S1x10000x512_S1x1000x512_0_4000_0 j f h)) hL4
  have hL6 := rows_step _ 5000 inb_S1x10000x512_S1x1000x512_0_5000_0 _ (Cert.Spec.tileStep x0 x1 x2 x3 xo4) junk0
    (fun j f h => chunk_pay x0 x1 x2 x3 M hM 5000 xo4 _ j f h (ld_chunk xo4 5000 inb_S1x10000x512_S1x1000x512_0_5000_0 j f h)) hL5
  have hL7 := rows_step _ 6000 inb_S1x10000x512_S1x1000x512_0_6000_0 _ (Cert.Spec.tileStep x0 x1 x2 x3 xo4) junk0
    (fun j f h => chunk_pay x0 x1 x2 x3 M hM 6000 xo4 _ j f h (ld_chunk xo4 6000 inb_S1x10000x512_S1x1000x512_0_6000_0 j f h)) hL6
  have hL8 := rows_step _ 7000 inb_S1x10000x512_S1x1000x512_0_7000_0 _ (Cert.Spec.tileStep x0 x1 x2 x3 xo4) junk0
    (fun j f h => chunk_pay x0 x1 x2 x3 M hM 7000 xo4 _ j f h (ld_chunk xo4 7000 inb_S1x10000x512_S1x1000x512_0_7000_0 j f h)) hL7
  have hL9 := rows_step _ 8000 inb_S1x10000x512_S1x1000x512_0_8000_0 _ (Cert.Spec.tileStep x0 x1 x2 x3 xo4) junk0
    (fun j f h => chunk_pay x0 x1 x2 x3 M hM 8000 xo4 _ j f h (ld_chunk xo4 8000 inb_S1x10000x512_S1x1000x512_0_8000_0 j f h)) hL8
  have hL10 := rows_step _ 9000 inb_S1x10000x512_S1x1000x512_0_9000_0 _ (Cert.Spec.tileStep x0 x1 x2 x3 xo4) junk0
    (fun j f h => chunk_pay x0 x1 x2 x3 M hM 9000 xo4 _ j f h (ld_chunk xo4 9000 inb_S1x10000x512_S1x1000x512_0_9000_0 j f h)) hL9
  exact (hL10 n f).trans (if_pos n.isLt)

end Cert.KernelIdeal.Body1

end
-- ==== Proof.Body1.lean ====
/-
  One tile of the second kernel: what the body leaves in the node accumulator.

  For a tile of 256 edges (source words x1, target words x2, per-head weights x3) over the node table x0, the body
  gathers each edge's source row by ten one-hot products, weights it by the edge's weight for the column's head, and
  scatters the 256 weighted rows into the accumulator by ten transposed one-hot products, 1000 node rows at a time.
  Whether the accumulator's old contents are zeros (a core's first tile, `out1_A_4_eq`) or what the tile before left
  (`out1_B_4_eq`), the result is the specification's tile step: at node n and column f the old entry plus, over the
  edges whose target word reads n, the selected source row times the weight. The two cases are proved in the two
  modules imported here; the gather half (`msgTerm_apply`), the scatter chunk (`chunk_pay`) and the walk over the
  stores (`rows_step`, `stepA`) are in the modules they import.
-/
import proofs.«118648_j41850161332740_2_alg».proof.Proof.Body1CaseA
import proofs.«118648_j41850161332740_2_alg».proof.Proof.Body1CaseB
-- ==== Proof.LibOneHot.lean ====
/-
  One-hot matrices: comparing a vector of words with a vector of consecutive numbers, and summing against the result.

  A table row is selected without indexing by multiplying with a matrix of zeros and ones: entry (e, j) is one when
  the word of row e equals the number of column j, zero otherwise. Summing such a row against a vector g picks out
  the one entry of g whose number is the word, or nothing when the word names no column. On the extended reals
  1 * x = x and 0 * x = 0 for every x, infinite ones included, so no finiteness is needed.

  The facts below are stated over the operations a program spells this with: an equality comparison of two integer
  vectors, its one-bit result widened to a word and converted to a float (and possibly narrowed to a shorter float
  format, which at the ideal instance is the identity); and the column numbers as an iota along one axis plus a
  constant offset.

  A long table is taken in chunks: the columns of chunk c of width n are numbered n * c, …, n * c + n − 1, and a word
  names a column of at most one chunk. So the one-hot sums against the chunks, added up, give the table's entry at the
  column the word names, or zero when it names none — for ten chunks of a thousand, an entry of a table of ten thousand.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.OneHot

open Idealize.ShloMosaic Idealize.ShloMosaic.ValueIdx

/-! ## (1) The one-hot entry -/

/-- The one-bit word of an equality, widened to 32 bits and read as a signed integer, is 1 when the two words are
    equal and 0 when they are not. -/
theorem toInt_setWidth_cmpi_eq (a b : BitVec 32) :
    ((IntOp.cmpi .eq a b).setWidth 32).toInt = if a = b then 1 else 0 := by
  unfold IntOp.cmpi
  by_cases h : a = b
  · subst h
    rw [if_pos rfl]
    simp
  · rw [if_neg h]
    have hb : (a == b) = false := by simpa using h
    simp [hb]

/-- THE ONE-HOT ENTRY: comparing two integer vectors for equality, widening the bit to a word and converting it to a
    float gives, at every index, 1 where the two words are equal and 0 where they differ. -/
theorem oneHot_apply {s : Shape} (A B : IVec s 32) (h : 1 < 32) (i : s.Idx) :
    (sitofp .f32 (extui 32 (cmpi .eq A B) h) : FVec Ideal s .f32) i = if A i = B i then (1 : EReal) else 0 := by
  show (((((IntOp.cmpi .eq (A i) (B i)).setWidth 32).toInt : ℝ)) : EReal) = _
  rw [toInt_setWidth_cmpi_eq]
  by_cases hAB : A i = B i
  · rw [if_pos hAB, if_pos hAB]; simp
  · rw [if_neg hAB, if_neg hAB]; simp

/-- The one-hot entry read through a narrowing of the float format (the identity on extended reals): still 1 where the
    words are equal and 0 where they differ. -/
theorem oneHot_truncf_apply {s : Shape} {ψ : FTy} (A B : IVec s 32) (h : 1 < 32) (h' : ψ.bits < FTy.bits .f32)
    (i : s.Idx) :
    (truncf ψ (sitofp .f32 (extui 32 (cmpi .eq A B) h) : FVec Ideal s .f32) h' : FVec Ideal s ψ) i
      = if A i = B i then (1 : EReal) else 0 := by
  rw [truncf_apply, oneHot_apply]

/-! ## (2) The numbers of a chunk's columns -/

/-- The numbers of a chunk laid along a row: an iota along axis 1 of a 1 × n vector plus a constant offset reads, at
    column j, the word of j plus the offset. -/
theorem chunkRow_apply {n : Nat} (h : (⟨2, ![1, n]⟩ : Shape).Iotas .tc 32 [1]) (off : BitVec 32) (j : Fin n) :
    addi (iota .tc ⟨2, ![1, n]⟩ 32 [1] h) (broadcast ⟨2, ![1, n]⟩ off) (ix2 0 j) = BitVec.ofNat 32 j.val + off := by
  show IntOp.addi (iota .tc ⟨2, ![1, n]⟩ 32 [1] h (ix2 0 j)) off = _
  rw [iota_single_apply]
  rfl

/-- The same with the offset the word of a number c: column j reads the word of j + c. -/
theorem chunkRow_ofNat_apply {n : Nat} (h : (⟨2, ![1, n]⟩ : Shape).Iotas .tc 32 [1]) (c : Nat) (j : Fin n) :
    addi (iota .tc ⟨2, ![1, n]⟩ 32 [1] h) (broadcast ⟨2, ![1, n]⟩ (BitVec.ofNat 32 c)) (ix2 0 j)
      = BitVec.ofNat 32 (j.val + c) := by
  rw [chunkRow_apply, BitVec.ofNat_add]

/-- The same, the sum written offset first: column j reads the word of c + j. -/
theorem chunkRow_ofNat_apply' {n : Nat} (h : (⟨2, ![1, n]⟩ : Shape).Iotas .tc 32 [1]) (c : Nat) (j : Fin n) :
    addi (iota .tc ⟨2, ![1, n]⟩ 32 [1] h) (broadcast ⟨2, ![1, n]⟩ (BitVec.ofNat 32 c)) (ix2 0 j)
      = BitVec.ofNat 32 (c + j.val) := by
  rw [chunkRow_ofNat_apply, Nat.add_comm]

/-- The numbers of a chunk laid down a column: an iota along axis 0 of an n × 1 vector plus a constant offset reads,
    at row j, the word of j plus the offset. -/
theorem chunkCol_apply {n : Nat} (h : (⟨2, ![n, 1]⟩ : Shape).Iotas .tc 32 [0]) (off : BitVec 32) (j : Fin n) :
    addi (iota .tc ⟨2, ![n, 1]⟩ 32 [0] h) (broadcast ⟨2, ![n, 1]⟩ off) (ix2 j 0) = BitVec.ofNat 32 j.val + off := by
  show IntOp.addi (iota .tc ⟨2, ![n, 1]⟩ 32 [0] h (ix2 j 0)) off = _
  rw [iota_single_apply]
  rfl

/-- The same with the offset the word of a number c: row j reads the word of j + c. -/
theorem chunkCol_ofNat_apply {n : Nat} (h : (⟨2, ![n, 1]⟩ : Shape).Iotas .tc 32 [0]) (c : Nat) (j : Fin n) :
    addi (iota .tc ⟨2, ![n, 1]⟩ 32 [0] h) (broadcast ⟨2, ![n, 1]⟩ (BitVec.ofNat 32 c)) (ix2 j 0)
      = BitVec.ofNat 32 (j.val + c) := by
  rw [chunkCol_apply, BitVec.ofNat_add]

/-- The same, the sum written offset first: row j reads the word of c + j. -/
theorem chunkCol_ofNat_apply' {n : Nat} (h : (⟨2, ![n, 1]⟩ : Shape).Iotas .tc 32 [0]) (c : Nat) (j : Fin n) :
    addi (iota .tc ⟨2, ![n, 1]⟩ 32 [0] h) (broadcast ⟨2, ![n, 1]⟩ (BitVec.ofNat 32 c)) (ix2 j 0)
      = BitVec.ofNat 32 (c + j.val) := by
  rw [chunkCol_ofNat_apply, Nat.add_comm]

/-! ## (3) A word equals a small number -/

/-- A 32-bit word is the word of a number k below 2 ^ 32 exactly when it reads, unsigned, as k. -/
theorem eq_ofNat_iff (v : BitVec 32) {k : Nat} (hk : k < 2 ^ 32) : v = BitVec.ofNat 32 k ↔ v.toNat = k := by
  constructor
  · intro h
    rw [h, BitVec.toNat_ofNat, Nat.mod_eq_of_lt hk]
  · intro h
    apply BitVec.eq_of_toNat_eq
    rw [BitVec.toNat_ofNat, Nat.mod_eq_of_lt hk, h]

/-! ## (4) The sum against one row of a one-hot matrix -/

/-- THE SUM AGAINST A ONE-HOT ROW: over columns numbered off, …, off + n − 1, the sum of (1 where the word v is the
    column's number, else 0) times g at the column is g at the column v names, or 0 when v names none of them. -/
theorem sum_oneHot_mul {n : Nat} (g : Fin n → EReal) (v : BitVec 32) (off : Nat) (hoff : off + n ≤ 2 ^ 32) :
    ∑ j : Fin n, (if v = BitVec.ofNat 32 (off + j.val) then (1 : EReal) else 0) * g j
      = if h : off ≤ v.toNat ∧ v.toNat < off + n then g ⟨v.toNat - off, by omega⟩ else 0 := by
  by_cases h : off ≤ v.toNat ∧ v.toNat < off + n
  · rw [dif_pos h]
    rw [Finset.sum_eq_single (⟨v.toNat - off, by omega⟩ : Fin n)]
    · rw [if_pos, one_mul]
      rw [eq_ofNat_iff v (by show off + (v.toNat - off) < 2 ^ 32; omega)]
      show v.toNat = off + (v.toNat - off)
      omega
    · intro j _ hj
      rw [if_neg, zero_mul]
      intro hv
      apply hj
      have hjlt := j.isLt
      have := (eq_ofNat_iff v (show off + j.val < 2 ^ 32 by omega)).mp hv
      exact Fin.ext (by show j.val = v.toNat - off; omega)
    · intro hne
      exact absurd (Finset.mem_univ _) hne
  · rw [dif_neg h]
    refine Finset.sum_eq_zero ?_
    intro j _
    rw [if_neg, zero_mul]
    intro hv
    have hjlt := j.isLt
    have := (eq_ofNat_iff v (show off + j.val < 2 ^ 32 by omega)).mp hv
    exact h (by omega)

/-- The same with the one-hot factor on the right. -/
theorem sum_mul_oneHot {n : Nat} (g : Fin n → EReal) (v : BitVec 32) (off : Nat) (hoff : off + n ≤ 2 ^ 32) :
    ∑ j : Fin n, g j * (if v = BitVec.ofNat 32 (off + j.val) then (1 : EReal) else 0)
      = if h : off ≤ v.toNat ∧ v.toNat < off + n then g ⟨v.toNat - off, by omega⟩ else 0 := by
  rw [← sum_oneHot_mul g v off hoff]
  exact Finset.sum_congr rfl (fun j _ => mul_comm _ _)

/-! ## (5) The chunks of a table make the table -/

/-- Column j of chunk c, in a table of m chunks of n columns, is a column of the table. -/
theorem chunk_lt {m n : Nat} (c : Fin m) (j : Fin n) : n * c.val + j.val < m * n := by
  have h1 : n * (c.val + 1) ≤ n * m := Nat.mul_le_mul_left n c.isLt
  rw [Nat.mul_succ, Nat.mul_comm n m] at h1
  have := j.isLt
  omega

/-- ONE CHUNK: the sum of a one-hot row against chunk c of a table G of m chunks of n columns is G at the column the word
    v names when that column lies in chunk c, and 0 otherwise. -/
theorem chunk_sum {m n : Nat} (G : Fin (m * n) → EReal) (v : BitVec 32) (hmn : m * n ≤ 2 ^ 32) (c : Fin m) :
    ∑ j : Fin n, (if v = BitVec.ofNat 32 (n * c.val + j.val) then (1 : EReal) else 0) * G ⟨n * c.val + j.val, chunk_lt c j⟩
      = if n * c.val ≤ v.toNat ∧ v.toNat < n * c.val + n then (if h : v.toNat < m * n then G ⟨v.toNat, h⟩ else 0) else 0 := by
  have h1 : n * (c.val + 1) ≤ n * m := Nat.mul_le_mul_left n c.isLt
  rw [Nat.mul_succ, Nat.mul_comm n m] at h1
  rw [sum_oneHot_mul (fun j : Fin n => G ⟨n * c.val + j.val, chunk_lt c j⟩) v (n * c.val) (by omega)]
  by_cases h : n * c.val ≤ v.toNat ∧ v.toNat < n * c.val + n
  · rw [dif_pos h, if_pos h, dif_pos (show v.toNat < m * n by omega)]
    exact congrArg G (Fin.ext (by show n * c.val + (v.toNat - n * c.val) = v.toNat; omega))
  · rw [dif_neg h, if_neg h]

/-- ALL THE CHUNKS: summed over the m chunks, the one-hot rows against the chunks of G give G at the column the word v
    names, or 0 when v names no column of the table: exactly one chunk holds that column. -/
theorem sum_chunks {m n : Nat} (G : Fin (m * n) → EReal) (v : BitVec 32) (hmn : m * n ≤ 2 ^ 32) :
    ∑ c : Fin m, ∑ j : Fin n,
        (if v = BitVec.ofNat 32 (n * c.val + j.val) then (1 : EReal) else 0) * G ⟨n * c.val + j.val, chunk_lt c j⟩
      = if h : v.toNat < m * n then G ⟨v.toNat, h⟩ else 0 := by
  simp only [chunk_sum G v hmn]
  by_cases h : v.toNat < m * n
  · have hn : 0 < n := by
      rcases Nat.eq_zero_or_pos n with h0 | h0
      · subst h0; simp at h
      · exact h0
    have hq : v.toNat / n < m := (Nat.div_lt_iff_lt_mul hn).mpr h
    have hlo : n * (v.toNat / n) ≤ v.toNat := Nat.mul_div_le _ _
    have hhi : v.toNat < n * (v.toNat / n + 1) := Nat.lt_mul_div_succ _ hn
    rw [Nat.mul_succ] at hhi
    rw [Finset.sum_eq_single (⟨v.toNat / n, hq⟩ : Fin m)]
    · rw [if_pos ⟨hlo, hhi⟩]
    · intro c _ hc
      rw [if_neg]
      rintro ⟨h1, h2⟩
      apply hc
      refine Fin.ext ?_
      show c.val = v.toNat / n
      refine (Nat.div_eq_of_lt_le ?_ ?_).symm
      · rw [Nat.mul_comm]; exact h1
      · rw [Nat.add_mul, Nat.one_mul, Nat.mul_comm]; exact h2
    · intro hne
      exact absurd (Finset.mem_univ _) hne
  · rw [dif_neg h]
    refine Finset.sum_eq_zero ?_
    intro c _
    rw [ite_self]

/-- A chain of additions from zero, taken in order over the chunks, is the sum over the chunks. -/
theorem foldl_add_eq_sum {m : Nat} (S : Fin m → EReal) :
    (List.finRange m).foldl (fun acc c => acc + S c) 0 = ∑ c : Fin m, S c := by
  rw [Fin.sum_univ_def, List.sum_eq_foldl, List.foldl_map]

/-- Ten terms added one after another onto zero are their sum. -/
theorem chain10 (S : Fin 10 → EReal) :
    0 + S 0 + S 1 + S 2 + S 3 + S 4 + S 5 + S 6 + S 7 + S 8 + S 9 = ∑ c : Fin 10, S c := by
  simp only [Fin.sum_univ_castSucc, Fin.sum_univ_zero]
  rfl

/-- TEN CHUNKS OF A THOUSAND MAKE TEN THOUSAND, for ten terms known to be the ten chunk sums: added one after another
    onto zero they give G at the column the word v names, or 0 when v names none of the 10000. -/
theorem ten_chunks_of (G : Fin 10000 → EReal) (v : BitVec 32) (S : Fin 10 → EReal)
    (hS : ∀ c : Fin 10, S c = ∑ j : Fin 1000,
      (if v = BitVec.ofNat 32 (1000 * c.val + j.val) then (1 : EReal) else 0) * G ⟨1000 * c.val + j.val, by omega⟩) :
    0 + S 0 + S 1 + S 2 + S 3 + S 4 + S 5 + S 6 + S 7 + S 8 + S 9
      = if h : v.toNat < 10000 then G ⟨v.toNat, h⟩ else 0 := by
  rw [chain10, Finset.sum_congr rfl (fun c _ => hS c)]
  exact sum_chunks (m := 10) (n := 1000) G v (by norm_num)

/-- TEN CHUNKS OF A THOUSAND MAKE TEN THOUSAND, written out: the ten sums of a one-hot row against the ten chunks of G,
    added one after another onto zero. -/
theorem ten_chunks (G : Fin 10000 → EReal) (v : BitVec 32) :
    0
      + (∑ j : Fin 1000, (if v = BitVec.ofNat 32 (1000 * 0 + j.val) then (1 : EReal) else 0) * G ⟨1000 * 0 + j.val, by omega⟩)
      + (∑ j : Fin 1000, (if v = BitVec.ofNat 32 (1000 * 1 + j.val) then (1 : EReal) else 0) * G ⟨1000 * 1 + j.val, by omega⟩)
      + (∑ j : Fin 1000, (if v = BitVec.ofNat 32 (1000 * 2 + j.val) then (1 : EReal) else 0) * G ⟨1000 * 2 + j.val, by omega⟩)
      + (∑ j : Fin 1000, (if v = BitVec.ofNat 32 (1000 * 3 + j.val) then (1 : EReal) else 0) * G ⟨1000 * 3 + j.val, by omega⟩)
      + (∑ j : Fin 1000, (if v = BitVec.ofNat 32 (1000 * 4 + j.val) then (1 : EReal) else 0) * G ⟨1000 * 4 + j.val, by omega⟩)
      + (∑ j : Fin 1000, (if v = BitVec.ofNat 32 (1000 * 5 + j.val) then (1 : EReal) else 0) * G ⟨1000 * 5 + j.val, by omega⟩)
      + (∑ j : Fin 1000, (if v = BitVec.ofNat 32 (1000 * 6 + j.val) then (1 : EReal) else 0) * G ⟨1000 * 6 + j.val, by omega⟩)
      + (∑ j : Fin 1000, (if v = BitVec.ofNat 32 (1000 * 7 + j.val) then (1 : EReal) else 0) * G ⟨1000 * 7 + j.val, by omega⟩)
      + (∑ j : Fin 1000, (if v = BitVec.ofNat 32 (1000 * 8 + j.val) then (1 : EReal) else 0) * G ⟨1000 * 8 + j.val, by omega⟩)
      + (∑ j : Fin 1000, (if v = BitVec.ofNat 32 (1000 * 9 + j.val) then (1 : EReal) else 0) * G ⟨1000 * 9 + j.val, by omega⟩)
      = if h : v.toNat < 10000 then G ⟨v.toNat, h⟩ else 0 :=
  ten_chunks_of G v
    (fun c => ∑ j : Fin 1000,
      (if v = BitVec.ofNat 32 (1000 * c.val + j.val) then (1 : EReal) else 0) * G ⟨1000 * c.val + j.val, by omega⟩)
    (fun _ => rfl)

end Cert.OneHot

end
-- ==== Proof.lean ====
/-
  The certificate: the kernel (two Pallas calls — a row-tiled matrix product, then a gather, weight and scatter-add by
  one-hot products over two padded halves of the edge list) against the reference (a gather of node rows, a product, a
  slab gather at the source nodes, a product with the edge weights, a segment sum at the target nodes, plus a bias).

  Frames: both kernel programs' frames are the generated ones; the reference's frame is its generated run with the
  result dropped.  The idealization rewrote nothing, so `preserves` is `True`.  Algebraic: the idealized kernel's run
  ends with its result array at the last boundary's contents, which is the reference's result term of the same argument
  arrays: at node `n`, column `f`, the sum over the edges whose target word is `n` of the weight for the head of `f` times
  the transformed features of the edge's source node at `f`, plus the bias at `f` — on the extended reals, with no
  finiteness needed, because selecting by a one-hot product and padding with zero weights only ever multiply by 0 or 1.
-/
import proofs.«118648_j41850161332740_2_alg».proof.Defs
import proofs.«118648_j41850161332740_2_alg».proof.Proof.Gen.Kernel
import proofs.«118648_j41850161332740_2_alg».proof.Proof.Gen.Kernel.Skeleton
import proofs.«118648_j41850161332740_2_alg».proof.Proof.Gen.Kernel.Launch
import proofs.«118648_j41850161332740_2_alg».proof.Proof.Gen.Kernel.Points
import proofs.«118648_j41850161332740_2_alg».proof.Proof.Gen.Kernel.Frame
import proofs.«118648_j41850161332740_2_alg».proof.Proof.Gen.KernelIdeal
import proofs.«118648_j41850161332740_2_alg».proof.Proof.Gen.KernelIdeal.Skeleton
import proofs.«118648_j41850161332740_2_alg».proof.Proof.Gen.KernelIdeal.Launch
import proofs.«118648_j41850161332740_2_alg».proof.Proof.Gen.KernelIdeal.Points
import proofs.«118648_j41850161332740_2_alg».proof.Proof.Gen.KernelIdeal.Frame
import proofs.«118648_j41850161332740_2_alg».proof.Proof.Gen.ReferenceIdeal
import proofs.«118648_j41850161332740_2_alg».proof.Proof.Gen.Pre_finite_inputs
import proofs.«118648_j41850161332740_2_alg».proof.Proof.Gen.ReferenceIdeal.Run
import proofs.«118648_j41850161332740_2_alg».proof.Proof.Gen.ReferenceIdeal.Read
import proofs.«118648_j41850161332740_2_alg».proof.Proof.RunValue
import proofs.«118648_j41850161332740_2_alg».proof.Proof.KernelValue
import proofs.«118648_j41850161332740_2_alg».proof.Proof.Region1
import proofs.«118648_j41850161332740_2_alg».proof.Proof.Body1
import proofs.«118648_j41850161332740_2_alg».proof.Proof.LibOneHot
import Idealize.ShloMosaic.Adequacy
import Idealize.ShloMosaic.Init

set_option maxRecDepth 16384

noncomputable section

namespace Cert.Proof

open Idealize.ShloMosaic Idealize.ShloMosaic.TcCoe Idealize.SL.Sem

/-- The word-level kernel's frame: the generated one. -/
theorem frame_k : Cert.frame_Kernel (hKernel := Cert.Kernel.Gen.facts) (hPre_finite_inputs := Cert.Pre_finite_inputs.Gen.facts) :=
  fun m ρ _ => Cert.Kernel.Gen.frame m ρ

/-- The idealized kernel's frame: the generated one. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's last boundary holds the reference's result term of the same arguments: one tile of the second
    kernel is `Cert.Spec.tileStep` (`out1_A_4_eq` on a half's first tile, from zero; `out1_B_4_eq` on the others, from what the tile before left), so each half's accumulator is the sum over its tiles
    (`region1_value`), and `result_eq_of` does the rest. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W5 m ρ c (Proc.devRef .tc Cert.KernelIdeal.main_v67)
      = Cert.ReferenceIdeal.Read.val_main_v59 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) :=
  Cert.KernelIdeal.KValue.result_eq_of m ρ
    (fun c k n f => Cert.KernelIdeal.Region1.region1_value (Cert.KernelIdeal.Gen.V3 m ρ)
      Cert.KernelIdeal.Body1.out1_A_4_eq Cert.KernelIdeal.Body1.out1_B_4_eq c k n f) c

/-- Both idealized programs, run from memories that agree on the arguments, end with the same result: the reference's
    result term of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c => ⟨(h c).1.trans (result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
